-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x64x64x256 : Shape := ⟨4, ![8, 64, 64, 256]⟩
abbrev S256 : Shape := ⟨1, ![256]⟩
abbrev S2x8x4x64 : Shape := ⟨4, ![2, 8, 4, 64]⟩
abbrev S256x1536 : Shape := ⟨2, ![256, 1536]⟩
abbrev S1536 : Shape := ⟨1, ![1536]⟩
abbrev S512x256 : Shape := ⟨2, ![512, 256]⟩
abbrev S_ : Shape := ⟨0, ![]⟩

class Facts : Prop where
  bcast_S_S8x64x64x256 : S_.BroadcastsInDim S8x64x64x256 (![] : Fin 0 → Fin S8x64x64x256.rank)
  reducesTo_S8x64x64x256_S_d0_1_2_3 : S8x64x64x256.ReducesTo [0, 1, 2, 3] S_
  h_S_ : 0 < S_.numel
  bcast_S_S256 : S_.BroadcastsInDim S256 (![] : Fin 0 → Fin S256.rank)
  reducesTo_S256_S_d0 : S256.ReducesTo [0] S_
  bcast_S_S2x8x4x64 : S_.BroadcastsInDim S2x8x4x64 (![] : Fin 0 → Fin S2x8x4x64.rank)
  reducesTo_S2x8x4x64_S_d0_1_2_3 : S2x8x4x64.ReducesTo [0, 1, 2, 3] S_
  bcast_S_S256x1536 : S_.BroadcastsInDim S256x1536 (![] : Fin 0 → Fin S256x1536.rank)
  reducesTo_S256x1536_S_d0_1 : S256x1536.ReducesTo [0, 1] S_
  bcast_S_S1536 : S_.BroadcastsInDim S1536 (![] : Fin 0 → Fin S1536.rank)
  reducesTo_S1536_S_d0 : S1536.ReducesTo [0] S_
  bcast_S_S512x256 : S_.BroadcastsInDim S512x256 (![] : Fin 0 → Fin S512x256.rank)
  reducesTo_S512x256_S_d0_1 : S512x256.ReducesTo [0, 1] S_

variable [Facts]

def fn_part2 {F : FTy → Type} [FloatOps F] (main_arg7 : FVec F S256 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  main_v38

def fn_part1 {F : FTy → Type} [FloatOps F] (main_arg4 : FVec F S1536 .f32) (main_arg5 : FVec F S512x256 .f32) (main_arg6 : FVec F S256 .f32) (main_arg7 : FVec F S256 .f32) (main_v13 : IVec S_ 1) (main_v16 : IVec S256x1536 1) : IVec S_ 1 :=
  let main_c_5 : IVec S_ 1 := constantI S_ 1 1#1
  let main_v17 : IVec S_ 1 := (fun x v => Host.reduce IntOp.andi x v reducesTo_S256x1536_S_d0_1 h_S_) main_v16 main_c_5
  let main_v18 : IVec S_ 1 := andi main_v13 main_v17
  let main_v19 : FVec F S1536 .f32 := Host.absf main_arg4
  let main_cst_6 : FVec F S_ .f32 := constant S_ .f32 0x7F800000#32
  let main_v20 : FVec F S1536 .f32 := broadcastInDim S1536 ![] bcast_S_S1536 main_cst_6
  let main_v21 : IVec S1536 1 := cmpf .olt main_v19 main_v20
  let main_c_7 : IVec S_ 1 := constantI S_ 1 1#1
  let main_v22 : IVec S_ 1 := (fun x v => Host.reduce IntOp.andi x v reducesTo_S1536_S_d0 h_S_) main_v21 main_c_7
  let main_v23 : IVec S_ 1 := andi main_v18 main_v22
  let main_v24 : FVec F S512x256 .f32 := Host.absf main_arg5
  let main_cst_8 : FVec F S_ .f32 := constant S_ .f32 0x7F800000#32
  let main_v25 : FVec F S512x256 .f32 := broadcastInDim S512x256 ![] bcast_S_S512x256 main_cst_8
  let main_v26 : IVec S512x256 1 := cmpf .olt main_v24 main_v25
  let main_c_9 : IVec S_ 1 := constantI S_ 1 1#1
  let main_v27 : IVec S_ 1 := (fun x v => Host.reduce IntOp.andi x v reducesTo_S512x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_v33

def fn {F : FTy → Type} [FloatOps F] (main_arg0 : FVec F S8x64x64x256 .f32) (main_arg1 : FVec F S256 .f32) (main_arg2 : FVec F S2x8x4x64 .f32) (main_arg3 : FVec F S256x1536 .f32) (main_arg4 : FVec F S1536 .f32) (main_arg5 : FVec F S512x256 .f32) (main_arg6 : FVec F S256 .f32) (main_arg7 : FVec F S256 .f32) : IVec S_ 1 :=
  let main_v0 : FVec F S8x64x64x256 .f32 := Host.absf main_arg0
  let main_cst : FVec F S_ .f32 := constant S_ .f32 0x7F800000#32
  let main_v1 : FVec F S8x64x64x256 .f32 := broadcastInDim S8x64x64x256 ![] bcast_S_S8x64x64x256 main_cst
  let main_v2 : IVec S8x64x64x256 1 := cmpf .olt main_v0 main_v1
  let main_c : IVec S_ 1 := constantI S_ 1 1#1
  let main_v3 : IVec S_ 1 := (fun x v => Host.reduce IntOp.andi x v reducesTo_S8x64x64x256_S_d0_1_2_3 h_S_) main_v2 main_c
  let main_v4 : FVec F S256 .f32 := Host.absf main_arg1
  let main_cst_0 : FVec F S_ .f32 := constant S_ .f32 0x7F800000#32
  let main_v5 : FVec F S256 .f32 := broadcastInDim S256 ![] bcast_S_S256 main_cst_0
  let main_v6 : IVec S256 1 := cmpf .olt main_v4 main_v5
  let main_c_1 : IVec S_ 1 := constantI S_ 1 1#1
  let main_v7 : IVec S_ 1 := (fun x v => Host.reduce IntOp.andi x v reducesTo_S256_S_d0 h_S_) main_v6 main_c_1
  let main_v8 : IVec S_ 1 := andi main_v3 main_v7
  let main_v9 : FVec F S2x8x4x64 .f32 := Host.absf main_arg2
  let main_cst_2 : FVec F S_ .f32 := constant S_ .f32 0x7F800000#32
  let main_v10 : FVec F S2x8x4x64 .f32 := broadcastInDim S2x8x4x64 ![] bcast_S_S2x8x4x64 main_cst_2
  let main_v11 : IVec S2x8x4x64 1 := cmpf .olt main_v9 main_v10
  let main_c_3 : IVec S_ 1 := constantI S_ 1 1#1
  let main_v12 : IVec S_ 1 := (fun x v => Host.reduce IntOp.andi x v reducesTo_S2x8x4x64_S_d0_1_2_3 h_S_) main_v11 main_c_3
  let main_v13 : IVec S_ 1 := andi main_v8 main_v12
  let main_v14 : FVec F S256x1536 .f32 := Host.absf main_arg3
  let main_cst_4 : FVec F S_ .f32 := constant S_ .f32 0x7F800000#32
  let main_v15 : FVec F S256x1536 .f32 := broadcastInDim S256x1536 ![] bcast_S_S256x1536 main_cst_4
  let main_v16 : IVec S256x1536 1 := cmpf .olt main_v14 main_v15
  fn_part1 (F := F) main_arg4 main_arg5 main_arg6 main_arg7 main_v13 main_v16
-- ==== Kernel.lean ====
abbrev S8x64x64x256 : Shape := ⟨4, ![8, 64, 64, 256]⟩
abbrev S256 : Shape := ⟨1, ![256]⟩
abbrev S2x8x4x64 : Shape := ⟨4, ![2, 8, 4, 64]⟩
abbrev S256x1536 : Shape := ⟨2, ![256, 1536]⟩
abbrev S1536 : Shape := ⟨1, ![1536]⟩
abbrev S512x256 : Shape := ⟨2, ![512, 256]⟩
abbrev S8x4096x256 : Shape := ⟨3, ![8, 4096, 256]⟩
abbrev S1x256 : Shape := ⟨2, ![1, 256]⟩
abbrev S256x512 : Shape := ⟨2, ![256, 512]⟩
abbrev S256x1024 : Shape := ⟨2, ![256, 1024]⟩
abbrev S512 : Shape := ⟨1, ![512]⟩
abbrev S1x512 : Shape := ⟨2, ![1, 512]⟩
abbrev S1024 : Shape := ⟨1, ![1024]⟩
abbrev S1x1024 : Shape := ⟨2, ![1, 1024]⟩
abbrev S1x8x4x64 : Shape := ⟨4, ![1, 8, 4, 64]⟩
abbrev S8x4x64 : Shape := ⟨3, ![8, 4, 64]⟩
abbrev S8x64x64 : Shape := ⟨3, ![8, 64, 64]⟩
abbrev S512x64 : Shape := ⟨2, ![512, 64]⟩
abbrev S8x512x64 : Shape := ⟨3, ![8, 512, 64]⟩
abbrev S1x2048x256 : Shape := ⟨3, ![1, 2048, 256]⟩
abbrev S1x512x64 : Shape := ⟨3, ![1, 512, 64]⟩
abbrev S2048x256 : Shape := ⟨2, ![2048, 256]⟩
abbrev S2048x1024 : Shape := ⟨2, ![2048, 1024]⟩
abbrev S2048x512 : Shape := ⟨2, ![2048, 512]⟩
abbrev S2048x64 : Shape := ⟨2, ![2048, 64]⟩
abbrev S64x64 : Shape := ⟨2, ![64, 64]⟩
abbrev S1x64x64 : Shape := ⟨3, ![1, 64, 64]⟩

abbrev nBuf : Space → Nat
  | .hbm => 29
  | .vmem => 21
  | .smem => 0
  | _ => 0

abbrev bufTy : (tb : Table) → Fin (tcTables nBuf tb) → BufTy
  | .hbm, ⟨0, _⟩ => ⟨S8x64x64x256, .f32⟩
  | .hbm, ⟨1, _⟩ => ⟨S256, .f32⟩
  | .hbm, ⟨2, _⟩ => ⟨S2x8x4x64, .f32⟩
  | .hbm, ⟨3, _⟩ => ⟨S256x1536, .f32⟩
  | .hbm, ⟨4, _⟩ => ⟨S1536, .f32⟩
  | .hbm, ⟨5, _⟩ => ⟨S512x256, .f32⟩
  | .hbm, ⟨6, _⟩ => ⟨S256, .f32⟩
  | .hbm, ⟨7, _⟩ => ⟨S256, .f32⟩
  | .hbm, ⟨8, _⟩ => ⟨S8x4096x256, .f32⟩
  | .hbm, ⟨9, _⟩ => ⟨S1x256, .f32⟩
  | .hbm, ⟨10, _⟩ => ⟨S1x256, .f32⟩
  | .hbm, ⟨11, _⟩ => ⟨S256x1536, .bf16⟩
  | .hbm, ⟨12, _⟩ => ⟨S256x512, .bf16⟩
  | .hbm, ⟨13, _⟩ => ⟨S256x1024, .bf16⟩
  | .hbm, ⟨14, _⟩ => ⟨S512x256, .bf16⟩
  | .hbm, ⟨15, _⟩ => ⟨S512, .f32⟩
  | .hbm, ⟨16, _⟩ => ⟨S1x512, .f32⟩
  | .hbm, ⟨17, _⟩ => ⟨S1024, .f32⟩
  | .hbm, ⟨18, _⟩ => ⟨S1x1024, .f32⟩
  | .hbm, ⟨19, _⟩ => ⟨S1x256, .f32⟩
  | .hbm, ⟨20, _⟩ => ⟨S1x8x4x64, .f32⟩
  | .hbm, ⟨21, _⟩ => ⟨S8x4x64, .f32⟩
  | .hbm, ⟨22, _⟩ => ⟨S1x8x4x64, .f32⟩
  | .hbm, ⟨23, _⟩ => ⟨S8x4x64, .f32⟩
  | .hbm, ⟨24, _⟩ => ⟨S8x64x64, .f32⟩
  | .hbm, ⟨25, _⟩ => ⟨S512x64, .f32⟩
  | .hbm, ⟨26, _⟩ => ⟨S8x512x64, .f32⟩
  | .hbm, ⟨27, _⟩ => ⟨S8x4096x256, .f32⟩
  | .hbm, ⟨28, _⟩ => ⟨S8x64x64x256, .f32⟩
  | .local _ .vmem, ⟨0, _⟩ => ⟨S1x2048x256, .f32⟩
  | .local _ .vmem, ⟨1, _⟩ => ⟨S1x2048x256, .f32⟩
  | .local _ .vmem, ⟨2, _⟩ => ⟨S1x256, .f32⟩
  | .local _ .vmem, ⟨3, _⟩ => ⟨S256x1024, .bf16⟩
  | .local _ .vmem, ⟨4, _⟩ => ⟨S1x1024, .f32⟩
  | .local _ .vmem, ⟨5, _⟩ => ⟨S512x64, .f32⟩
  | .local _ .vmem, ⟨6, _⟩ => ⟨S1x512x64, .f32⟩
  | .local _ .vmem, ⟨7, _⟩ => ⟨S1x512x64, .f32⟩
  | .local _ .vmem, ⟨8, _⟩ => ⟨S1x2048x256, .f32⟩
  | .local _ .vmem, ⟨9, _⟩ => ⟨S1x2048x256, .f32⟩
  | .local _ .vmem, ⟨10, _⟩ => ⟨S1x256, .f32⟩
  | .local _ .vmem, ⟨11, _⟩ => ⟨S256x512, .bf16⟩
  | .local _ .vmem, ⟨12, _⟩ => ⟨S1x512, .f32⟩
  | .local _ .vmem, ⟨13, _⟩ => ⟨S1x512x64, .f32⟩
  | .local _ .vmem, ⟨14, _⟩ => ⟨S1x512x64, .f32⟩
  | .local _ .vmem, ⟨15, _⟩ => ⟨S512x256, .bf16⟩
  | .local _ .vmem, ⟨16, _⟩ => ⟨S1x256, .f32⟩
  | .local _ .vmem, ⟨17, _⟩ => ⟨S1x256, .f32⟩
  | .local _ .vmem, ⟨18, _⟩ => ⟨S1x2048x256, .f32⟩
  | .local _ .vmem, ⟨19, _⟩ => ⟨S1x2048x256, .f32⟩
  | .local _ .vmem, ⟨20, _⟩ => ⟨S2048x512, .bf16⟩
  | _, _ => ⟨S8x64x64x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg8_0 : Ref sig .tc := ⟨.vmem, 18, rfl⟩
abbrev cc1_stg8_1 : Ref sig .tc := ⟨.vmem, 19, rfl⟩
abbrev cc1_scratch0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem4_1 : DmaSem sig := 14
abbrev cc1_sem5_0 : DmaSem sig := 15
abbrev cc1_sem6_0 : DmaSem sig := 16
abbrev cc1_sem7_0 : DmaSem sig := 17
abbrev cc1_sem8_0 : DmaSem sig := 18
abbrev cc1_sem8_1 : DmaSem sig := 19

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨2, ![8, 2], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x2048x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S256x512 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1x512x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 1 → Memref sig .tc .vmem S512x256 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S1x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 2 → Memref sig .tc .vmem S1x2048x256 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

class Facts₀ : Prop where
  shapeCasts_S8x64x64x256_S8x4096x256 : S8x64x64x256.ShapeCasts S8x4096x256
  shapeCasts_S256_S1x256 : S256.ShapeCasts S1x256
  bitsLt_bf16_f32 : FTy.bits .bf16 < FTy.bits .f32
  slices_S256x1536_S256x512_0_0 : S256x1536.Slices ![0, 0] S256x512
  slices_S256x1536_S256x1024_0_512 : S256x1536.Slices ![0, 512] S256x1024
  slices_S1536_S512_0 : S1536.Slices ![0] S512
  shapeCasts_S512_S1x512 : S512.ShapeCasts S1x512
  slices_S1536_S1024_512 : S1536.Slices ![512] S1024
  shapeCasts_S1024_S1x1024 : S1024.ShapeCasts S1x1024
  slices_S2x8x4x64_S1x8x4x64_0_0_0_0 : S2x8x4x64.Slices ![0, 0, 0, 0] S1x8x4x64
  shapeCasts_S1x8x4x64_S8x4x64 : S1x8x4x64.ShapeCasts S8x4x64
  slices_S2x8x4x64_S1x8x4x64_1_0_0_0 : S2x8x4x64.Slices ![1, 0, 0, 0] S1x8x4x64
  shapeCasts_S8x64x64_S512x64 : S8x64x64.ShapeCasts S512x64
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  shapeCasts_S512x64_S1x512x64 : S512x64.ShapeCasts S1x512x64
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  slices_S2048x1024_o0_0_S2048x512 : S2048x1024.Slices ![0, 0] S2048x512
  slices_S2048x1024_o0_512_S2048x512 : S2048x1024.Slices ![0, 512] S2048x512
  slices_S2048x512_o0_0_S2048x64 : S2048x512.Slices ![0, 0] S2048x64
  inb_S1x512x64_S1x64x64_0_0_0 : ∀ a, (![0, 0, 0] : Fin 3 → Nat) a + S1x64x64.size a ≤ S1x512x64.size a
  h_S1x64x64 : 0 < S1x64x64.numel
  shapeCasts_S1x64x64_S64x64 : S1x64x64.ShapeCasts S64x64
  shapeCasts_S64x64_S1x64x64 : S64x64.ShapeCasts S1x64x64
  slices_S2048x512_o0_64_S2048x64 : S2048x512.Slices ![0, 64] S2048x64
  inb_S1x512x64_S1x64x64_0_64_0 : ∀ a, (![0, 64, 0] : Fin 3 → Nat) a + S1x64x64.size a ≤ S1x512x64.size a
  slices_S2048x512_o0_128_S2048x64 : S2048x512.Slices ![0, 128] S2048x64
  inb_S1x512x64_S1x64x64_0_128_0 : ∀ a, (![0, 128, 0] : Fin 3 → Nat) a + S1x64x64.size a ≤ S1x512x64.size a
  slices_S2048x512_o0_192_S2048x64 : S2048x512.Slices ![0, 192] S2048x64
  inb_S1x512x64_S1x64x64_0_192_0 : ∀ a, (![0, 192, 0] : Fin 3 → Nat) a + S1x64x64.size a ≤ S1x512x64.size a
  slices_S2048x512_o0_256_S2048x64 : S2048x512.Slices ![0, 256] S2048x64
  inb_S1x512x64_S1x64x64_0_256_0 : ∀ a, (![0, 256, 0] : Fin 3 → Nat) a + S1x64x64.size a ≤ S1x512x64.size a
  slices_S2048x512_o0_320_S2048x64 : S2048x512.Slices ![0, 320] S2048x64
  inb_S1x512x64_S1x64x64_0_320_0 : ∀ a, (![0, 320, 0] : Fin 3 → Nat) a + S1x64x64.size a ≤ S1x512x64.size a
  slices_S2048x512_o0_384_S2048x64 : S2048x512.Slices ![0, 384] S2048x64
  inb_S1x512x64_S1x64x64_0_384_0 : ∀ a, (![0, 384, 0] : Fin 3 → Nat) a + S1x64x64.size a ≤ S1x512x64.size a
  slices_S2048x512_o0_448_S2048x64 : S2048x512.Slices ![0, 448] S2048x64
  inb_S1x512x64_S1x64x64_0_448_0 : ∀ a, (![0, 448, 0] : Fin 3 → Nat) a + S1x64x64.size a ≤ S1x512x64.size a
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  inb_S2048x512_S2048x64_0_0 : ∀ a, (![0, 0] : Fin 2 → Nat) a + S2048x64.size a ≤ S2048x512.size a
  h_S2048x64 : 0 < S2048x64.numel
  shapeCasts_S2048x64_S2048x64 : S2048x64.ShapeCasts S2048x64
  packedbf16_S2048x512_S2048x64_0_0 : (Rect.unit (s := S2048x512) ![0, 0] S2048x64.size inb_S2048x512_S2048x64_0_0).PackedRows (EltTy.packing .bf16)
  inb_S2048x512_S2048x64_0_64 : ∀ a, (![0, 64] : Fin 2 → Nat) a + S2048x64.size a ≤ S2048x512.size a
  packedbf16_S2048x512_S2048x64_0_64 : (Rect.unit (s := S2048x512) ![0, 64] S2048x64.size inb_S2048x512_S2048x64_0_64).PackedRows (EltTy.packing .bf16)
  inb_S2048x512_S2048x64_0_128 : ∀ a, (![0, 128] : Fin 2 → Nat) a + S2048x64.size a ≤ S2048x512.size a
  packedbf16_S2048x512_S2048x64_0_128 : (Rect.unit (s := S2048x512) ![0, 128] S2048x64.size inb_S2048x512_S2048x64_0_128).PackedRows (EltTy.packing .bf16)
  inb_S2048x512_S2048x64_0_192 : ∀ a, (![0, 192] : Fin 2 → Nat) a + S2048x64.size a ≤ S2048x512.size a
  packedbf16_S2048x512_S2048x64_0_192 : (Rect.unit (s := S2048x512) ![0, 192] S2048x64.size inb_S2048x512_S2048x64_0_192).PackedRows (EltTy.packing .bf16)
  inb_S2048x512_S2048x64_0_256 : ∀ a, (![0, 256] : Fin 2 → Nat) a + S2048x64.size a ≤ S2048x512.size a
  packedbf16_S2048x512_S2048x64_0_256 : (Rect.unit (s := S2048x512) ![0, 256] S2048x64.size inb_S2048x512_S2048x64_0_256).PackedRows (EltTy.packing .bf16)
  inb_S2048x512_S2048x64_0_320 : ∀ a, (![0, 320] : Fin 2 → Nat) a + S2048x64.size a ≤ S2048x512.size a
  packedbf16_S2048x512_S2048x64_0_320 : (Rect.unit (s := S2048x512) ![0, 320] S2048x64.size inb_S2048x512_S2048x64_0_320).PackedRows (EltTy.packing .bf16)
  inb_S2048x512_S2048x64_0_384 : ∀ a, (![0, 384] : Fin 2 → Nat) a + S2048x64.size a ≤ S2048x512.size a
  packedbf16_S2048x512_S2048x64_0_384 : (Rect.unit (s := S2048x512) ![0, 384] S2048x64.size inb_S2048x512_S2048x64_0_384).PackedRows (EltTy.packing .bf16)
  inb_S2048x512_S2048x64_0_448 : ∀ a, (![0, 448] : Fin 2 → Nat) a + S2048x64.size a ≤ S2048x512.size a
  packedbf16_S2048x512_S2048x64_0_448 : (Rect.unit (s := S2048x512) ![0, 448] S2048x64.size inb_S2048x512_S2048x64_0_448).PackedRows (EltTy.packing .bf16)
  inb_S2048x512_S2048x512_0_0 : ∀ a, (![0, 0] : Fin 2 → Nat) a + S2048x512.size a ≤ S2048x512.size a
  h_S2048x512 : 0 < S2048x512.numel
  inb_S512x256_S512x256_0_0 : ∀ a, (![0, 0] : Fin 2 → Nat) a + S512x256.size a ≤ S512x256.size a
  h_S512x256 : 0 < S512x256.numel
  shapeCasts_S512x256_S512x256 : S512x256.ShapeCasts S512x256
  shapeCasts_S2048x256_S1x2048x256 : S2048x256.ShapeCasts S1x2048x256
  shapeCasts_S8x4096x256_S8x64x64x256 : S8x4096x256.ShapeCasts S8x64x64x256
  dot_S8x4x64_S8x4x64_S8x64x64_1_1_2_2_0_0_wf : DotDims.WF S8x4x64 S8x4x64 S8x64x64 [1] [1] [2] [2] [0] [0]
  dot_S2048x256_S256x1024_S2048x1024_1_0_0_1_n_n_wf : DotDims.WF S2048x256 S256x1024 S2048x1024 [1] [0] [0] [1] [] []
  dot_S2048x64_S2048x64_S64x64_0_0_1_1_n_n_wf : DotDims.WF S2048x64 S2048x64 S64x64 [0] [0] [1] [1] [] []
  dot_S2048x256_S256x512_S2048x512_1_0_0_1_n_n_wf : DotDims.WF S2048x256 S256x512 S2048x512 [1] [0] [0] [1] [] []
  dot_S2048x64_S64x64_S2048x64_1_0_0_1_n_n_wf : DotDims.WF S2048x64 S64x64 S2048x64 [1] [0] [0] [1] [] []
  dot_S2048x512_S512x256_S2048x256_1_0_0_1_n_n_wf : DotDims.WF S2048x512 S512x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x256.size a ≤ S8x4096x256.size a
  hwx0_0 : ∀ i : grid0.Coords, EltTy.bits .f32 = 32 ∨ (Rect.block (s := S8x4096x256) S1x2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x256.size a ≤ S1x256.size a
  hwx0_1 : ∀ i : grid0.Coords, EltTy.bits .f32 = 32 ∨ (Rect.block (s := S1x256) S1x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S256x1024.size a
  hwx0_2 : ∀ i : grid0.Coords, EltTy.bits .bf16 = 32 ∨ (Rect.block (s := S256x1024) S256x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x64.size a ≤ S512x64.size a
  hwx0_4 : ∀ i : grid0.Coords, EltTy.bits .f32 = 32 ∨ (Rect.block (s := S512x64) S512x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x64.size a ≤ S8x512x64.size a
  hwx0_5 : ∀ i : grid0.Coords, EltTy.bits .f32 = 32 ∨ (Rect.block (s := S8x512x64) S1x512x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x2048x256.size a ≤ S8x4096x256.size a
  hwx1_0 : ∀ i : grid1.Coords, EltTy.bits .f32 = 32 ∨ (Rect.block (s := S8x4096x256) S1x2048x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x512.size a ≤ S256x512.size a
  hwx1_2 : ∀ i : grid1.Coords, EltTy.bits .bf16 = 32 ∨ (Rect.block (s := S256x512) S256x512.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x512.size a
  hwx1_3 : ∀ i : grid1.Coords, EltTy.bits .f32 = 32 ∨ (Rect.block (s := S1x512) S1x512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x512x64.size a ≤ S8x512x64.size a
  hwx1_4 : ∀ i : grid1.Coords, EltTy.bits .f32 = 32 ∨ (Rect.block (s := S8x512x64) S1x512x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S512x256.size a ≤ S512x256.size a
  hwx1_5 : ∀ i : grid1.Coords, EltTy.bits .bf16 = 32 ∨ (Rect.block (s := S512x256) S512x256.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x256.size a ≤ S1x256.size a
  hwx1_6 : ∀ i : grid1.Coords, EltTy.bits .f32 = 32 ∨ (Rect.block (s := S1x256) S1x256.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x256.size a ≤ S1x256.size a
  hwx1_7 : ∀ i : grid1.Coords, EltTy.bits .f32 = 32 ∨ (Rect.block (s := S1x256) S1x256.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S1x2048x256.size a ≤ S8x4096x256.size a
  hwx1_8 : ∀ i : grid1.Coords, EltTy.bits .f32 = 32 ∨ (Rect.block (s := S8x4096x256) S1x2048x256.size (cc1_transform_8 i) (hinb1_8 i)).WholeWords (EltTy.packing .f32)

variable [Facts₀]

def dot_S8x4x64_S8x4x64_S8x64x64_1_1_2_2_0_0 : DotDims S8x4x64 S8x4x64 S8x64x64 where
  lhsContracting := [1]
  rhsContracting := [1]
  lhsNonContracting := [2]
  rhsNonContracting := [2]
  lhsBatch := [0]
  rhsBatch := [0]
  wf := dot_S8x4x64_S8x4x64_S8x64x64_1_1_2_2_0_0_wf
def dot_S2048x256_S256x1024_S2048x1024_1_0_0_1_n_n : DotDims S2048x256 S256x1024 S2048x1024 where
  lhsContracting := [1]
  rhsContracting := [0]
  lhsNonContracting := [0]
  rhsNonContracting := [1]
  lhsBatch := []
  rhsBatch := []
  wf := dot_S2048x256_S256x1024_S2048x1024_1_0_0_1_n_n_wf
def dot_S2048x64_S2048x64_S64x64_0_0_1_1_n_n : DotDims S2048x64 S2048x64 S64x64 where
  lhsContracting := [0]
  rhsContracting := [0]
  lhsNonContracting := [1]
  rhsNonContracting := [1]
  lhsBatch := []
  rhsBatch := []
  wf := dot_S2048x64_S2048x64_S64x64_0_0_1_1_n_n_wf
def dot_S2048x256_S256x512_S2048x512_1_0_0_1_n_n : DotDims S2048x256 S256x512 S2048x512 where
  lhsContracting := [1]
  rhsContracting := [0]
  lhsNonContracting := [0]
  rhsNonContracting := [1]
  lhsBatch := []
  rhsBatch := []
  wf := dot_S2048x256_S256x512_S2048x512_1_0_0_1_n_n_wf
def dot_S2048x64_S64x64_S2048x64_1_0_0_1_n_n : DotDims S2048x64 S64x64 S2048x64 where
  lhsContracting := [1]
  rhsContracting := [0]
  lhsNonContracting := [0]
  rhsNonContracting := [1]
  lhsBatch := []
  rhsBatch := []
  wf := dot_S2048x64_S64x64_S2048x64_1_0_0_1_n_n_wf
def dot_S2048x512_S512x256_S2048x256_1_0_0_1_n_n : DotDims S2048x512 S512x256 S2048x256 where
  lhsContracting := [1]
  rhsContracting := [0]
  lhsNonContracting := [0]
  rhsNonContracting := [1]
  lhsBatch := []
  rhsBatch := []
  wf := dot_S2048x512_S512x256_S2048x256_1_0_0_1_n_n_wf

abbrev win0_0 : Pipeline.Window sig grid0 :=
  Pipeline.Window.ofSpec (Memref.whole main_v0) S1x2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S256x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v17) S512x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v18) S1x512x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v0) S1x2048x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v4) S256x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v8) S1x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v18) S1x512x64.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v6) S512x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v11) S1x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v2) S1x256.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v19) S1x2048x256.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S8x64x64x256 : Shape := ⟨4, ![8, 64, 64, 256]⟩
abbrev S256 : Shape := ⟨1, ![256]⟩
abbrev S2x8x4x64 : Shape := ⟨4, ![2, 8, 4, 64]⟩
abbrev S256x1536 : Shape := ⟨2, ![256, 1536]⟩
abbrev S1536 : Shape := ⟨1, ![1536]⟩
abbrev S512x256 : Shape := ⟨2, ![512, 256]⟩
abbrev S_ : Shape := ⟨0, ![]⟩
abbrev S1x1x1x256 : Shape := ⟨4, ![1, 1, 1, 256]⟩
abbrev S8x64x64x1536 : Shape := ⟨4, ![8, 64, 64, 1536]⟩
abbrev S1x1x1x1536 : Shape := ⟨4, ![1, 1, 1, 1536]⟩
abbrev S8x64x64x512 : Shape := ⟨4, ![8, 64, 64, 512]⟩
abbrev S8x4096x8x64 : Shape := ⟨4, ![8, 4096, 8, 64]⟩
abbrev S8x8x4096x64 : Shape := ⟨4, ![8, 8, 4096, 64]⟩
abbrev S1x8x4x64 : Shape := ⟨4, ![1, 8, 4, 64]⟩
abbrev S8x4x64 : Shape := ⟨3, ![8, 4, 64]⟩
abbrev S8x8x4x64 : Shape := ⟨4, ![8, 8, 4, 64]⟩
abbrev S8x8x4100x64 : Shape := ⟨4, ![8, 8, 4100, 64]⟩
abbrev S8x8x64x64 : Shape := ⟨4, ![8, 8, 64, 64]⟩

abbrev nBuf : Space → Nat
  | .hbm => 58
  | .vmem => 0
  | .smem => 0
  | _ => 0

abbrev bufTy : (tb : Table) → Fin (tcTables nBuf tb) → BufTy
  | .hbm, ⟨0, _⟩ => ⟨S8x64x64x256, .f32⟩
  | .hbm, ⟨1, _⟩ => ⟨S256, .f32⟩
  | .hbm, ⟨2, _⟩ => ⟨S2x8x4x64, .f32⟩
  | .hbm, ⟨3, _⟩ => ⟨S256x1536, .f32⟩
  | .hbm, ⟨4, _⟩ => ⟨S1536, .f32⟩
  | .hbm, ⟨5, _⟩ => ⟨S512x256, .f32⟩
  | .hbm, ⟨6, _⟩ => ⟨S256, .f32⟩
  | .hbm, ⟨7, _⟩ => ⟨S256, .f32⟩
  | .hbm, ⟨8, _⟩ => ⟨S_, .f32⟩
  | .hbm, ⟨9, _⟩ => ⟨S256, .f32⟩
  | .hbm, ⟨10, _⟩ => ⟨S256, .f32⟩
  | .hbm, ⟨11, _⟩ => ⟨S1x1x1x256, .f32⟩
  | .hbm, ⟨12, _⟩ => ⟨S8x64x64x256, .f32⟩
  | .hbm, ⟨13, _⟩ => ⟨S8x64x64x256, .f32⟩
  | .hbm, ⟨14, _⟩ => ⟨S_, .f32⟩
  | .hbm, ⟨15, _⟩ => ⟨S8x64x64x256, .f32⟩
  | .hbm, ⟨16, _⟩ => ⟨S8x64x64x256, .f32⟩
  | .hbm, ⟨17, _⟩ => ⟨S8x64x64x1536, .f32⟩
  | .hbm, ⟨18, _⟩ => ⟨S1x1x1x1536, .f32⟩
  | .hbm, ⟨19, _⟩ => ⟨S8x64x64x1536, .f32⟩
  | .hbm, ⟨20, _⟩ => ⟨S8x64x64x1536, .f32⟩
  | .hbm, ⟨21, _⟩ => ⟨S8x64x64x512, .f32⟩
  | .hbm, ⟨22, _⟩ => ⟨S8x64x64x512, .f32⟩
  | .hbm, ⟨23, _⟩ => ⟨S8x64x64x512, .f32⟩
  | .hbm, ⟨24, _⟩ => ⟨S8x4096x8x64, .f32⟩
  | .hbm, ⟨25, _⟩ => ⟨S8x8x4096x64, .f32⟩
  | .hbm, ⟨26, _⟩ => ⟨S8x4096x8x64, .f32⟩
  | .hbm, ⟨27, _⟩ => ⟨S8x8x4096x64, .f32⟩
  | .hbm, ⟨28, _⟩ => ⟨S8x4096x8x64, .f32⟩
  | .hbm, ⟨29, _⟩ => ⟨S8x8x4096x64, .f32⟩
  | .hbm, ⟨30, _⟩ => ⟨S1x8x4x64, .f32⟩
  | .hbm, ⟨31, _⟩ => ⟨S8x4x64, .f32⟩
  | .hbm, ⟨32, _⟩ => ⟨S8x8x4x64, .f32⟩
  | .hbm, ⟨33, _⟩ => ⟨S1x8x4x64, .f32⟩
  | .hbm, ⟨34, _⟩ => ⟨S8x4x64, .f32⟩
  | .hbm, ⟨35, _⟩ => ⟨S8x8x4x64, .f32⟩
  | .hbm, ⟨36, _⟩ => ⟨S8x8x4100x64, .f32⟩
  | .hbm, ⟨37, _⟩ => ⟨S8x8x4100x64, .f32⟩
  | .hbm, ⟨38, _⟩ => ⟨S_, .f32⟩
  | .hbm, ⟨39, _⟩ => ⟨S8x8x4096x64, .f32⟩
  | .hbm, ⟨40, _⟩ => ⟨S8x8x4096x64, .f32⟩
  | .hbm, ⟨41, _⟩ => ⟨S8x8x64x64, .f32⟩
  | .hbm, ⟨42, _⟩ => ⟨S8x8x4096x64, .f32⟩
  | .hbm, ⟨43, _⟩ => ⟨S8x4096x8x64, .f32⟩
  | .hbm, ⟨44, _⟩ => ⟨S8x64x64x512, .f32⟩
  | .hbm, ⟨45, _⟩ => ⟨S8x64x64x256, .f32⟩
  | .hbm, ⟨46, _⟩ => ⟨S1x1x1x256, .f32⟩
  | .hbm, ⟨47, _⟩ => ⟨S8x64x64x256, .f32⟩
  | .hbm, ⟨48, _⟩ => ⟨S8x64x64x256, .f32⟩
  | .hbm, ⟨49, _⟩ => ⟨S_, .f32⟩
  | .hbm, ⟨50, _⟩ => ⟨S256, .f32⟩
  | .hbm, ⟨51, _⟩ => ⟨S256, .f32⟩
  | .hbm, ⟨52, _⟩ => ⟨S1x1x1x256, .f32⟩
  | .hbm, ⟨53, _⟩ => ⟨S8x64x64x256, .f32⟩
  | .hbm, ⟨54, _⟩ => ⟨S8x64x64x256, .f32⟩
  | .hbm, ⟨55, _⟩ => ⟨S_, .f32⟩
  | .hbm, ⟨56, _⟩ => ⟨S8x64x64x256, .f32⟩
  | .hbm, ⟨57, _⟩ => ⟨S8x64x64x256, .f32⟩
  | _, _ => ⟨S8x64x64x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_1 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_2 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_3 : Ref sig .tc := ⟨.hbm, 55, rfl⟩
abbrev main_v43 : Ref sig .tc := ⟨.hbm, 56, rfl⟩
abbrev main_v44 : Ref sig .tc := ⟨.hbm, 57, rfl⟩

abbrev nD : Nat := 1
abbrev τ : Topo := Topo.v7x

variable {F : FTy → Type} [FloatOps F]

class Facts₀ : Prop where
  bcast_S_S256 : S_.BroadcastsInDim S256 (![] : Fin 0 → Fin S256.rank)
  bcast_S256_S1x1x1x256_3 : S256.BroadcastsInDim S1x1x1x256 (![3] : Fin 1 → Fin S1x1x1x256.rank)
  bcast_S1x1x1x256_S8x64x64x256_0_1_2_3 : S1x1x1x256.BroadcastsInDim S8x64x64x256 (![0, 1, 2, 3] : Fin 4 → Fin S8x64x64x256.rank)
  bcast_S_S8x64x64x256 : S_.BroadcastsInDim S8x64x64x256 (![] : Fin 0 → Fin S8x64x64x256.rank)
  bcast_S1536_S1x1x1x1536_3 : S1536.BroadcastsInDim S1x1x1x1536 (![3] : Fin 1 → Fin S1x1x1x1536.rank)
  bcast_S1x1x1x1536_S8x64x64x1536_0_1_2_3 : S1x1x1x1536.BroadcastsInDim S8x64x64x1536 (![0, 1, 2, 3] : Fin 4 → Fin S8x64x64x1536.rank)
  slices_S8x64x64x1536_S8x64x64x512_0_0_0_0 : S8x64x64x1536.Slices ![0, 0, 0, 0] S8x64x64x512
  slices_S8x64x64x1536_S8x64x64x512_0_0_0_512 : S8x64x64x1536.Slices ![0, 0, 0, 512] S8x64x64x512
  slices_S8x64x64x1536_S8x64x64x512_0_0_0_1024 : S8x64x64x1536.Slices ![0, 0, 0, 1024] S8x64x64x512
  shapeCasts_S8x64x64x512_S8x4096x8x64 : S8x64x64x512.ShapeCasts S8x4096x8x64
  transposes_S8x4096x8x64_S8x8x4096x64_0_2_1_3 : S8x4096x8x64.Transposes [0, 2, 1, 3] S8x8x4096x64
  slices_S2x8x4x64_S1x8x4x64_0_0_0_0 : S2x8x4x64.Slices ![0, 0, 0, 0] S1x8x4x64
  shapeCasts_S1x8x4x64_S8x4x64 : S1x8x4x64.ShapeCasts S8x4x64
  bcast_S8x4x64_S8x8x4x64_1_2_3 : S8x4x64.BroadcastsInDim S8x8x4x64 (![1, 2, 3] : Fin 3 → Fin S8x8x4x64.rank)
  slices_S2x8x4x64_S1x8x4x64_1_0_0_0 : S2x8x4x64.Slices ![1, 0, 0, 0] S1x8x4x64
  concatenates_S8x8x4x64_S8x8x4096x64_S8x8x4100x64_d2 : Shape.Concatenates [S8x8x4x64, S8x8x4096x64] S8x8x4100x64 2
  bcast_S_S8x8x4096x64 : S_.BroadcastsInDim S8x8x4096x64 (![] : Fin 0 → Fin S8x8x4096x64.rank)
  transposes_S8x8x4096x64_S8x4096x8x64_0_2_1_3 : S8x8x4096x64.Transposes [0, 2, 1, 3] S8x4096x8x64
  shapeCasts_S8x4096x8x64_S8x64x64x512 : S8x4096x8x64.ShapeCasts S8x64x64x512
  dot_S8x64x64x256_S256x1536_S8x64x64x1536_3_0_012_1_n_n_wf : DotDims.WF S8x64x64x256 S256x1536 S8x64x64x1536 [3] [0] [0, 1, 2] [1] [] []
  dot_S8x8x4100x64_S8x8x4100x64_S8x8x64x64_2_2_3_3_01_01_wf : DotDims.WF S8x8x4100x64 S8x8x4100x64 S8x8x64x64 [2] [2] [3] [3] [0, 1] [0, 1]
  dot_S8x8x4096x64_S8x8x64x64_S8x8x4096x64_3_2_2_3_01_01_wf : DotDims.WF S8x8x4096x64 S8x8x64x64 S8x8x4096x64 [3] [2] [2] [3] [0, 1] [0, 1]
  dot_S8x64x64x512_S512x256_S8x64x64x256_3_0_012_1_n_n_wf : DotDims.WF S8x64x64x512 S512x256 S8x64x64x256 [3] [0] [0, 1, 2] [1] [] []

variable [Facts₀]

def dot_S8x64x64x256_S256x1536_S8x64x64x1536_3_0_012_1_n_n : DotDims S8x64x64x256 S256x1536 S8x64x64x1536 where
  lhsContracting := [3]
  rhsContracting := [0]
  lhsNonContracting := [0, 1, 2]
  rhsNonContracting := [1]
  lhsBatch := []
  rhsBatch := []
  wf := dot_S8x64x64x256_S256x1536_S8x64x64x1536_3_0_012_1_n_n_wf
def dot_S8x8x4100x64_S8x8x4100x64_S8x8x64x64_2_2_3_3_01_01 : DotDims S8x8x4100x64 S8x8x4100x64 S8x8x64x64 where
  lhsContracting := [2]
  rhsContracting := [2]
  lhsNonContracting := [3]
  rhsNonContracting := [3]
  lhsBatch := [0, 1]
  rhsBatch := [0, 1]
  wf := dot_S8x8x4100x64_S8x8x4100x64_S8x8x64x64_2_2_3_3_01_01_wf
def dot_S8x8x4096x64_S8x8x64x64_S8x8x4096x64_3_2_2_3_01_01 : DotDims S8x8x4096x64 S8x8x64x64 S8x8x4096x64 where
  lhsContracting := [3]
  rhsContracting := [2]
  lhsNonContracting := [2]
  rhsNonContracting := [3]
  lhsBatch := [0, 1]
  rhsBatch := [0, 1]
  wf := dot_S8x8x4096x64_S8x8x64x64_S8x8x4096x64_3_2_2_3_01_01_wf
def dot_S8x64x64x512_S512x256_S8x64x64x256_3_0_012_1_n_n : DotDims S8x64x64x512 S512x256 S8x64x64x256 where
  lhsContracting := [3]
  rhsContracting := [0]
  lhsNonContracting := [0, 1, 2]
  rhsNonContracting := [1]
  lhsBatch := []
  rhsBatch := []
  wf := dot_S8x64x64x512_S512x256_S8x64x64x256_3_0_012_1_n_n_wf

class Facts : Prop extends Facts₀ where

variable [Facts]
-- ==== Proof.RunValue.lean ====
/-
  The idealized kernel's run with its RESULT named.  The program is four segments — the host operations before the
  first call, the two calls, the final reshape — and the contents of every unscoped buffer at each boundary are a
  fold from the launch memory (`Gen.W0 … Gen.W4`).  Every weakly fair execution terminates, nothing faults, the
  result buffer ends at the last boundary's contents of it, and the eight arguments end as launched.
-/
import proofs.«104020_j30150670417974_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer at the last boundary's contents, the arguments unchanged.  The segments, the thread
    states between them and the read-back of the last state against the final memory are the frame's own; only the
    conclusion drawn from "every unscoped buffer ends at `W4`" is wider: it is read at the result buffer too. -/
theorem run : θ_run defs (onTc (τ := τ) (main (F := F))) ⟨m, fun _ => 0, ρ⟩ (fun r => ∀ c : Dev nD,
      r.2.mem ((c.tc : Thread nD τ).loc main_v20) = W4 m ρ c (Proc.devRef .tc main_v20)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v20 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.RunValue

end
-- ==== Proof.Spec.lean ====
/-
  The mathematics both programs compute, as plain functions on the extended reals.

  A token row `xr : Fin 256 → EReal` is normalised entry by entry, `xr c · (γ c + 1) · 16`, and projected by a
  weight matrix and a bias: `projRow xr γ W b j = (∑ c, norm c · W c j) + b j`.  Linear attention over one batch
  element keeps, per head, a 64 × 64 context: entry (r, e) of the stacked [512, 64] context — r = 64·head + d — is
  the memory term plus the sum over all tokens of (key column r) · (value column 64·head + e).  A token's output
  row is its query row (scaled by 1/8) times the context of its own head, projected by the output matrix, biased,
  and normalised again.  Nothing here mentions a program, a tile or a block: those are related to these functions
  in the modules that import this one.
-/
import Idealize.ShloMosaic.PureOps.Ideal
import Idealize.ShloMosaic.Lib.ValueIdx
import Mathlib.Algebra.BigOperators.Fin

noncomputable section

namespace Cert.Spec

open Idealize.ShloMosaic Idealize.ShloMosaic.ValueIdx

/-- The three float literals of the two programs, as the extended reals their f32 words denote (1, 16, 1/8);
    kept as words: both programs spell the same words, so their values are never needed. -/
abbrev one : EReal := Ideal.ofBits .f32 0x3F800000#32
abbrev c16 : EReal := Ideal.ofBits .f32 0x41800000#32
abbrev c8 : EReal := Ideal.ofBits .f32 0x3E000000#32

/-- One entry of a normalised row: `x · (γ + 1) · 16`, multiplied in this order. -/
def normRow (xr γ : Fin 256 → EReal) (c : Fin 256) : EReal := xr c * (γ c + one) * c16

/-- A normalised row times a weight matrix, plus a bias. -/
def projRow {J : ℕ} (xr γ : Fin 256 → EReal) (W : Fin 256 → Fin J → EReal) (b : Fin J → EReal) (j : Fin J) : EReal :=
  (∑ c : Fin 256, normRow xr γ c * W c j) + b j

/-- Column `r` of the key half of a [·, 1024] key/value projection. -/
def kcol (r : Fin 512) : Fin 1024 := ⟨r.val, by have := r.isLt; omega⟩
/-- The value column paired with context entry (r, e): column 512 + 64·(r / 64) + e. -/
def vcol (r : Fin 512) (e : Fin 64) : Fin 1024 :=
  ⟨512 + (r.val / 64) * 64 + e.val, by have := r.isLt; have := e.isLt; omega⟩

/-- What a family of token rows `x : ι → row` adds to context entry (r, e): ∑ over the tokens of key · value. -/
def kvPart {ι : Type} [Fintype ι] (x : ι → Fin 256 → EReal) (γ : Fin 256 → EReal) (Wkv : Fin 256 → Fin 1024 → EReal)
    (bkv : Fin 1024 → EReal) (r : Fin 512) (e : Fin 64) : EReal :=
  ∑ n : ι, projRow (x n) γ Wkv bkv (kcol r) * projRow (x n) γ Wkv bkv (vcol r e)

/-- The query column of head(j) at depth d, and j's position inside its head. -/
def hd (j : Fin 512) (d : Fin 64) : Fin 512 := ⟨(j.val / 64) * 64 + d.val, by have := j.isLt; have := d.isLt; omega⟩
def lo (j : Fin 512) : Fin 64 := ⟨j.val % 64, Nat.mod_lt _ (by decide)⟩

/-- One scaled query entry. -/
def qRow (xr γ : Fin 256 → EReal) (Wq : Fin 256 → Fin 512 → EReal) (bq : Fin 512 → EReal) (j : Fin 512) : EReal :=
  projRow xr γ Wq bq j * c8

/-- A token's attention output at column j: its head's query row against the head's context column. -/
def attRow (xr γ : Fin 256 → EReal) (Wq : Fin 256 → Fin 512 → EReal) (bq : Fin 512 → EReal)
    (ctx : Fin 512 → Fin 64 → EReal) (j : Fin 512) : EReal :=
  ∑ d : Fin 64, qRow xr γ Wq bq (hd j d) * ctx (hd j d) (lo j)

/-- A token's result row: attention output times the output matrix, plus bias, normalised by `(γ' + 1) · 16`. -/
def outRow (xr γ : Fin 256 → EReal) (Wq : Fin 256 → Fin 512 → EReal) (bq : Fin 512 → EReal)
    (ctx : Fin 512 → Fin 64 → EReal) (Wo : Fin 512 → Fin 256 → EReal) (bo γo : Fin 256 → EReal) (o : Fin 256) : EReal :=
  ((∑ j : Fin 512, attRow xr γ Wq bq ctx j * Wo j o) + bo o) * (γo o + one) * c16

/-! ## The whole computation over the argument arrays -/

abbrev SX : Shape := ⟨4, ![8, 64, 64, 256]⟩
abbrev SV : Shape := ⟨1, ![256]⟩
abbrev SM : Shape := ⟨4, ![2, 8, 4, 64]⟩
abbrev SW : Shape := ⟨2, ![256, 1536]⟩
abbrev SB : Shape := ⟨1, ![1536]⟩
abbrev SO : Shape := ⟨2, ![512, 256]⟩

/-- Token n = 64·h + w of batch element b, as a row. -/
def tok (x0 : SX.Idx → EReal) (b : Fin 8) (n : Fin 4096) (c : Fin 256) : EReal :=
  x0 (ix4 b ⟨n.val / 64, by have := n.isLt; omega⟩ ⟨n.val % 64, Nat.mod_lt _ (by decide)⟩ c)
def vec (x : SV.Idx → EReal) (c : Fin 256) : EReal := x (ix1 c)
/-- The query third and the key/value two thirds of the fused projection's matrix and bias. -/
def wq (x3 : SW.Idx → EReal) (c : Fin 256) (j : Fin 512) : EReal := x3 (ix2 c ⟨j.val, by have := j.isLt; omega⟩)
def wkv (x3 : SW.Idx → EReal) (c : Fin 256) (j : Fin 1024) : EReal := x3 (ix2 c ⟨512 + j.val, by have := j.isLt; omega⟩)
def bq (x4 : SB.Idx → EReal) (j : Fin 512) : EReal := x4 (ix1 ⟨j.val, by have := j.isLt; omega⟩)
def bkv (x4 : SB.Idx → EReal) (j : Fin 1024) : EReal := x4 (ix1 ⟨512 + j.val, by have := j.isLt; omega⟩)
def wo (x5 : SO.Idx → EReal) (j : Fin 512) (o : Fin 256) : EReal := x5 (ix2 j o)

/-- The memory term of context entry (r, e), r = 64·head + d: ∑ over the 4 memory slots of mk[head, s, d] · mv[head, s, e]. -/
def memCtx (x2 : SM.Idx → EReal) (r : Fin 512) (e : Fin 64) : EReal :=
  ∑ s : Fin 4, x2 (ix4 (0 : Fin 2) ⟨r.val / 64, by have := r.isLt; omega⟩ s ⟨r.val % 64, Nat.mod_lt _ (by decide)⟩)
    * x2 (ix4 (1 : Fin 2) ⟨r.val / 64, by have := r.isLt; omega⟩ s e)

/-- Batch element b's context: the memory term plus the sum over all 4096 tokens. -/
def ctx (x0 : SX.Idx → EReal) (x1 : SV.Idx → EReal) (x2 : SM.Idx → EReal) (x3 : SW.Idx → EReal) (x4 : SB.Idx → EReal)
    (b : Fin 8) (r : Fin 512) (e : Fin 64) : EReal :=
  memCtx x2 r e + kvPart (tok x0 b) (vec x1) (wkv x3) (bkv x4) r e

/-- The result at batch b, token n, channel o. -/
def res (x0 : SX.Idx → EReal) (x1 : SV.Idx → EReal) (x2 : SM.Idx → EReal) (x3 : SW.Idx → EReal) (x4 : SB.Idx → EReal)
    (x5 : SO.Idx → EReal) (x6 x7 : SV.Idx → EReal) (b : Fin 8) (n : Fin 4096) (o : Fin 256) : EReal :=
  outRow (tok x0 b n) (vec x1) (wq x3) (bq x4) (ctx x0 x1 x2 x3 x4 b) (wo x5) (vec x6) (vec x7) o

/-- The result array [8, 64, 64, 256]: entry (b, h, w, o) is token 64·h + w of batch b at channel o. -/
def result (x0 : SX.Idx → EReal) (x1 : SV.Idx → EReal) (x2 : SM.Idx → EReal) (x3 : SW.Idx → EReal) (x4 : SB.Idx → EReal)
    (x5 : SO.Idx → EReal) (x6 x7 : SV.Idx → EReal) : SX.Idx → EReal := fun i =>
  res x0 x1 x2 x3 x4 x5 x6 x7 (i 0)
    ⟨(i 1).val * 64 + (i 2).val, by have h1 : (i 1).val < 64 := (i 1).isLt; have h2 : (i 2).val < 64 := (i 2).isLt; omega⟩ (i 3)

end Cert.Spec

end
-- ==== Proof.HostGlue.lean ====
/-
  The host operations of the kernel's program, read at an index.

  Before the first region the program reshapes, slices and reformats its arguments: the input viewed as
  [8, 4096, 256] token rows; each [256] vector viewed as one row; the fused projection's matrix and bias cut into
  the query third (columns 0 … 511) and the key/value two thirds (columns 512 … 1535), the change of float format
  being the identity on the extended reals; the output matrix; and the memory context — per head, the contraction
  over the 4 memory slots of keys against values — stacked [512, 64]. After the second region the result is viewed
  [8, 64, 64, 256]. Each array is first identified with the operations' term applied to the launch contents, and
  that term is then read at an index: a reshape keeps the row-major position, a slice shifts by its offsets, the
  contraction is the sum over the slots.
-/
import proofs.«104020_j30150670417974_2_alg».proof.Proof.Gen.KernelIdeal.Frame
import proofs.«104020_j30150670417974_2_alg».proof.Proof.Spec
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

noncomputable section

namespace Cert.KernelIdeal.HostGlue

open Cert.KernelIdeal Cert.KernelIdeal.Gen Idealize.ShloMosaic Idealize.ShloMosaic.TcCoe Idealize.SL.Sem Idealize.ShloMosaic.StableHlo
open Idealize.ShloMosaic.ValueIdx

variable (m : (ℓ : Loc nD τ sig) → Buf (Elt Ideal) ℓ) (ρ : Dev nD → PrngReg) (c : Dev nD)

/-! ## The token array: the input viewed [8, 4096, 256] -/

theorem v0_term :
    (V1 m ρ c main_v0 : S8x4096x256.Idx → EReal)
      = shapeCast S8x4096x256 (m ((c : Thread nD τ).loc main_arg0) : S8x64x64x256.Idx → EReal) shapeCasts_S8x64x64x256_S8x4096x256 := by
  dsimp only [Gen.V1, Gen.W1, Gen.hostOps0]
  after_results
  rfl

/-- Entry (b, n, ch) of the token array is the input at (b, n / 64, n % 64, ch): the same row-major position. -/
theorem v0_read (b : Fin 8) (n : Fin 4096) (ch : Fin 256) :
    (V1 m ρ c main_v0 : S8x4096x256.Idx → EReal) (ix3 b n ch)
      = Cert.Spec.tok (m ((c : Thread nD τ).loc main_arg0)) b n ch := by
  refine (congrFun (v0_term m ρ c) (ix3 b n ch)).trans ?_
  unfold Cert.Spec.tok
  refine shapeCast_apply _ shapeCasts_S8x64x64x256_S8x4096x256 (ix3 b n ch) _ ?_
  rw [Shape.rowMajor_val_four, Shape.rowMajor_val_three]
  show ((b.val * 64 + n.val / 64) * 64 + n.val % 64) * 256 + ch.val = (b.val * 4096 + n.val) * 256 + ch.val
  have := n.isLt
  omega

/-! ## A [256] vector viewed [1, 256] -/

theorem v1_term :
    (V1 m ρ c main_v1 : S1x256.Idx → EReal)
      = shapeCast S1x256 (m ((c : Thread nD τ).loc main_arg1) : S256.Idx → EReal) shapeCasts_S256_S1x256 := by
  dsimp only [Gen.V1, Gen.W1, Gen.hostOps0]
  after_results
  rfl

/-- A [256] vector viewed as one row reads the vector. -/
theorem row256_read (x : S256.Idx → EReal) (ch : Fin 256) :
    shapeCast S1x256 x shapeCasts_S256_S1x256 (ix2 (0 : Fin 1) ch) = Cert.Spec.vec x ch := by
  unfold Cert.Spec.vec
  refine shapeCast_apply _ shapeCasts_S256_S1x256 (ix2 (0 : Fin 1) ch) (ix1 ch) ?_
  rw [Shape.rowMajor_val_one, Shape.rowMajor_val_two]
  show ch.val = 0 * 256 + ch.val
  omega

theorem v1_read (ch : Fin 256) :
    (V1 m ρ c main_v1 : S1x256.Idx → EReal) (ix2 (0 : Fin 1) ch) = Cert.Spec.vec (m ((c : Thread nD τ).loc main_arg1)) ch :=
  (congrFun (v1_term m ρ c) _).trans (row256_read _ ch)

/-! ## The key/value two thirds of the fused weights: columns 512 … 1535, the format change the identity -/

theorem v5_term :
    (V1 m ρ c main_v5 : S256x1024.Idx → EReal)
      = extractStridedSlice S256x1024 ![0, 512]
          (truncf (F := Ideal) .bf16 (m ((c : Thread nD τ).loc main_arg3) : FVec Ideal S256x1536 .f32) bitsLt_bf16_f32)
          slices_S256x1536_S256x1024_0_512 := by
  dsimp only [Gen.V1, Gen.W1, Gen.hostOps0]
  after_results

theorem v5_read (ch : Fin 256) (j : Fin 1024) :
    (V1 m ρ c main_v5 : S256x1024.Idx → EReal) (ix2 ch j) = Cert.Spec.wkv (m ((c : Thread nD τ).loc main_arg3)) ch j := by
  refine (congrFun (v5_term m ρ c) (ix2 ch j)).trans ?_
  unfold Cert.Spec.wkv
  exact extractStridedSlice_apply ![0, 512] _ slices_S256x1536_S256x1024_0_512 (ix2 ch j)
    (ix2 ch ⟨512 + j.val, by have := j.isLt; omega⟩) (fun a => match a with
      | ⟨0, _⟩ => by show ch.val = 0 + ch.val; omega
      | ⟨1, _⟩ => by show 512 + j.val = 512 + j.val; rfl)

/-! ## The key/value two thirds of the fused bias, as one row -/

theorem v10_term :
    (V1 m ρ c main_v10 : S1x1024.Idx → EReal)
      = shapeCast S1x1024 (extractStridedSlice S1024 ![512] (m ((c : Thread nD τ).loc main_arg4) : S1536.Idx → EReal) slices_S1536_S1024_512)
          shapeCasts_S1024_S1x1024 := by
  dsimp only [Gen.V1, Gen.W1, Gen.hostOps0]
  after_results
  rfl

theorem v10_read (j : Fin 1024) :
    (V1 m ρ c main_v10 : S1x1024.Idx → EReal) (ix2 (0 : Fin 1) j) = Cert.Spec.bkv (m ((c : Thread nD τ).loc main_arg4)) j := by
  refine (congrFun (v10_term m ρ c) (ix2 (0 : Fin 1) j)).trans ?_
  unfold Cert.Spec.bkv
  refine (shapeCast_apply _ shapeCasts_S1024_S1x1024 (ix2 (0 : Fin 1) j) (ix1 j) ?_).trans ?_
  · rw [Shape.rowMajor_val_one, Shape.rowMajor_val_two]
    show j.val = 0 * 1024 + j.val
    omega
  · exact extractStridedSlice_apply ![512] _ slices_S1536_S1024_512 (ix1 j)
      (ix1 ⟨512 + j.val, by have := j.isLt; omega⟩) (fun a => match a with
        | ⟨0, _⟩ => by show 512 + j.val = 512 + j.val; rfl)

/-! ## The memory context: keys against values over the 4 slots, per head, stacked [512, 64] -/

/-- Where the batched contraction reads its operands: the left at (batch, slot, row), the right at (batch, slot, column). -/
theorem memdot_lhs_0 (i : S8x64x64.Idx) (q : dot_S8x4x64_S8x4x64_S8x64x64_1_1_2_2_0_0.contr.Idx) :
    (dot_S8x4x64_S8x4x64_S8x64x64_1_1_2_2_0_0.lhsIdx i q 0).val = (i 0).val := by
  unfold DotDims.lhsIdx
  rw [dif_pos (show (0 : Fin S8x4x64.rank) ∈ dot_S8x4x64_S8x4x64_S8x64x64_1_1_2_2_0_0.lhsBatch by decide)]
  rfl
theorem memdot_lhs_1 (i : S8x64x64.Idx) (q : dot_S8x4x64_S8x4x64_S8x64x64_1_1_2_2_0_0.contr.Idx) :
    (dot_S8x4x64_S8x4x64_S8x64x64_1_1_2_2_0_0.lhsIdx i q 1).val = (q ⟨0, by decide⟩).val :=
  dot_S8x4x64_S8x4x64_S8x64x64_1_1_2_2_0_0.lhsIdx_val_of_single rfl i q
theorem memdot_lhs_2 (i : S8x64x64.Idx) (q : dot_S8x4x64_S8x4x64_S8x64x64_1_1_2_2_0_0.contr.Idx) :
    (dot_S8x4x64_S8x4x64_S8x64x64_1_1_2_2_0_0.lhsIdx i q 2).val = (i 1).val := by
  unfold DotDims.lhsIdx
  rw [dif_neg (show ¬(2 : Fin S8x4x64.rank) ∈ dot_S8x4x64_S8x4x64_S8x64x64_1_1_2_2_0_0.lhsBatch by decide),
    dif_pos (show (2 : Fin S8x4x64.rank) ∈ dot_S8x4x64_S8x4x64_S8x64x64_1_1_2_2_0_0.lhsNonContracting by decide)]
  rfl
theorem memdot_rhs_0 (i : S8x64x64.Idx) (q : dot_S8x4x64_S8x4x64_S8x64x64_1_1_2_2_0_0.contr.Idx) :
    (dot_S8x4x64_S8x4x64_S8x64x64_1_1_2_2_0_0.rhsIdx i q 0).val = (i 0).val := by
  unfold DotDims.rhsIdx
  rw [dif_pos (show (0 : Fin S8x4x64.rank) ∈ dot_S8x4x64_S8x4x64_S8x64x64_1_1_2_2_0_0.rhsBatch by decide)]
  rfl
theorem memdot_rhs_1 (i : S8x64x64.Idx) (q : dot_S8x4x64_S8x4x64_S8x64x64_1_1_2_2_0_0.contr.Idx) :
    (dot_S8x4x64_S8x4x64_S8x64x64_1_1_2_2_0_0.rhsIdx i q 1).val = (q ⟨0, by decide⟩).val :=
  dot_S8x4x64_S8x4x64_S8x64x64_1_1_2_2_0_0.rhsIdx_val_of_single rfl i q
theorem memdot_rhs_2 (i : S8x64x64.Idx) (q : dot_S8x4x64_S8x4x64_S8x64x64_1_1_2_2_0_0.contr.Idx) :
    (dot_S8x4x64_S8x4x64_S8x64x64_1_1_2_2_0_0.rhsIdx i q 2).val = (i 2).val := by
  unfold DotDims.rhsIdx
  rw [dif_neg (show ¬(2 : Fin S8x4x64.rank) ∈ dot_S8x4x64_S8x4x64_S8x64x64_1_1_2_2_0_0.rhsBatch by decide),
    dif_pos (show (2 : Fin S8x4x64.rank) ∈ dot_S8x4x64_S8x4x64_S8x64x64_1_1_2_2_0_0.rhsNonContracting by decide)]
  rfl

/-- The batched contraction read at (h, d, e): the sum over the 4 slots of left (h, s, d) times right (h, s, e). -/
theorem memdot_read (l r : FVec Ideal S8x4x64 .f32) (h : Fin 8) (d e : Fin 64) :
    Host.dotGeneral (F := Ideal) dot_S8x4x64_S8x4x64_S8x64x64_1_1_2_2_0_0 none l r (ix3 h d e)
      = ∑ s : Fin 4, l (ix3 h s d) * r (ix3 h s e) := by
  simp only [Host.dotGeneral]
  rw [Ideal.dotGeneral_apply, ← Equiv.sum_comp (ValueIdx.contrEquiv1 dot_S8x4x64_S8x4x64_S8x64x64_1_1_2_2_0_0 4 rfl rfl).symm]
  refine Finset.sum_congr rfl fun s _ => ?_
  have hs := ValueIdx.contrEquiv1_symm_val dot_S8x4x64_S8x4x64_S8x64x64_1_1_2_2_0_0 4 rfl rfl s
  have el : dot_S8x4x64_S8x4x64_S8x64x64_1_1_2_2_0_0.lhsIdx (ix3 h d e)
      ((ValueIdx.contrEquiv1 dot_S8x4x64_S8x4x64_S8x64x64_1_1_2_2_0_0 4 rfl rfl).symm s) = ix3 h s d :=
    funext fun a => Fin.ext (by
      match a with
      | ⟨0, _⟩ => exact memdot_lhs_0 _ _
      | ⟨1, _⟩ => exact (memdot_lhs_1 _ _).trans hs
      | ⟨2, _⟩ => exact memdot_lhs_2 _ _)
  have er : dot_S8x4x64_S8x4x64_S8x64x64_1_1_2_2_0_0.rhsIdx (ix3 h d e)
      ((ValueIdx.contrEquiv1 dot_S8x4x64_S8x4x64_S8x64x64_1_1_2_2_0_0 4 rfl rfl).symm s) = ix3 h s e :=
    funext fun a => Fin.ext (by
      match a with
      | ⟨0, _⟩ => exact memdot_rhs_0 _ _
      | ⟨1, _⟩ => exact (memdot_rhs_1 _ _).trans hs
      | ⟨2, _⟩ => exact memdot_rhs_2 _ _)
  rw [el, er]

/-- Half `p` of the memory array viewed [8, 4, 64], read at (h, s, d): the array at (p, h, s, d). -/
theorem memhalf_read (x2 : S2x8x4x64.Idx → EReal) (p : Fin 2) (off : Fin 4 → Nat) (hoff : off = ![p.val, 0, 0, 0])
    (hsl : S2x8x4x64.Slices off S1x8x4x64) (h : Fin 8) (s : Fin 4) (d : Fin 64) :
    shapeCast S8x4x64 (extractStridedSlice S1x8x4x64 off x2 hsl) shapeCasts_S1x8x4x64_S8x4x64 (ix3 h s d)
      = x2 (ix4 p h s d) := by
  subst hoff
  refine (shapeCast_apply _ shapeCasts_S1x8x4x64_S8x4x64 (ix3 h s d) (ix4 (0 : Fin 1) h s d) ?_).trans ?_
  · rw [Shape.rowMajor_val_four, Shape.rowMajor_val_three]
    show ((0 * 8 + h.val) * 4 + s.val) * 64 + d.val = (h.val * 4 + s.val) * 64 + d.val
    omega
  · exact extractStridedSlice_apply _ x2 hsl (ix4 (0 : Fin 1) h s d) (ix4 p h s d) (fun a => match a with
      | ⟨0, _⟩ => by show p.val = p.val + 0; omega
      | ⟨1, _⟩ => by show h.val = 0 + h.val; omega
      | ⟨2, _⟩ => by show s.val = 0 + s.val; omega
      | ⟨3, _⟩ => by show d.val = 0 + d.val; omega)

theorem v17_term :
    (V1 m ρ c main_v17 : S512x64.Idx → EReal)
      = shapeCast S512x64
          (Host.dotGeneral (F := Ideal) dot_S8x4x64_S8x4x64_S8x64x64_1_1_2_2_0_0 none
            (shapeCast S8x4x64 (extractStridedSlice S1x8x4x64 ![0, 0, 0, 0]
              (m ((c : Thread nD τ).loc main_arg2) : FVec Ideal S2x8x4x64 .f32) slices_S2x8x4x64_S1x8x4x64_0_0_0_0) shapeCasts_S1x8x4x64_S8x4x64 : FVec Ideal S8x4x64 .f32)
            (shapeCast S8x4x64 (extractStridedSlice S1x8x4x64 ![1, 0, 0, 0]
              (m ((c : Thread nD τ).loc main_arg2) : FVec Ideal S2x8x4x64 .f32) slices_S2x8x4x64_S1x8x4x64_1_0_0_0) shapeCasts_S1x8x4x64_S8x4x64 : FVec Ideal S8x4x64 .f32))
          shapeCasts_S8x64x64_S512x64 := by
  dsimp only [Gen.V1, Gen.W1, Gen.hostOps0]
  after_results
  rfl

/-- Entry (r, e) of the stacked memory context, r = 64·head + d, is the sum over the slots of key (head, s, d) times
    value (head, s, e). -/
theorem v17_read (r : Fin 512) (e : Fin 64) :
    (V1 m ρ c main_v17 : S512x64.Idx → EReal) (ix2 r e) = Cert.Spec.memCtx (m ((c : Thread nD τ).loc main_arg2)) r e := by
  refine (congrFun (v17_term m ρ c) (ix2 r e)).trans ?_
  unfold Cert.Spec.memCtx
  refine (shapeCast_apply _ shapeCasts_S8x64x64_S512x64 (ix2 r e)
    (ix3 (⟨r.val / 64, by have := r.isLt; omega⟩ : Fin 8) (⟨r.val % 64, Nat.mod_lt _ (by decide)⟩ : Fin 64) e) ?_).trans ?_
  · rw [Shape.rowMajor_val_three, Shape.rowMajor_val_two]
    show (r.val / 64 * 64 + r.val % 64) * 64 + e.val = r.val * 64 + e.val
    omega
  · refine (memdot_read _ _ _ _ _).trans ?_
    refine Finset.sum_congr rfl fun s _ => ?_
    exact congrArg₂ (· * ·)
      (memhalf_read (m ((c : Thread nD τ).loc main_arg2)) (0 : Fin 2) _ rfl slices_S2x8x4x64_S1x8x4x64_0_0_0_0 _ s _)
      (memhalf_read (m ((c : Thread nD τ).loc main_arg2)) (1 : Fin 2) _ rfl slices_S2x8x4x64_S1x8x4x64_1_0_0_0 _ s e)

/-! ## The query third of the fused weights and bias -/

theorem v4_term :
    (V1 m ρ c main_v4 : S256x512.Idx → EReal)
      = extractStridedSlice S256x512 ![0, 0]
          (truncf (F := Ideal) .bf16 (m ((c : Thread nD τ).loc main_arg3) : FVec Ideal S256x1536 .f32) bitsLt_bf16_f32)
          slices_S256x1536_S256x512_0_0 := by
  dsimp only [Gen.V1, Gen.W1, Gen.hostOps0]
  after_results

theorem v4_read (ch : Fin 256) (j : Fin 512) :
    (V1 m ρ c main_v4 : S256x512.Idx → EReal) (ix2 ch j) = Cert.Spec.wq (m ((c : Thread nD τ).loc main_arg3)) ch j := by
  refine (congrFun (v4_term m ρ c) (ix2 ch j)).trans ?_
  unfold Cert.Spec.wq
  exact extractStridedSlice_apply ![0, 0] _ slices_S256x1536_S256x512_0_0 (ix2 ch j)
    (ix2 ch ⟨j.val, by have := j.isLt; omega⟩) (fun a => match a with
      | ⟨0, _⟩ => by show ch.val = 0 + ch.val; omega
      | ⟨1, _⟩ => by show j.val = 0 + j.val; omega)

theorem v8_term :
    (V1 m ρ c main_v8 : S1x512.Idx → EReal)
      = shapeCast S1x512 (extractStridedSlice S512 ![0] (m ((c : Thread nD τ).loc main_arg4) : S1536.Idx → EReal) slices_S1536_S512_0)
          shapeCasts_S512_S1x512 := by
  dsimp only [Gen.V1, Gen.W1, Gen.hostOps0]
  after_results
  rfl

theorem v8_read (j : Fin 512) :
    (V1 m ρ c main_v8 : S1x512.Idx → EReal) (ix2 (0 : Fin 1) j) = Cert.Spec.bq (m ((c : Thread nD τ).loc main_arg4)) j := by
  refine (congrFun (v8_term m ρ c) (ix2 (0 : Fin 1) j)).trans ?_
  unfold Cert.Spec.bq
  refine (shapeCast_apply _ shapeCasts_S512_S1x512 (ix2 (0 : Fin 1) j) (ix1 j) ?_).trans ?_
  · rw [Shape.rowMajor_val_one, Shape.rowMajor_val_two]
    show j.val = 0 * 512 + j.val
    omega
  · exact extractStridedSlice_apply ![0] _ slices_S1536_S512_0 (ix1 j)
      (ix1 ⟨j.val, by have := j.isLt; omega⟩) (fun a => match a with
        | ⟨0, _⟩ => by show j.val = 0 + j.val; omega)

/-! ## The output matrix (the format change the identity), its bias and the second normalisation's scale -/

theorem v6_term :
    (V1 m ρ c main_v6 : S512x256.Idx → EReal)
      = truncf (F := Ideal) .bf16 (m ((c : Thread nD τ).loc main_arg5) : FVec Ideal S512x256 .f32) bitsLt_bf16_f32 := by
  dsimp only [Gen.V1, Gen.W1, Gen.hostOps0]
  after_results

theorem v6_read (j : Fin 512) (o : Fin 256) :
    (V1 m ρ c main_v6 : S512x256.Idx → EReal) (ix2 j o) = Cert.Spec.wo (m ((c : Thread nD τ).loc main_arg5)) j o :=
  congrFun (v6_term m ρ c) (ix2 j o)

theorem v11_term :
    (V1 m ρ c main_v11 : S1x256.Idx → EReal)
      = shapeCast S1x256 (m ((c : Thread nD τ).loc main_arg6) : S256.Idx → EReal) shapeCasts_S256_S1x256 := by
  dsimp only [Gen.V1, Gen.W1, Gen.hostOps0]
  after_results
  rfl

theorem v11_read (o : Fin 256) :
    (V1 m ρ c main_v11 : S1x256.Idx → EReal) (ix2 (0 : Fin 1) o) = Cert.Spec.vec (m ((c : Thread nD τ).loc main_arg6)) o :=
  (congrFun (v11_term m ρ c) _).trans (row256_read _ o)

theorem v2_term :
    (V1 m ρ c main_v2 : S1x256.Idx → EReal)
      = shapeCast S1x256 (m ((c : Thread nD τ).loc main_arg7) : S256.Idx → EReal) shapeCasts_S256_S1x256 := by
  dsimp only [Gen.V1, Gen.W1, Gen.hostOps0]
  after_results
  rfl

theorem v2_read (o : Fin 256) :
    (V1 m ρ c main_v2 : S1x256.Idx → EReal) (ix2 (0 : Fin 1) o) = Cert.Spec.vec (m ((c : Thread nD τ).loc main_arg7)) o :=
  (congrFun (v2_term m ρ c) _).trans (row256_read _ o)

/-! ## The tail: the result viewed [8, 64, 64, 256] -/

theorem v20_term :
    (W4 m ρ c (Proc.devRef .tc main_v20) : S8x64x64x256.Idx → EReal)
      = shapeCast S8x64x64x256 (W3 m ρ c (Proc.devRef .tc main_v19) : S8x4096x256.Idx → EReal) shapeCasts_S8x4096x256_S8x64x64x256 := by
  dsimp only [Gen.W4, Gen.hostOps2]
  after_results
  rfl

/-- Entry (b, h, w, o) of the result is the region's output at (b, 64·h + w, o): the same row-major position. -/
theorem v20_read (b : Fin 8) (h w : Fin 64) (o : Fin 256) :
    (W4 m ρ c (Proc.devRef .tc main_v20) : S8x64x64x256.Idx → EReal) (ix4 b h w o)
      = (W3 m ρ c (Proc.devRef .tc main_v19) : S8x4096x256.Idx → EReal)
          (ix3 b (⟨h.val * 64 + w.val, by have := h.isLt; have := w.isLt; omega⟩ : Fin 4096) o) := by
  refine (congrFun (v20_term m ρ c) (ix4 b h w o)).trans ?_
  refine shapeCast_apply _ shapeCasts_S8x4096x256_S8x64x64x256 (ix4 b h w o) _ ?_
  rw [Shape.rowMajor_val_three, Shape.rowMajor_val_four]
  show (b.val * 4096 + (h.val * 64 + w.val)) * 256 + o.val = ((b.val * 64 + h.val) * 64 + w.val) * 256 + o.val
  omega

end Cert.KernelIdeal.HostGlue

end
-- ==== Proof.Out1Pay.lean ====
/-
  The arithmetic of the output kernel's stores, one entry at a time, over the extended reals.

  The kernel first forms the scaled query block: entry (n, j) is the normalised token row n against column j of
  the query weights, plus the bias, times 1/8.  For each head it multiplies the head's 64 query columns with the head's
  64 x 64 context and keeps the product in the head's 64 columns of a [2048, 512] buffer, so that entry (n, j) of the
  buffer is the sum over the depth d of query (n, 64*head(j) + d) times context (64*head(j) + d, j mod 64).  The buffer
  times the output weights, plus the output bias, normalised again, is the block it stores.  Every change of float
  format is the identity on extended reals and every reshape met here keeps the row-major position, so each of these
  reads is a finite sum of products of the operands' entries.
-/
import proofs.«104020_j30150670417974_2_alg».proof.Proof.Gen.KernelIdeal.Skeleton
import proofs.«104020_j30150670417974_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Out1Pay

open Cert.KernelIdeal Cert.KernelIdeal.Gen
open Idealize.ShloMosaic Idealize.ShloMosaic.ValueIdx

/-! ## The three matrix products: rows times columns into a zero accumulator -/

/-- The operand indices of the [2048,256] x [256,512] product: the left one is (row, contraction position), -/
theorem mm_q_l0 (i : S2048x512.Idx) (q : dot_S2048x256_S256x512_S2048x512_1_0_0_1_n_n.contr.Idx) :
    (dot_S2048x256_S256x512_S2048x512_1_0_0_1_n_n.lhsIdx i q 0).val = (i 0).val := by
  unfold DotDims.lhsIdx
  rw [dif_neg (show ¬(0 : Fin S2048x256.rank) ∈ dot_S2048x256_S256x512_S2048x512_1_0_0_1_n_n.lhsBatch by decide),
    dif_pos (show (0 : Fin S2048x256.rank) ∈ dot_S2048x256_S256x512_S2048x512_1_0_0_1_n_n.lhsNonContracting by decide)]
  rfl
theorem mm_q_l1 (i : S2048x512.Idx) (q : dot_S2048x256_S256x512_S2048x512_1_0_0_1_n_n.contr.Idx) :
    (dot_S2048x256_S256x512_S2048x512_1_0_0_1_n_n.lhsIdx i q 1).val = (q ⟨0, by decide⟩).val :=
  dot_S2048x256_S256x512_S2048x512_1_0_0_1_n_n.lhsIdx_val_of_single rfl i q
/-- the right one (contraction position, column). -/
theorem mm_q_r0 (i : S2048x512.Idx) (q : dot_S2048x256_S256x512_S2048x512_1_0_0_1_n_n.contr.Idx) :
    (dot_S2048x256_S256x512_S2048x512_1_0_0_1_n_n.rhsIdx i q 0).val = (q ⟨0, by decide⟩).val :=
  dot_S2048x256_S256x512_S2048x512_1_0_0_1_n_n.rhsIdx_val_of_single rfl i q
theorem mm_q_r1 (i : S2048x512.Idx) (q : dot_S2048x256_S256x512_S2048x512_1_0_0_1_n_n.contr.Idx) :
    (dot_S2048x256_S256x512_S2048x512_1_0_0_1_n_n.rhsIdx i q 1).val = (i 1).val := by
  unfold DotDims.rhsIdx
  rw [dif_neg (show ¬(1 : Fin S256x512.rank) ∈ dot_S2048x256_S256x512_S2048x512_1_0_0_1_n_n.rhsBatch by decide),
    dif_pos (show (1 : Fin S256x512.rank) ∈ dot_S2048x256_S256x512_S2048x512_1_0_0_1_n_n.rhsNonContracting by decide)]
  rfl

/-- The query projection's product at (n, j): the sum over the 256 channels. -/
theorem mm_q (L : FVec Ideal S2048x256 .bf16) (R : FVec Ideal S256x512 .bf16) (n : Fin 2048) (j : Fin 512) :
    matmul dot_S2048x256_S256x512_S2048x512_1_0_0_1_n_n none L R (constant S2048x512 .f32 0x00000000#32) (ix2 n j)
      = ∑ k : Fin 256, L (ix2 n k) * R (ix2 k j) := by
  refine (Ideal.matmul_constant_zero_apply dot_S2048x256_S256x512_S2048x512_1_0_0_1_n_n none L R (ix2 n j)).trans ?_
  rw [← Equiv.sum_comp (contrEquiv1 dot_S2048x256_S256x512_S2048x512_1_0_0_1_n_n 256 rfl rfl).symm]
  refine Finset.sum_congr rfl fun k _ => ?_
  have hk := contrEquiv1_symm_val dot_S2048x256_S256x512_S2048x512_1_0_0_1_n_n 256 rfl rfl k
  have el : dot_S2048x256_S256x512_S2048x512_1_0_0_1_n_n.lhsIdx (ix2 n j)
      ((contrEquiv1 dot_S2048x256_S256x512_S2048x512_1_0_0_1_n_n 256 rfl rfl).symm k) = ix2 n k :=
    funext fun a => Fin.ext (by
      match a with
      | ⟨0, _⟩ => exact mm_q_l0 _ _
      | ⟨1, _⟩ => exact (mm_q_l1 _ _).trans hk)
  have er : dot_S2048x256_S256x512_S2048x512_1_0_0_1_n_n.rhsIdx (ix2 n j)
      ((contrEquiv1 dot_S2048x256_S256x512_S2048x512_1_0_0_1_n_n 256 rfl rfl).symm k) = ix2 k j :=
    funext fun a => Fin.ext (by
      match a with
      | ⟨0, _⟩ => exact (mm_q_r0 _ _).trans hk
      | ⟨1, _⟩ => exact mm_q_r1 _ _)
  rw [el, er]

/-- The operand indices of a head's [2048,64] x [64,64] product. -/
theorem mm_h_l0 (i : S2048x64.Idx) (q : dot_S2048x64_S64x64_S2048x64_1_0_0_1_n_n.contr.Idx) :
    (dot_S2048x64_S64x64_S2048x64_1_0_0_1_n_n.lhsIdx i q 0).val = (i 0).val := by
  unfold DotDims.lhsIdx
  rw [dif_neg (show ¬(0 : Fin S2048x64.rank) ∈ dot_S2048x64_S64x64_S2048x64_1_0_0_1_n_n.lhsBatch by decide),
    dif_pos (show (0 : Fin S2048x64.rank) ∈ dot_S2048x64_S64x64_S2048x64_1_0_0_1_n_n.lhsNonContracting by decide)]
  rfl
theorem mm_h_l1 (i : S2048x64.Idx) (q : dot_S2048x64_S64x64_S2048x64_1_0_0_1_n_n.contr.Idx) :
    (dot_S2048x64_S64x64_S2048x64_1_0_0_1_n_n.lhsIdx i q 1).val = (q ⟨0, by decide⟩).val :=
  dot_S2048x64_S64x64_S2048x64_1_0_0_1_n_n.lhsIdx_val_of_single rfl i q
theorem mm_h_r0 (i : S2048x64.Idx) (q : dot_S2048x64_S64x64_S2048x64_1_0_0_1_n_n.contr.Idx) :
    (dot_S2048x64_S64x64_S2048x64_1_0_0_1_n_n.rhsIdx i q 0).val = (q ⟨0, by decide⟩).val :=
  dot_S2048x64_S64x64_S2048x64_1_0_0_1_n_n.rhsIdx_val_of_single rfl i q
theorem mm_h_r1 (i : S2048x64.Idx) (q : dot_S2048x64_S64x64_S2048x64_1_0_0_1_n_n.contr.Idx) :
    (dot_S2048x64_S64x64_S2048x64_1_0_0_1_n_n.rhsIdx i q 1).val = (i 1).val := by
  unfold DotDims.rhsIdx
  rw [dif_neg (show ¬(1 : Fin S64x64.rank) ∈ dot_S2048x64_S64x64_S2048x64_1_0_0_1_n_n.rhsBatch by decide),
    dif_pos (show (1 : Fin S64x64.rank) ∈ dot_S2048x64_S64x64_S2048x64_1_0_0_1_n_n.rhsNonContracting by decide)]
  rfl

/-- A head's product at (n, d): the sum over the 64 depths. -/
theorem mm_h (L : FVec Ideal S2048x64 .bf16) (R : FVec Ideal S64x64 .bf16) (n : Fin 2048) (j : Fin 64) :
    matmul dot_S2048x64_S64x64_S2048x64_1_0_0_1_n_n none L R (constant S2048x64 .f32 0x00000000#32) (ix2 n j)
      = ∑ k : Fin 64, L (ix2 n k) * R (ix2 k j) := by
  refine (Ideal.matmul_constant_zero_apply dot_S2048x64_S64x64_S2048x64_1_0_0_1_n_n none L R (ix2 n j)).trans ?_
  rw [← Equiv.sum_comp (contrEquiv1 dot_S2048x64_S64x64_S2048x64_1_0_0_1_n_n 64 rfl rfl).symm]
  refine Finset.sum_congr rfl fun k _ => ?_
  have hk := contrEquiv1_symm_val dot_S2048x64_S64x64_S2048x64_1_0_0_1_n_n 64 rfl rfl k
  have el : dot_S2048x64_S64x64_S2048x64_1_0_0_1_n_n.lhsIdx (ix2 n j)
      ((contrEquiv1 dot_S2048x64_S64x64_S2048x64_1_0_0_1_n_n 64 rfl rfl).symm k) = ix2 n k :=
    funext fun a => Fin.ext (by
      match a with
      | ⟨0, _⟩ => exact mm_h_l0 _ _
      | ⟨1, _⟩ => exact (mm_h_l1 _ _).trans hk)
  have er : dot_S2048x64_S64x64_S2048x64_1_0_0_1_n_n.rhsIdx (ix2 n j)
      ((contrEquiv1 dot_S2048x64_S64x64_S2048x64_1_0_0_1_n_n 64 rfl rfl).symm k) = ix2 k j :=
    funext fun a => Fin.ext (by
      match a with
      | ⟨0, _⟩ => exact (mm_h_r0 _ _).trans hk
      | ⟨1, _⟩ => exact mm_h_r1 _ _)
  rw [el, er]

/-- The operand indices of the output projection's [2048,512] x [512,256] product. -/
theorem mm_o_l0 (i : S2048x256.Idx) (q : dot_S2048x512_S512x256_S2048x256_1_0_0_1_n_n.contr.Idx) :
    (dot_S2048x512_S512x256_S2048x256_1_0_0_1_n_n.lhsIdx i q 0).val = (i 0).val := by
  unfold DotDims.lhsIdx
  rw [dif_neg (show ¬(0 : Fin S2048x512.rank) ∈ dot_S2048x512_S512x256_S2048x256_1_0_0_1_n_n.lhsBatch by decide),
    dif_pos (show (0 : Fin S2048x512.rank) ∈ dot_S2048x512_S512x256_S2048x256_1_0_0_1_n_n.lhsNonContracting by decide)]
  rfl
theorem mm_o_l1 (i : S2048x256.Idx) (q : dot_S2048x512_S512x256_S2048x256_1_0_0_1_n_n.contr.Idx) :
    (dot_S2048x512_S512x256_S2048x256_1_0_0_1_n_n.lhsIdx i q 1).val = (q ⟨0, by decide⟩).val :=
  dot_S2048x512_S512x256_S2048x256_1_0_0_1_n_n.lhsIdx_val_of_single rfl i q
theorem mm_o_r0 (i : S2048x256.Idx) (q : dot_S2048x512_S512x256_S2048x256_1_0_0_1_n_n.contr.Idx) :
    (dot_S2048x512_S512x256_S2048x256_1_0_0_1_n_n.rhsIdx i q 0).val = (q ⟨0, by decide⟩).val :=
  dot_S2048x512_S512x256_S2048x256_1_0_0_1_n_n.rhsIdx_val_of_single rfl i q
theorem mm_o_r1 (i : S2048x256.Idx) (q : dot_S2048x512_S512x256_S2048x256_1_0_0_1_n_n.contr.Idx) :
    (dot_S2048x512_S512x256_S2048x256_1_0_0_1_n_n.rhsIdx i q 1).val = (i 1).val := by
  unfold DotDims.rhsIdx
  rw [dif_neg (show ¬(1 : Fin S512x256.rank) ∈ dot_S2048x512_S512x256_S2048x256_1_0_0_1_n_n.rhsBatch by decide),
    dif_pos (show (1 : Fin S512x256.rank) ∈ dot_S2048x512_S512x256_S2048x256_1_0_0_1_n_n.rhsNonContracting by decide)]
  rfl

/-- The output projection's product at (n, o): the sum over the 512 attention columns. -/
theorem mm_o (L : FVec Ideal S2048x512 .bf16) (R : FVec Ideal S512x256 .bf16) (n : Fin 2048) (j : Fin 256) :
    matmul dot_S2048x512_S512x256_S2048x256_1_0_0_1_n_n none L R (constant S2048x256 .f32 0x00000000#32) (ix2 n j)
      = ∑ k : Fin 512, L (ix2 n k) * R (ix2 k j) := by
  refine (Ideal.matmul_constant_zero_apply dot_S2048x512_S512x256_S2048x256_1_0_0_1_n_n none L R (ix2 n j)).trans ?_
  rw [← Equiv.sum_comp (contrEquiv1 dot_S2048x512_S512x256_S2048x256_1_0_0_1_n_n 512 rfl rfl).symm]
  refine Finset.sum_congr rfl fun k _ => ?_
  have hk := contrEquiv1_symm_val dot_S2048x512_S512x256_S2048x256_1_0_0_1_n_n 512 rfl rfl k
  have el : dot_S2048x512_S512x256_S2048x256_1_0_0_1_n_n.lhsIdx (ix2 n j)
      ((contrEquiv1 dot_S2048x512_S512x256_S2048x256_1_0_0_1_n_n 512 rfl rfl).symm k) = ix2 n k :=
    funext fun a => Fin.ext (by
      match a with
      | ⟨0, _⟩ => exact mm_o_l0 _ _
      | ⟨1, _⟩ => exact (mm_o_l1 _ _).trans hk)
  have er : dot_S2048x512_S512x256_S2048x256_1_0_0_1_n_n.rhsIdx (ix2 n j)
      ((contrEquiv1 dot_S2048x512_S512x256_S2048x256_1_0_0_1_n_n 512 rfl rfl).symm k) = ix2 k j :=
    funext fun a => Fin.ext (by
      match a with
      | ⟨0, _⟩ => exact (mm_o_r0 _ _).trans hk
      | ⟨1, _⟩ => exact mm_o_r1 _ _)
  rw [el, er]

/-! ## The block's arrays as the functions the specification takes -/

/-- Token row n of the block's [1, 2048, 256] tokens. -/
abbrev row (x0 : Vec Ideal S1x2048x256 .f32) (n : Fin 2048) : Fin 256 → EReal := fun c => x0 (ix3 (0 : Fin 1) n c)
/-- A [1, k] row vector as a function of its column. -/
abbrev vec256 (x : Vec Ideal S1x256 .f32) : Fin 256 → EReal := fun c => x (ix2 (0 : Fin 1) c)
abbrev vec512 (x : Vec Ideal S1x512 .f32) : Fin 512 → EReal := fun j => x (ix2 (0 : Fin 1) j)
/-- The query weights, the stacked context and the output weights as functions of two coordinates. -/
abbrev matq (x : Vec Ideal S256x512 .bf16) : Fin 256 → Fin 512 → EReal := fun c j => x (ix2 c j)
abbrev ctx3 (x : Vec Ideal S1x512x64 .f32) : Fin 512 → Fin 64 → EReal := fun r e => x (ix3 (0 : Fin 1) r e)
abbrev mato (x : Vec Ideal S512x256 .bf16) : Fin 512 → Fin 256 → EReal := fun j o => x (ix2 j o)

/-- Entry (n, j) of the attention buffer: token n's attention output at column j. -/
def att (x0 : Vec Ideal S1x2048x256 .f32) (x1 : Vec Ideal S1x256 .f32) (x2 : Vec Ideal S256x512 .bf16)
    (x3 : Vec Ideal S1x512 .f32) (x4 : Vec Ideal S1x512x64 .f32) (n : Fin 2048) (j : Fin 512) : EReal :=
  Spec.attRow (row x0 n) (vec256 x1) (matq x2) (vec512 x3) (ctx3 x4) j

/-- The attention buffer as one function of its index. -/
def attBuf (x0 : Vec Ideal S1x2048x256 .f32) (x1 : Vec Ideal S1x256 .f32) (x2 : Vec Ideal S256x512 .bf16)
    (x3 : Vec Ideal S1x512 .f32) (x4 : Vec Ideal S1x512x64 .f32) : S2048x512.Idx → EReal :=
  fun y => att x0 x1 x2 x3 x4 ⟨(y 0).val, idx2_lt0 y⟩ ⟨(y 1).val, idx2_lt1 y⟩

/-- At an index with coordinates (n, j) it is token n's attention output at column j. -/
theorem attBuf_apply (x0 : Vec Ideal S1x2048x256 .f32) (x1 : Vec Ideal S1x256 .f32) (x2 : Vec Ideal S256x512 .bf16)
    (x3 : Vec Ideal S1x512 .f32) (x4 : Vec Ideal S1x512x64 .f32) (y : S2048x512.Idx) (n : Fin 2048) (j : Fin 512)
    (hy0 : (y 0).val = n.val) (hy1 : (y 1).val = j.val) :
    attBuf x0 x1 x2 x3 x4 y = Spec.attRow (row x0 n) (vec256 x1) (matq x2) (vec512 x3) (ctx3 x4) j := by
  unfold attBuf att
  rw [show (⟨(y 0).val, idx2_lt0 y⟩ : Fin 2048) = n from Fin.ext hy0,
    show (⟨(y 1).val, idx2_lt1 y⟩ : Fin 512) = j from Fin.ext hy1]

/-! ## The scaled query block -/

/-- Entry (n, j) of the scaled query block is the specification's scaled query entry of token row n. -/
theorem pay2_apply (x0 : Vec Ideal S1x2048x256 .f32) (x1 : Vec Ideal S1x256 .f32) (x2 : Vec Ideal S256x512 .bf16)
    (x3 : Vec Ideal S1x512 .f32) (n : Fin 2048) (j : Fin 512) :
    k1_pay2 (F := Ideal) x0 x1 x2 x3 (ix2 n j) = Spec.qRow (row x0 n) (vec256 x1) (matq x2) (vec512 x3) j := by
  unfold k1_pay2 Spec.qRow Spec.projRow
  show (matmul dot_S2048x256_S256x512_S2048x512_1_0_0_1_n_n none _ _ (constant (F := Ideal) S2048x512 .f32 0x00000000#32) (ix2 n j)
      + broadcastTo S2048x512 _ broadcasts_S1x512_S2048x512 (ix2 n j)) * Spec.c8 = _
  refine congrArg₂ (· * ·) (congrArg₂ (· + ·) ?_ ?_) rfl
  · refine (mm_q _ _ n j).trans (Finset.sum_congr rfl fun c _ => ?_)
    refine congrArg₂ (· * ·) ?_ (congrFun (shapeCast_self x2 _) _)
    show (shapeCast S2048x256 x0 shapeCasts_S1x2048x256_S2048x256 (ix2 n c)
      * broadcastTo S2048x256 _ broadcasts_S1x256_S2048x256 (ix2 n c)) * Spec.c16 = _
    unfold Spec.normRow
    refine congrArg₂ (· * ·) (congrArg₂ (· * ·) (shapeCast_1ab_ab_apply x0 _ n c) ?_) rfl
    refine (broadcastTo_1b_ab_apply _ _ n c).trans ?_
    show shapeCast S1x256 x1 shapeCasts_S1x256_S1x256 (ix2 (0 : Fin 1) c) + Spec.one = _
    exact congrArg (· + Spec.one) (congrFun (shapeCast_self x1 _) _)
  · exact (broadcastTo_1b_ab_apply _ _ n j).trans (congrFun (shapeCast_self x3 _) _)

/-! ## One head's store -/

/-- What a head stores: the 64 query columns from column o on, against the head's context. -/
def headPay (o : ℕ) (hs : S2048x512.Slices ![0, o] S2048x64) (Q : FVec Ideal S2048x512 .f32)
    (C : Vec Ideal S1x64x64 .f32) : FVec Ideal S2048x64 .bf16 :=
  shapeCast S2048x64
    (truncf .bf16
      (matmul dot_S2048x64_S64x64_S2048x64_1_0_0_1_n_n none
        (truncf .bf16 (extractStridedSlice S2048x64 ![0, o] Q hs) bitsLt_bf16_f32)
        (truncf .bf16 (shapeCast S64x64 C shapeCasts_S1x64x64_S64x64) bitsLt_bf16_f32)
        (constant S2048x64 .f32 0x00000000#32))
      bitsLt_bf16_f32)
    shapeCasts_S2048x64_S2048x64

/-- Its entry (n, d): the sum over the depth e of query (n, o + e) times context (e, d). -/
theorem headPay_apply (o : ℕ) (hs : S2048x512.Slices ![0, o] S2048x64) (Q : FVec Ideal S2048x512 .f32)
    (C : Vec Ideal S1x64x64 .f32) (n : Fin 2048) (d : Fin 64) :
    headPay o hs Q C (ix2 n d)
      = ∑ e : Fin 64, Q (ix2 n ⟨o + e.val, Nat.lt_of_lt_of_le (Nat.add_lt_add_left e.isLt o) (hs.2 1)⟩)
          * C (ix3 (0 : Fin 1) e d) := by
  unfold headPay
  rw [shapeCast_self]
  show matmul dot_S2048x64_S64x64_S2048x64_1_0_0_1_n_n none _ _ (constant (F := Ideal) S2048x64 .f32 0x00000000#32) (ix2 n d) = _
  refine (mm_h _ _ n d).trans (Finset.sum_congr rfl fun e _ => ?_)
  exact congrArg₂ (· * ·) (slice2_axis1_eq o Q hs n e) (shapeCast_1ab_ab_apply C _ e d)

/-- The eight head payloads are this one at the eight column offsets. -/
theorem pay3_eq (x0 : Vec Ideal S1x2048x256 .f32) (x1 : Vec Ideal S1x256 .f32) (x2 : Vec Ideal S256x512 .bf16)
    (x3 : Vec Ideal S1x512 .f32) (C : Vec Ideal S1x64x64 .f32) :
    k1_pay3 (F := Ideal) x0 x1 x2 x3 C = headPay 0 slices_S2048x512_o0_0_S2048x64 (k1_pay2 x0 x1 x2 x3) C := rfl
theorem pay6_eq (x0 : Vec Ideal S1x2048x256 .f32) (x1 : Vec Ideal S1x256 .f32) (x2 : Vec Ideal S256x512 .bf16)
    (x3 : Vec Ideal S1x512 .f32) (C : Vec Ideal S1x64x64 .f32) :
    k1_pay6 (F := Ideal) (k1_pay4 x0 x1 x2 x3) (k1_pay5 C)
      = headPay 64 slices_S2048x512_o0_64_S2048x64 (k1_pay2 x0 x1 x2 x3) C := rfl
theorem pay7_eq (Q : FVec Ideal S2048x512 .f32) (C : Vec Ideal S1x64x64 .f32) :
    k1_pay7 (F := Ideal) Q C = headPay 128 slices_S2048x512_o0_128_S2048x64 Q C := rfl
theorem pay8_eq (Q : FVec Ideal S2048x512 .f32) (C : Vec Ideal S1x64x64 .f32) :
    k1_pay8 (F := Ideal) Q C = headPay 192 slices_S2048x512_o0_192_S2048x64 Q C := rfl
theorem pay9_eq (Q : FVec Ideal S2048x512 .f32) (C : Vec Ideal S1x64x64 .f32) :
    k1_pay9 (F := Ideal) Q C = headPay 256 slices_S2048x512_o0_256_S2048x64 Q C := rfl
theorem pay10_eq (Q : FVec Ideal S2048x512 .f32) (C : Vec Ideal S1x64x64 .f32) :
    k1_pay10 (F := Ideal) Q C = headPay 320 slices_S2048x512_o0_320_S2048x64 Q C := rfl
theorem pay11_eq (Q : FVec Ideal S2048x512 .f32) (C : Vec Ideal S1x64x64 .f32) :
    k1_pay11 (F := Ideal) Q C = headPay 384 slices_S2048x512_o0_384_S2048x64 Q C := rfl
theorem pay12_eq (Q : FVec Ideal S2048x512 .f32) (C : Vec Ideal S1x64x64 .f32) :
    k1_pay12 (F := Ideal) Q C = headPay 448 slices_S2048x512_o0_448_S2048x64 Q C := rfl

/-- A head's store is the attention buffer's function on the head's columns: when the context slab C holds rows
    o .. o + 63 of the stacked context (o a multiple of 64), entry (n, d) of the store is the buffer's entry at any
    index y with coordinates (n, o + d). -/
theorem head_piece (o : ℕ) (ho : o % 64 = 0) (hs : S2048x512.Slices ![0, o] S2048x64)
    (x0 : Vec Ideal S1x2048x256 .f32) (x1 : Vec Ideal S1x256 .f32) (x2 : Vec Ideal S256x512 .bf16)
    (x3 : Vec Ideal S1x512 .f32) (x4 : Vec Ideal S1x512x64 .f32) (C : Vec Ideal S1x64x64 .f32)
    (hC : ∀ (e d : Fin 64) (r : Fin 512), r.val = o + e.val → C (ix3 (0 : Fin 1) e d) = x4 (ix3 (0 : Fin 1) r d))
    (n : Fin 2048) (d : Fin 64) (y : S2048x512.Idx) (hy0 : (y 0).val = n.val) (hy1 : (y 1).val = o + d.val) :
    headPay o hs (k1_pay2 x0 x1 x2 x3) C (ix2 n d) = attBuf x0 x1 x2 x3 x4 y := by
  have ho512 : o + 64 ≤ 512 := hs.2 1
  refine (headPay_apply o hs _ C n d).trans ?_
  unfold attBuf att Spec.attRow
  have hn : (⟨(y 0).val, idx2_lt0 y⟩ : Fin 2048) = n := Fin.ext hy0
  rw [hn]
  refine Finset.sum_congr rfl fun e _ => ?_
  have hd : Spec.hd ⟨(y 1).val, idx2_lt1 y⟩ e
      = ⟨o + e.val, Nat.lt_of_lt_of_le (Nat.add_lt_add_left e.isLt o) (hs.2 1)⟩ := Fin.ext (by
    show (y 1).val / 64 * 64 + e.val = o + e.val
    have := d.isLt
    omega)
  have hl : Spec.lo ⟨(y 1).val, idx2_lt1 y⟩ = d := Fin.ext (by
    show (y 1).val % 64 = d.val
    have := d.isLt
    omega)
  rw [hd, hl]
  exact congrArg₂ (· * ·) (pay2_apply x0 x1 x2 x3 n _) (hC e d _ rfl)

/-- The context slab a head loads: rows o .. o + 63 of the stacked [1, 512, 64] context. -/
theorem ld_slab (o : ℕ) (inb : ∀ a, (![0, o, 0] : Fin 3 → ℕ) a + S1x64x64.size a ≤ S1x512x64.size a)
    (x4 : Vec Ideal S1x512x64 .f32) (e d : Fin 64) (r : Fin 512) (hr : r.val = o + e.val) :
    View.ld x4 (Rect.unit ![0, o, 0] S1x64x64.size inb) (ix3 (0 : Fin 1) e d) = x4 (ix3 (0 : Fin 1) r d) := by
  show x4 _ = x4 _
  refine congrArg x4 (funext fun a => Fin.ext ?_)
  match a with
  | ⟨0, _⟩ => rfl
  | ⟨1, _⟩ => show o + 1 * e.val = r.val; omega
  | ⟨2, _⟩ => show 0 + 1 * d.val = d.val; omega

/-! ## The output projection and the last normalisation -/

/-- The attention buffer times the output weights at (n, o). -/
theorem pay13_apply (A : Vec Ideal S2048x512 .bf16) (W : Vec Ideal S512x256 .bf16) (n : Fin 2048) (o : Fin 256) :
    k1_pay13 (F := Ideal) A W (ix2 n o) = ∑ j : Fin 512, A (ix2 n j) * W (ix2 j o) := by
  unfold k1_pay13
  refine (mm_o A _ n o).trans (Finset.sum_congr rfl fun j _ => ?_)
  exact congrArg (A (ix2 n j) * ·) (congrFun (shapeCast_self W _) _)

/-- The stored block at (0, n, o): the product plus the bias, times (γ + 1), times 16. -/
theorem pay1_apply (P : FVec Ideal S2048x256 .f32) (b g : Vec Ideal S1x256 .f32) (n : Fin 2048) (o : Fin 256) :
    k1_pay1 (F := Ideal) P b g (ix3 (0 : Fin 1) n o)
      = (P (ix2 n o) + b (ix2 (0 : Fin 1) o)) * (g (ix2 (0 : Fin 1) o) + Spec.one) * Spec.c16 := by
  unfold k1_pay1
  refine (shapeCast_ab_1ab_apply _ _ (0 : Fin 1) n o).trans ?_
  show (P (ix2 n o) + broadcastTo S2048x256 _ broadcasts_S1x256_S2048x256 (ix2 n o))
      * broadcastTo S2048x256 _ broadcasts_S1x256_S2048x256 (ix2 n o) * Spec.c16 = _
  refine congrArg₂ (· * ·) (congrArg₂ (· * ·) (congrArg (P (ix2 n o) + ·) ?_) ?_) rfl
  · exact (broadcastTo_1b_ab_apply _ _ n o).trans (congrFun (shapeCast_self b _) _)
  · refine (broadcastTo_1b_ab_apply _ _ n o).trans ?_
    show shapeCast S1x256 g shapeCasts_S1x256_S1x256 (ix2 (0 : Fin 1) o) + Spec.one = _
    exact congrArg (· + Spec.one) (congrFun (shapeCast_self g _) _)

end Cert.KernelIdeal.Out1Pay

end
-- ==== Proof.Out1Body.lean ====
/-
  The output kernel at one grid point: what its one store leaves in the output block, entry by entry.

  The body loads its whole input blocks, forms the scaled query block, and for each of the eight heads stores that
  head's 64 query columns times the head's 64 x 64 slab of the context into the head's 64 columns of a [2048, 512]
  buffer.  The eight column stores tile the buffer, so reading the whole buffer back gives ONE function of the buffer
  index: entry (n, j) is token n's attention output at column j.  That buffer times the output weights, plus the
  bias, normalised by (γ' + 1) · 16, is the one store that covers the output block; entry (0, n, o) of the block is
  therefore the specification's result row of token n at channel o.
-/
import proofs.«104020_j30150670417974_2_alg».proof.Proof.Gen.KernelIdeal.Frame
import proofs.«104020_j30150670417974_2_alg».proof.Proof.Spec
import proofs.«104020_j30150670417974_2_alg».proof.Proof.Out1Pay
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Out1Body

open Cert.KernelIdeal Cert.KernelIdeal.Gen Cert.KernelIdeal.Out1Pay
open Idealize.ShloMosaic Idealize.ShloMosaic.TcCoe Idealize.ShloMosaic.Tactic Idealize.ShloMosaic.ValueIdx
open Idealize.SL Idealize.SL.Sem

/-- The zero offsets of a whole-block access, at rank two and three. -/
theorem hz2 : (![0, 0] : Fin 2 → ℕ) = fun _ => 0 := funext fun a => by fin_cases a <;> rfl
theorem hz3 : (![0, 0, 0] : Fin 3 → ℕ) = fun _ => 0 := funext fun a => by fin_cases a <;> rfl

/-- The output block the body leaves, at (0, n, o): the specification's result row of token n at channel o.
    The one covering store's value is read at the index: the last normalisation and the output projection are sums
    and products of entries; the attention buffer under the projection is the eight head stores read back as one
    function (each head's store is that function on the head's 64 columns, and the eight column blocks tile the
    buffer); each head's context slab is rows 64·head .. 64·head + 63 of the stacked context. -/
theorem out1_A_8_apply (c : Dev nD) (i : grid1.Coords) (arg2 : Memref sig .tc .vmem S1x2048x256 .f32) (harg2 : arg2.IsWhole) (arg3 : Memref sig .tc .vmem S1x256 .f32) (harg3 : arg3.IsWhole) (arg4 : Memref sig .tc .vmem S256x512 .bf16) (harg4 : arg4.IsWhole) (arg5 : Memref sig .tc .vmem S1x512 .f32) (harg5 : arg5.IsWhole) (arg6 : Memref sig .tc .vmem S1x512x64 .f32) (harg6 : arg6.IsWhole) (arg7 : Memref sig .tc .vmem S512x256 .bf16) (harg7 : arg7.IsWhole) (arg8 : Memref sig .tc .vmem S1x256 .f32) (harg8 : arg8.IsWhole) (arg9 : Memref sig .tc .vmem S1x256 .f32) (harg9 : arg9.IsWhole) (arg10 : Memref sig .tc .vmem S1x2048x256 .f32) (harg10 : arg10.IsWhole) (arg11 : Memref sig .tc .vmem S2048x512 .bf16) (harg11 : arg11.IsWhole)
    (x0 : Vec Ideal S1x2048x256 .f32) (x1 : Vec Ideal S1x256 .f32) (x2 : Vec Ideal S256x512 .bf16) (x3 : Vec Ideal S1x512 .f32) (x4 : Vec Ideal S1x512x64 .f32) (x5 : Vec Ideal S512x256 .bf16) (x6 x7 : Vec Ideal S1x256 .f32) (n : Fin 2048) (o : Fin 256) :
    out1_A_8 (F := Ideal) c i arg2 harg2 arg3 harg3 arg4 harg4 arg5 harg5 arg6 harg6 arg7 harg7 arg8 harg8 arg9 harg9 arg10 harg10 arg11 harg11 x0 x1 x2 x3 x4 x5 x6 x7 (ValueIdx.ix3 (0 : Fin 1) n o)
      = Cert.Spec.outRow (fun c => x0 (ValueIdx.ix3 (0 : Fin 1) n c)) (fun c => x1 (ValueIdx.ix2 (0 : Fin 1) c)) (fun c j => x2 (ValueIdx.ix2 c j)) (fun j => x3 (ValueIdx.ix2 (0 : Fin 1) j)) (fun r e => x4 (ValueIdx.ix3 (0 : Fin 1) r e)) (fun j o => x5 (ValueIdx.ix2 j o)) (fun o => x6 (ValueIdx.ix2 (0 : Fin 1) o)) (fun o => x7 (ValueIdx.ix2 (0 : Fin 1) o)) o := by
  unfold out1_A_8
  rw [View.read_writes_eq_canon _ _ _ (cover1_A_8 c i arg2 harg2 arg3 harg3 arg4 harg4 arg5 harg5 arg6 harg6 arg7 harg7 arg8 harg8 arg9 harg9 arg10 harg10 arg11 harg11 x0 x1 x2 x3 x4 x5 x6 x7)]
  unfold kernelRun1_A
  dsimp only
  sl_unfold_words
  -- the one store covers the block: the block is its value
  rw [View.canon_unit_zero (S := S1x2048x256) hz3]
  -- every whole-block load reads the block; a head's load of the context reads its slab
  simp only [View.readAt_eq_ld, harg2.read_unread, harg3.read_unread, harg4.read_unread, harg5.read_unread,
    harg6.read_unread, harg7.read_unread, harg8.read_unread, harg9.read_unread,
    View.ld_unit_zero (S := S1x2048x256) hz3, View.ld_unit_zero (S := S1x256) hz2, View.ld_unit_zero (S := S256x512) hz2,
    View.ld_unit_zero (S := S1x512) hz2, View.ld_unit_zero (S := S512x256) hz2]
  -- the last normalisation, then the output projection, at (n, o)
  refine (pay1_apply _ x6 x7 n o).trans ?_
  unfold Spec.outRow
  refine congrArg₂ (· * ·) (congrArg₂ (· * ·) (congrArg (· + x6 (ix2 (0 : Fin 1) o)) ?_) rfl) rfl
  refine (pay13_apply _ x5 n o).trans (Finset.sum_congr rfl fun j _ => ?_)
  refine congrArg (· * x5 (ix2 j o)) ?_
  -- the attention buffer read back after the eight head stores, at (n, j)
  rw [View.readCov_eq_canon']
  beta_reduce
  refine (View.canon_apply_of_pieces (attBuf x0 x1 x2 x3 x4) _ ?pieces _ ?cover).trans ?_
  case cover =>
    exact View.cover_of_tiledL (s := S2048x512) _ S2048x64.size (by sl_kernel_rfl) _
  case pieces =>
    refine List.forall_mem_cons.mpr ⟨?_, List.forall_mem_cons.mpr ⟨?_, List.forall_mem_cons.mpr ⟨?_,
      List.forall_mem_cons.mpr ⟨?_, List.forall_mem_cons.mpr ⟨?_, List.forall_mem_cons.mpr ⟨?_,
      List.forall_mem_cons.mpr ⟨?_, List.forall_mem_cons.mpr ⟨?_, fun _ h => absurd h List.not_mem_nil⟩⟩⟩⟩⟩⟩⟩⟩
    -- head 7: columns 448 .. 511
    · intro (x : S2048x64.Idx)
      obtain ⟨m, d, rfl⟩ : ∃ (m : Fin 2048) (d : Fin 64), x = ix2 m d := ⟨x 0, x 1, eq_ix2 x⟩
      refine (congrFun (pay12_eq _ _) (ix2 m d)).trans ?_
      exact head_piece 448 (by decide) slices_S2048x512_o0_448_S2048x64 x0 x1 x2 x3 x4 _
        (fun e d r hr => ld_slab 448 inb_S1x512x64_S1x64x64_0_448_0 x4 e d r hr) m d _
        (by show 0 + 1 * m.val = m.val; omega) (by show 448 + 1 * d.val = 448 + d.val; omega)
    -- head 6: columns 384 .. 447
    · intro (x : S2048x64.Idx)
      obtain ⟨m, d, rfl⟩ : ∃ (m : Fin 2048) (d : Fin 64), x = ix2 m d := ⟨x 0, x 1, eq_ix2 x⟩
      refine (congrFun (pay11_eq _ _) (ix2 m d)).trans ?_
      exact head_piece 384 (by decide) slices_S2048x512_o0_384_S2048x64 x0 x1 x2 x3 x4 _
        (fun e d r hr => ld_slab 384 inb_S1x512x64_S1x64x64_0_384_0 x4 e d r hr) m d _
        (by show 0 + 1 * m.val = m.val; omega) (by show 384 + 1 * d.val = 384 + d.val; omega)
    -- head 5: columns 320 .. 383
    · intro (x : S2048x64.Idx)
      obtain ⟨m, d, rfl⟩ : ∃ (m : Fin 2048) (d : Fin 64), x = ix2 m d := ⟨x 0, x 1, eq_ix2 x⟩
      refine (congrFun (pay10_eq _ _) (ix2 m d)).trans ?_
      exact head_piece 320 (by decide) slices_S2048x512_o0_320_S2048x64 x0 x1 x2 x3 x4 _
        (fun e d r hr => ld_slab 320 inb_S1x512x64_S1x64x64_0_320_0 x4 e d r hr) m d _
        (by show 0 + 1 * m.val = m.val; omega) (by show 320 + 1 * d.val = 320 + d.val; omega)
    -- head 4: columns 256 .. 319
    · intro (x : S2048x64.Idx)
      obtain ⟨m, d, rfl⟩ : ∃ (m : Fin 2048) (d : Fin 64), x = ix2 m d := ⟨x 0, x 1, eq_ix2 x⟩
      refine (congrFun (pay9_eq _ _) (ix2 m d)).trans ?_
      exact head_piece 256 (by decide) slices_S2048x512_o0_256_S2048x64 x0 x1 x2 x3 x4 _
        (fun e d r hr => ld_slab 256 inb_S1x512x64_S1x64x64_0_256_0 x4 e d r hr) m d _
        (by show 0 + 1 * m.val = m.val; omega) (by show 256 + 1 * d.val = 256 + d.val; omega)
    -- head 3: columns 192 .. 255
    · intro (x : S2048x64.Idx)
      obtain ⟨m, d, rfl⟩ : ∃ (m : Fin 2048) (d : Fin 64), x = ix2 m d := ⟨x 0, x 1, eq_ix2 x⟩
      refine (congrFun (pay8_eq _ _) (ix2 m d)).trans ?_
      exact head_piece 192 (by decide) slices_S2048x512_o0_192_S2048x64 x0 x1 x2 x3 x4 _
        (fun e d r hr => ld_slab 192 inb_S1x512x64_S1x64x64_0_192_0 x4 e d r hr) m d _
        (by show 0 + 1 * m.val = m.val; omega) (by show 192 + 1 * d.val = 192 + d.val; omega)
    -- head 2: columns 128 .. 191
    · intro (x : S2048x64.Idx)
      obtain ⟨m, d, rfl⟩ : ∃ (m : Fin 2048) (d : Fin 64), x = ix2 m d := ⟨x 0, x 1, eq_ix2 x⟩
      refine (congrFun (pay7_eq _ _) (ix2 m d)).trans ?_
      exact head_piece 128 (by decide) slices_S2048x512_o0_128_S2048x64 x0 x1 x2 x3 x4 _
        (fun e d r hr => ld_slab 128 inb_S1x512x64_S1x64x64_0_128_0 x4 e d r hr) m d _
        (by show 0 + 1 * m.val = m.val; omega) (by show 128 + 1 * d.val = 128 + d.val; omega)
    -- head 1: columns 64 .. 127
    · intro (x : S2048x64.Idx)
      obtain ⟨m, d, rfl⟩ : ∃ (m : Fin 2048) (d : Fin 64), x = ix2 m d := ⟨x 0, x 1, eq_ix2 x⟩
      refine (congrFun (pay6_eq x0 x1 x2 x3 _) (ix2 m d)).trans ?_
      exact head_piece 64 (by decide) slices_S2048x512_o0_64_S2048x64 x0 x1 x2 x3 x4 _
        (fun e d r hr => ld_slab 64 inb_S1x512x64_S1x64x64_0_64_0 x4 e d r hr) m d _
        (by show 0 + 1 * m.val = m.val; omega) (by show 64 + 1 * d.val = 64 + d.val; omega)
    -- head 0: columns 0 .. 63
    · intro (x : S2048x64.Idx)
      obtain ⟨m, d, rfl⟩ : ∃ (m : Fin 2048) (d : Fin 64), x = ix2 m d := ⟨x 0, x 1, eq_ix2 x⟩
      refine (congrFun (pay3_eq x0 x1 x2 x3 _) (ix2 m d)).trans ?_
      exact head_piece 0 (by decide) slices_S2048x512_o0_0_S2048x64 x0 x1 x2 x3 x4 _
        (fun e d r hr => ld_slab 0 inb_S1x512x64_S1x64x64_0_0_0 x4 e d r hr) m d _
        (by show 0 + 1 * m.val = m.val; omega) (by show 0 + 1 * d.val = 0 + d.val; omega)
  -- the one function at the buffer index (n, j) is token n's attention output at column j
  exact attBuf_apply x0 x1 x2 x3 x4 _ n j (by show 0 + 1 * n.val = n.val; omega) (by show 0 + 1 * j.val = j.val; omega)

end Cert.KernelIdeal.Out1Body

end
-- ==== Proof.Out1Array.lean ====
/-
  The result array after the output kernel's run, as one function of the arrays the call finds.

  The grid is (batch element, token tile): point t = 2·b + k works on tokens 2048·k … 2048·k + 2047 of batch element
  b, reads that tile of the activations, the whole parameter arrays and batch element b's [512, 64] context, and
  writes back the tile's [2048, 256] result rows.  One grid point's result block, entry by entry, is the token's
  result row `Cert.Spec.outRow` of the blocks it read; a block's entry (0, n, ch) sits in its array at the block
  index times the block size plus the coordinate, so the block of point t is the restriction of ONE whole-array
  function `G1`, and since the 16 blocks tile the [8, 4096, 256] array, the array ends holding `G1`.
-/
import proofs.«104020_j30150670417974_2_alg».proof.Proof.Gen.KernelIdeal.Frame
import proofs.«104020_j30150670417974_2_alg».proof.Proof.Spec
import proofs.«104020_j30150670417974_2_alg».proof.Proof.Out1Body
import Idealize.ShloMosaic.Lib.ValueIdx
import Idealize.ShloMosaic.Lib.Pipeline.Value

set_option maxRecDepth 16384

noncomputable section

namespace Cert.KernelIdeal.Out1Array

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The batch element and the first token of the tile that grid point `t` works on: points run batch-major, two
    tiles of 2048 tokens per batch element. -/
theorem tlt (t : Fin cfg1.N) : t.val < 16 := lt_of_lt_of_eq t.isLt (show cfg1.N = 16 from N_1)
def bOf (t : Fin cfg1.N) : Fin 8 := ⟨t.val / 2, by have h := tlt t; omega⟩
def rowOf (t : Fin cfg1.N) (n : Fin 2048) : Fin 4096 :=
  ⟨(t.val % 2) * 2048 + n.val, by have := n.isLt; omega⟩

/-- The block index of every window at every grid point, decided over the 16 points: the token tile (b, tile) for the
    activations and the result, the batch element's whole context, block (0, 0) for the parameters. -/
theorem idx_facts : ∀ t : Fin cfg1.N,
    win1_0.index t (0 : Fin 3) = t.val / 2 ∧ win1_0.index t (1 : Fin 3) = t.val % 2 ∧ win1_0.index t (2 : Fin 3) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 3) = t.val / 2 ∧ win1_4.index t (1 : Fin 3) = 0 ∧ win1_4.index t (2 : Fin 3) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 3) = t.val / 2 ∧ win1_8.index t (1 : Fin 3) = t.val % 2 ∧ win1_8.index t (2 : Fin 3) = 0 :=
  (by decide +kernel : ∀ t : Fin grid1.N, _)

/-- One entry of the result array as the output kernel leaves it, from the arrays the call finds: the token's
    result row over that batch element's context. -/
def g1 (c : Dev nD) (b : Fin 8) (n : Fin 4096) (o : Fin 256) : EReal :=
  Cert.Spec.outRow (fun ch => V c main_v0 (ix3 b n ch)) (fun ch => V c main_v1 (ix2 (0 : Fin 1) ch))
    (fun ch j => V c main_v4 (ix2 ch j)) (fun j => V c main_v8 (ix2 (0 : Fin 1) j))
    (fun r e => V c main_v18 (ix3 b r e)) (fun j o => V c main_v6 (ix2 j o))
    (fun o => V c main_v11 (ix2 (0 : Fin 1) o)) (fun o => V c main_v2 (ix2 (0 : Fin 1) o)) o

def G1 (c : Dev nD) : S8x4096x256.Idx → EReal := fun i => g1 V c (i 0) (i 1) (i 2)

section reads
variable (c : Dev nD) (t : Fin cfg1.N)

theorem rd0 (n : Fin 2048) (ch : Fin 256) :
    iblk1 V c 0 t (ix3 (0 : Fin 1) n ch) = V c main_v0 (ix3 (bOf t) (rowOf t n) ch) := by
  obtain ⟨e0, e1, e2, -⟩ := idx_facts t
  unfold iblk1
  rw [View.read_apply]
  show V c main_v0 (((cfg1.win 0).blk t).view.emb (ix3 (0 : Fin 1) n ch)) = _
  refine congrArg _ ?_
  funext a; apply Fin.ext
  match a with
  | ⟨0, _⟩ => show win1_0.index t (0 : Fin 3) * 1 + 1 * 0 = t.val / 2; omega
  | ⟨1, _⟩ => show win1_0.index t (1 : Fin 3) * 2048 + 1 * n.val = (t.val % 2) * 2048 + n.val; rw [e1]; omega
  | ⟨2, _⟩ => show win1_0.index t (2 : Fin 3) * 256 + 1 * ch.val = ch.val; omega

theorem rd1 (ch : Fin 256) : iblk1 V c 1 t (ix2 (0 : Fin 1) ch) = V c main_v1 (ix2 (0 : Fin 1) ch) := by
  obtain ⟨-, -, -, e0, e1, -⟩ := idx_facts t
  unfold iblk1
  rw [View.read_apply]
  show V c main_v1 (((cfg1.win 1).blk t).view.emb (ix2 (0 : Fin 1) ch)) = _
  refine congrArg _ ?_
  funext a; apply Fin.ext
  match a with
  | ⟨0, _⟩ => show win1_1.index t (0 : Fin 2) * 1 + 1 * 0 = 0; omega
  | ⟨1, _⟩ => show win1_1.index t (1 : Fin 2) * 256 + 1 * ch.val = ch.val; omega

theorem rd2 (ch : Fin 256) (j : Fin 512) : iblk1 V c 2 t (ix2 ch j) = V c main_v4 (ix2 ch j) := by
  obtain ⟨-, -, -, -, -, e0, e1, -⟩ := idx_facts t
  unfold iblk1
  rw [View.read_apply]
  show V c main_v4 (((cfg1.win 2).blk t).view.emb (ix2 ch j)) = _
  refine congrArg _ ?_
  funext a; apply Fin.ext
  match a with
  | ⟨0, _⟩ => show win1_2.index t (0 : Fin 2) * 256 + 1 * ch.val = ch.val; omega
  | ⟨1, _⟩ => show win1_2.index t (1 : Fin 2) * 512 + 1 * j.val = j.val; omega

theorem rd3 (j : Fin 512) : iblk1 V c 3 t (ix2 (0 : Fin 1) j) = V c main_v8 (ix2 (0 : Fin 1) j) := by
  obtain ⟨-, -, -, -, -, -, -, e0, e1, -⟩ := idx_facts t
  unfold iblk1
  rw [View.read_apply]
  show V c main_v8 (((cfg1.win 3).blk t).view.emb (ix2 (0 : Fin 1) j)) = _
  refine congrArg _ ?_
  funext a; apply Fin.ext
  match a with
  | ⟨0, _⟩ => show win1_3.index t (0 : Fin 2) * 1 + 1 * 0 = 0; omega
  | ⟨1, _⟩ => show win1_3.index t (1 : Fin 2) * 512 + 1 * j.val = j.val; omega

theorem rd4 (r : Fin 512) (e : Fin 64) : iblk1 V c 4 t (ix3 (0 : Fin 1) r e) = V c main_v18 (ix3 (bOf t) r e) := by
  obtain ⟨-, -, -, -, -, -, -, -, -, e0, e1, e2, -⟩ := idx_facts t
  unfold iblk1
  rw [View.read_apply]
  show V c main_v18 (((cfg1.win 4).blk t).view.emb (ix3 (0 : Fin 1) r e)) = _
  refine congrArg _ ?_
  funext a; apply Fin.ext
  match a with
  | ⟨0, _⟩ => show win1_4.index t (0 : Fin 3) * 1 + 1 * 0 = t.val / 2; omega
  | ⟨1, _⟩ => show win1_4.index t (1 : Fin 3) * 512 + 1 * r.val = r.val; omega
  | ⟨2, _⟩ => show win1_4.index t (2 : Fin 3) * 64 + 1 * e.val = e.val; omega

theorem rd5 (j : Fin 512) (o : Fin 256) : iblk1 V c 5 t (ix2 j o) = V c main_v6 (ix2 j o) := by
  obtain ⟨-, -, -, -, -, -, -, -, -, -, -, -, e0, e1, -⟩ := idx_facts t
  unfold iblk1
  rw [View.read_apply]
  show V c main_v6 (((cfg1.win 5).blk t).view.emb (ix2 j o)) = _
  refine congrArg _ ?_
  funext a; apply Fin.ext
  match a with
  | ⟨0, _⟩ => show win1_5.index t (0 : Fin 2) * 512 + 1 * j.val = j.val; omega
  | ⟨1, _⟩ => show win1_5.index t (1 : Fin 2) * 256 + 1 * o.val = o.val; omega

theorem rd6 (o : Fin 256) : iblk1 V c 6 t (ix2 (0 : Fin 1) o) = V c main_v11 (ix2 (0 : Fin 1) o) := by
  obtain ⟨-, -, -, -, -, -, -, -, -, -, -, -, -, -, e0, e1, -⟩ := idx_facts t
  unfold iblk1
  rw [View.read_apply]
  show V c main_v11 (((cfg1.win 6).blk t).view.emb (ix2 (0 : Fin 1) o)) = _
  refine congrArg _ ?_
  funext a; apply Fin.ext
  match a with
  | ⟨0, _⟩ => show win1_6.index t (0 : Fin 2) * 1 + 1 * 0 = 0; omega
  | ⟨1, _⟩ => show win1_6.index t (1 : Fin 2) * 256 + 1 * o.val = o.val; omega

theorem rd7 (o : Fin 256) : iblk1 V c 7 t (ix2 (0 : Fin 1) o) = V c main_v2 (ix2 (0 : Fin 1) o) := by
  obtain ⟨-, -, -, -, -, -, -, -, -, -, -, -, -, -, -, -, e0, e1, -⟩ := idx_facts t
  unfold iblk1
  rw [View.read_apply]
  show V c main_v2 (((cfg1.win 7).blk t).view.emb (ix2 (0 : Fin 1) o)) = _
  refine congrArg _ ?_
  funext a; apply Fin.ext
  match a with
  | ⟨0, _⟩ => show win1_7.index t (0 : Fin 2) * 1 + 1 * 0 = 0; omega
  | ⟨1, _⟩ => show win1_7.index t (1 : Fin 2) * 256 + 1 * o.val = o.val; omega

/-- Where entry (0, n, o) of the result block of point `t` sits in the result array. -/
theorem emb8 (n : Fin 2048) (o : Fin 256) :
    ((cfg1.win 8).blk t).view.emb (ix3 (0 : Fin 1) n o) = ix3 (bOf t) (rowOf t n) o := by
  obtain ⟨-, -, -, -, -, -, -, -, -, -, -, -, -, -, -, -, -, -, e0, e1, e2⟩ := idx_facts t
  funext a; apply Fin.ext
  match a with
  | ⟨0, _⟩ => show win1_8.index t (0 : Fin 3) * 1 + 1 * 0 = t.val / 2; omega
  | ⟨1, _⟩ => show win1_8.index t (1 : Fin 3) * 2048 + 1 * n.val = (t.val % 2) * 2048 + n.val; rw [e1]; omega
  | ⟨2, _⟩ => show win1_8.index t (2 : Fin 3) * 256 + 1 * o.val = o.val; omega

end reads

/-- What point `t` writes back is block `t` of `G1`. -/
theorem flushed1_eq (c : Dev nD) (t : Fin cfg1.N) :
    (dat1 V c).flushed 8 t = ((cfg1.win 8).blk t).view.read (Elt Ideal) (G1 V c) := by
  show (cfg1.win 8).cut (grid1.coords t) ((dat1 V c).after 8 t) = _
  rw [after1_8]
  funext j
  obtain ⟨z, n, o, rfl⟩ : ∃ (z : Fin 1) (n : Fin 2048) (o : Fin 256), j = ix3 z n o := ⟨j 0, j 1, j 2, eq_ix3 j⟩
  obtain rfl : z = 0 := Subsingleton.elim _ _
  rw [View.read_apply]
  show outsAt1 V c t (ix3 (0 : Fin 1) n o) = G1 V c (((cfg1.win 8).blk t).view.emb (ix3 (0 : Fin 1) n o))
  rw [emb8 t n o]
  unfold outsAt1
  refine (Cert.KernelIdeal.Out1Body.out1_A_8_apply c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _)
    (iblk1 V c 0 t) (iblk1 V c 1 t) (iblk1 V c 2 t) (iblk1 V c 3 t) (iblk1 V c 4 t) (iblk1 V c 5 t) (iblk1 V c 6 t) (iblk1 V c 7 t) n o).trans ?_
  show _ = g1 V c (bOf t) (rowOf t n) o
  unfold g1
  have h0 : (fun ch => iblk1 V c 0 t (ix3 (0 : Fin 1) n ch)) = fun ch => V c main_v0 (ix3 (bOf t) (rowOf t n) ch) := funext fun ch => rd0 V c t n ch
  have h1 : (fun ch => iblk1 V c 1 t (ix2 (0 : Fin 1) ch)) = fun ch => V c main_v1 (ix2 (0 : Fin 1) ch) := funext fun ch => rd1 V c t ch
  have h2 : (fun ch j => iblk1 V c 2 t (ix2 ch j)) = fun ch j => V c main_v4 (ix2 ch j) := funext fun ch => funext fun j => rd2 V c t ch j
  have h3 : (fun j => iblk1 V c 3 t (ix2 (0 : Fin 1) j)) = fun j => V c main_v8 (ix2 (0 : Fin 1) j) := funext fun j => rd3 V c t j
  have h4 : (fun r e => iblk1 V c 4 t (ix3 (0 : Fin 1) r e)) = fun r e => V c main_v18 (ix3 (bOf t) r e) := funext fun r => funext fun e => rd4 V c t r e
  have h5 : (fun j o => iblk1 V c 5 t (ix2 j o)) = fun j o => V c main_v6 (ix2 j o) := funext fun j => funext fun o => rd5 V c t j o
  have h6 : (fun o => iblk1 V c 6 t (ix2 (0 : Fin 1) o)) = fun o => V c main_v11 (ix2 (0 : Fin 1) o) := funext fun o => rd6 V c t o
  have h7 : (fun o => iblk1 V c 7 t (ix2 (0 : Fin 1) o)) = fun o => V c main_v2 (ix2 (0 : Fin 1) o) := funext fun o => rd7 V c t o
  rw [h0, h1, h2, h3, h4, h5, h6, h7]

/-- An index of the result array is in point `t`'s block iff each coordinate is in the block's range. -/
theorem mem_blk (t : Fin cfg1.N) (i : S8x4096x256.Idx) :
    i ∈ ((cfg1.win 8).blk t).view.set ↔ ∀ a : Fin 3, win1_8.index t a * S1x2048x256.size a ≤ (i a).val ∧ (i a).val < win1_8.index t a * S1x2048x256.size a + S1x2048x256.size a := by
  show i ∈ ((View.whole main_v19).slice (win1_8.rect t)).set ↔ _
  rw [View.set_slice_whole, Rect.mem_set_unit]
  exact Iff.rfl

/-- Every index is in the block of the point (batch, tile) = (i₀, i₁ / 2048). -/
theorem cover (i : S8x4096x256.Idx) :
    ∃ t : Fin cfg1.N, (cfg1.win 8).flush t = true ∧ i ∈ ((cfg1.win 8).blk t).view.set := by
  have h0 : (i 0).val < 8 := (i 0).isLt
  have h1 : (i 1).val < 4096 := (i 1).isLt
  have h2 : (i 2).val < 256 := (i 2).isLt
  let t : Fin cfg1.N := ⟨2 * (i 0).val + (i 1).val / 2048, by rw [show cfg1.N = 16 from N_1]; omega⟩
  have htv : t.val = 2 * (i 0).val + (i 1).val / 2048 := rfl
  obtain ⟨-, -, -, -, -, -, -, -, -, -, -, -, -, -, -, -, -, -, e0, e1, e2⟩ := idx_facts t
  refine ⟨t, flush1_8 t, ?_⟩
  rw [mem_blk]
  intro a
  match a with
  | ⟨0, _⟩ => show win1_8.index t (0 : Fin 3) * 1 ≤ (i 0).val ∧ (i 0).val < win1_8.index t (0 : Fin 3) * 1 + 1; omega
  | ⟨1, _⟩ => show win1_8.index t (1 : Fin 3) * 2048 ≤ (i 1).val ∧ (i 1).val < win1_8.index t (1 : Fin 3) * 2048 + 2048; omega
  | ⟨2, _⟩ => show win1_8.index t (2 : Fin 3) * 256 ≤ (i 2).val ∧ (i 2).val < win1_8.index t (2 : Fin 3) * 256 + 256; omega

/-- The result array after the output kernel's run, from the arrays the call finds. -/
theorem final1 (c : Dev nD) : (dat1 V c).arrAt 8 cfg1.N = G1 V c :=
  (dat1 V c).arrAt_eq_of_cover 8 (G1 V c) (fun t _ => flushed1_eq V c t) (cover)

end Cert.KernelIdeal.Out1Array

end
-- ==== Proof.Ctx0Pay.lean ====
/-
  The arithmetic of the context accumulation, entry by entry, on the extended reals.

  A tile of 2048 tokens is normalised entry by entry, x · (γ + 1) · 16, and projected by a [256, 1024] matrix
  plus a bias row: entry (n, j) of that [2048, 1024] projection is `Spec.projRow` of token row n at column j.
  Its left half holds the keys, its right half the values. Head h of the context adds to its entry (d, e) the
  sum over the tile's tokens of key column 64·h + d times value column 64·h + e: a product of two [2048, 64]
  column slices contracted along the token axis, added to what the entry held before (the old contents on the
  left of the sum). With r = 64·h + d that sum is `Spec.kvPart` of the tile's rows at (r, e).
-/
import proofs.«104020_j30150670417974_2_alg».proof.Proof.Gen.KernelIdeal.Skeleton
import proofs.«104020_j30150670417974_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Ctx0Pay

open Cert.KernelIdeal Cert.KernelIdeal.Gen
open Idealize.ShloMosaic Idealize.ShloMosaic.ValueIdx

/-! ## The two matrix products, as plain sums -/

theorem dense_lhs0 (i : S2048x1024.Idx) (q : dot_S2048x256_S256x1024_S2048x1024_1_0_0_1_n_n.contr.Idx) : (dot_S2048x256_S256x1024_S2048x1024_1_0_0_1_n_n.lhsIdx i q 0).val = (i 0).val := by
  unfold DotDims.lhsIdx
  rw [dif_neg (show ¬(0 : Fin S2048x256.rank) ∈ dot_S2048x256_S256x1024_S2048x1024_1_0_0_1_n_n.lhsBatch by decide),
    dif_pos (show (0 : Fin S2048x256.rank) ∈ dot_S2048x256_S256x1024_S2048x1024_1_0_0_1_n_n.lhsNonContracting by decide)]
  rfl
theorem dense_rhs1 (i : S2048x1024.Idx) (q : dot_S2048x256_S256x1024_S2048x1024_1_0_0_1_n_n.contr.Idx) : (dot_S2048x256_S256x1024_S2048x1024_1_0_0_1_n_n.rhsIdx i q 1).val = (i 1).val := by
  unfold DotDims.rhsIdx
  rw [dif_neg (show ¬(1 : Fin S256x1024.rank) ∈ dot_S2048x256_S256x1024_S2048x1024_1_0_0_1_n_n.rhsBatch by decide),
    dif_pos (show (1 : Fin S256x1024.rank) ∈ dot_S2048x256_S256x1024_S2048x1024_1_0_0_1_n_n.rhsNonContracting by decide)]
  rfl
theorem gram_lhs1 (i : S64x64.Idx) (q : dot_S2048x64_S2048x64_S64x64_0_0_1_1_n_n.contr.Idx) : (dot_S2048x64_S2048x64_S64x64_0_0_1_1_n_n.lhsIdx i q 1).val = (i 0).val := by
  unfold DotDims.lhsIdx
  rw [dif_neg (show ¬(1 : Fin S2048x64.rank) ∈ dot_S2048x64_S2048x64_S64x64_0_0_1_1_n_n.lhsBatch by decide),
    dif_pos (show (1 : Fin S2048x64.rank) ∈ dot_S2048x64_S2048x64_S64x64_0_0_1_1_n_n.lhsNonContracting by decide)]
  rfl
theorem gram_rhs1 (i : S64x64.Idx) (q : dot_S2048x64_S2048x64_S64x64_0_0_1_1_n_n.contr.Idx) : (dot_S2048x64_S2048x64_S64x64_0_0_1_1_n_n.rhsIdx i q 1).val = (i 1).val := by
  unfold DotDims.rhsIdx
  rw [dif_neg (show ¬(1 : Fin S2048x64.rank) ∈ dot_S2048x64_S2048x64_S64x64_0_0_1_1_n_n.rhsBatch by decide),
    dif_pos (show (1 : Fin S2048x64.rank) ∈ dot_S2048x64_S2048x64_S64x64_0_0_1_1_n_n.rhsNonContracting by decide)]
  rfl

/-- Rows times columns: entry (n, j) of a [2048, 256] × [256, 1024] product into the zero accumulator is
    ∑ c, a (n, c) · w (c, j). -/
theorem dense_apply {φ₁ φ₂ : FTy} (a : FVec Ideal S2048x256 φ₁) (w : FVec Ideal S256x1024 φ₂) (n : Fin 2048) (j : Fin 1024) :
    matmul dot_S2048x256_S256x1024_S2048x1024_1_0_0_1_n_n none a w (constant (F := Ideal) S2048x1024 .f32 0x00000000#32) (ix2 n j)
      = ∑ c : Fin 256, a (ix2 n c) * w (ix2 c j) := by
  simp only [matmul]
  rw [Ideal.matmul_constant_zero_apply,
    ← Equiv.sum_comp (contrEquiv1 dot_S2048x256_S256x1024_S2048x1024_1_0_0_1_n_n 256 rfl rfl).symm]
  refine Finset.sum_congr rfl fun k _ => ?_
  have hk := contrEquiv1_symm_val dot_S2048x256_S256x1024_S2048x1024_1_0_0_1_n_n 256 rfl rfl k
  have el : dot_S2048x256_S256x1024_S2048x1024_1_0_0_1_n_n.lhsIdx (ix2 n j)
      ((contrEquiv1 dot_S2048x256_S256x1024_S2048x1024_1_0_0_1_n_n 256 rfl rfl).symm k) = ix2 n k :=
    funext fun ax => Fin.ext (by
      match ax with
      | ⟨0, _⟩ => exact dense_lhs0 _ _
      | ⟨1, _⟩ => exact (dot_S2048x256_S256x1024_S2048x1024_1_0_0_1_n_n.lhsIdx_val_of_single rfl _ _).trans hk)
  have er : dot_S2048x256_S256x1024_S2048x1024_1_0_0_1_n_n.rhsIdx (ix2 n j)
      ((contrEquiv1 dot_S2048x256_S256x1024_S2048x1024_1_0_0_1_n_n 256 rfl rfl).symm k) = ix2 k j :=
    funext fun ax => Fin.ext (by
      match ax with
      | ⟨0, _⟩ => exact (dot_S2048x256_S256x1024_S2048x1024_1_0_0_1_n_n.rhsIdx_val_of_single rfl _ _).trans hk
      | ⟨1, _⟩ => exact dense_rhs1 _ _)
  rw [el, er]

/-- Columns against columns: entry (d, e) of the product of two [2048, 64] operands contracted along their rows,
    into the zero accumulator, is ∑ n, a (n, d) · b (n, e). -/
theorem gram_apply {φ₁ φ₂ : FTy} (a : FVec Ideal S2048x64 φ₁) (b : FVec Ideal S2048x64 φ₂) (d e : Fin 64) :
    matmul dot_S2048x64_S2048x64_S64x64_0_0_1_1_n_n none a b (constant (F := Ideal) S64x64 .f32 0x00000000#32) (ix2 d e)
      = ∑ n : Fin 2048, a (ix2 n d) * b (ix2 n e) := by
  simp only [matmul]
  rw [Ideal.matmul_constant_zero_apply,
    ← Equiv.sum_comp (contrEquiv1 dot_S2048x64_S2048x64_S64x64_0_0_1_1_n_n 2048 rfl rfl).symm]
  refine Finset.sum_congr rfl fun k _ => ?_
  have hk := contrEquiv1_symm_val dot_S2048x64_S2048x64_S64x64_0_0_1_1_n_n 2048 rfl rfl k
  have el : dot_S2048x64_S2048x64_S64x64_0_0_1_1_n_n.lhsIdx (ix2 d e)
      ((contrEquiv1 dot_S2048x64_S2048x64_S64x64_0_0_1_1_n_n 2048 rfl rfl).symm k) = ix2 k d :=
    funext fun ax => Fin.ext (by
      match ax with
      | ⟨0, _⟩ => exact (dot_S2048x64_S2048x64_S64x64_0_0_1_1_n_n.lhsIdx_val_of_single rfl _ _).trans hk
      | ⟨1, _⟩ => exact gram_lhs1 _ _)
  have er : dot_S2048x64_S2048x64_S64x64_0_0_1_1_n_n.rhsIdx (ix2 d e)
      ((contrEquiv1 dot_S2048x64_S2048x64_S64x64_0_0_1_1_n_n 2048 rfl rfl).symm k) = ix2 k e :=
    funext fun ax => Fin.ext (by
      match ax with
      | ⟨0, _⟩ => exact (dot_S2048x64_S2048x64_S64x64_0_0_1_1_n_n.rhsIdx_val_of_single rfl _ _).trans hk
      | ⟨1, _⟩ => exact gram_rhs1 _ _)
  rw [el, er]

/-! ## The key/value projection of the tile -/

/-- Entry (n, j) of the tile's [2048, 1024] projection: token row n, normalised, against column j, plus the bias. -/
def proj (x0 : Vec Ideal S1x2048x256 .f32) (x1 : Vec Ideal S1x256 .f32) (x2 : Vec Ideal S256x1024 .bf16)
    (x3 : Vec Ideal S1x1024 .f32) (n : Fin 2048) (j : Fin 1024) : EReal :=
  Cert.Spec.projRow (fun c => x0 (ix3 (0 : Fin 1) n c)) (fun c => x1 (ix2 (0 : Fin 1) c)) (fun c j => x2 (ix2 c j))
    (fun j => x3 (ix2 (0 : Fin 1) j)) j

/-- The projection payload at an entry. -/
theorem pay3_apply (x0 : Vec Ideal S1x2048x256 .f32) (x1 : Vec Ideal S1x256 .f32) (x2 : Vec Ideal S256x1024 .bf16)
    (x3 : Vec Ideal S1x1024 .f32) (n : Fin 2048) (j : Fin 1024) :
    k0_pay3 (F := Ideal) x0 x1 x2 x3 (ix2 n j) = proj x0 x1 x2 x3 n j := by
  unfold k0_pay3
  show matmul dot_S2048x256_S256x1024_S2048x1024_1_0_0_1_n_n none _ _ _ (ix2 n j) + broadcastTo S2048x1024 _ _ (ix2 n j) = _
  rw [dense_apply, broadcastTo_1b_ab_apply]
  simp only [shapeCast_self]
  unfold proj Cert.Spec.projRow Cert.Spec.normRow
  refine congrArg₂ (· + ·) (Finset.sum_congr rfl fun c _ => ?_) rfl
  show (shapeCast S2048x256 x0 _ (ix2 n c) * broadcastTo S2048x256 _ _ (ix2 n c)) * _ * x2 (ix2 c j) = _
  rw [shapeCast_1ab_ab_apply, broadcastTo_1b_ab_apply]
  rfl

/-- The key half: column k of it is column k of the projection. -/
theorem pay4_apply (x0 : Vec Ideal S1x2048x256 .f32) (x1 : Vec Ideal S1x256 .f32) (x2 : Vec Ideal S256x1024 .bf16) (x3 : Vec Ideal S1x1024 .f32) (n : Fin 2048) (k : Fin 512) (j : Fin 1024) (hj : j.val = k.val) :
    k0_pay4 (F := Ideal) x0 x1 x2 x3 (ix2 n k) = proj x0 x1 x2 x3 n j := by
  unfold k0_pay4
  exact (slice2_axis1_apply 0 _ _ n k j (by rw [hj, Nat.zero_add])).trans (pay3_apply x0 x1 x2 x3 n j)

/-- The value half: column k of it is column 512 + k of the projection. -/
theorem pay5_apply (x0 : Vec Ideal S1x2048x256 .f32) (x1 : Vec Ideal S1x256 .f32) (x2 : Vec Ideal S256x1024 .bf16) (x3 : Vec Ideal S1x1024 .f32) (n : Fin 2048) (k : Fin 512) (j : Fin 1024) (hj : j.val = 512 + k.val) :
    k0_pay5 (F := Ideal) x0 x1 x2 x3 (ix2 n k) = proj x0 x1 x2 x3 n j := by
  unfold k0_pay5
  exact (slice2_axis1_apply 512 _ _ n k j hj).trans (pay3_apply x0 x1 x2 x3 n j)

/-! ## One head's step -/

/-- What the tile adds to context entry (r, e), over the tile's four blocks. -/
abbrev kv (x0 : Vec Ideal S1x2048x256 .f32) (x1 : Vec Ideal S1x256 .f32) (x2 : Vec Ideal S256x1024 .bf16) (x3 : Vec Ideal S1x1024 .f32) (r : Fin 512) (e : Fin 64) : EReal :=
  Cert.Spec.kvPart (fun (n : Fin 2048) c => x0 (ix3 (0 : Fin 1) n c)) (fun c => x1 (ix2 (0 : Fin 1) c))
    (fun c j => x2 (ix2 c j)) (fun j => x3 (ix2 (0 : Fin 1) j)) r e

/-- A head's step at entry (d, e): the old entry plus, over the tokens, column o + d of the key half times column
    o + e of the value half (o the head's column offset; a change of float format is the identity). -/
theorem head_apply (o : ℕ) (v21 v22 : FVec Ideal S2048x512 .f32) (hs : S2048x512.Slices ![0, o] S2048x64)
    (hb : (FTy.bf16).bits < (FTy.f32).bits) (h1 : S1x64x64.ShapeCasts S64x64) (h2 : S64x64.ShapeCasts S1x64x64)
    (old : Vec Ideal S1x64x64 .f32) (d e : Fin 64) (k1 k2 : Fin 512) (hk1 : k1.val = o + d.val) (hk2 : k2.val = o + e.val) :
    shapeCast S1x64x64 (addf (shapeCast S64x64 old h1)
        (matmul dot_S2048x64_S2048x64_S64x64_0_0_1_1_n_n none
          (truncf .bf16 (extractStridedSlice S2048x64 ![0, o] v21 hs) hb)
          (truncf .bf16 (extractStridedSlice S2048x64 ![0, o] v22 hs) hb)
          (constant (F := Ideal) S64x64 .f32 0x00000000#32))) h2 (ix3 (0 : Fin 1) d e)
      = old (ix3 (0 : Fin 1) d e) + ∑ n : Fin 2048, v21 (ix2 n k1) * v22 (ix2 n k2) := by
  refine (shapeCast_ab_1ab_apply _ h2 0 d e).trans ?_
  show shapeCast S64x64 old h1 (ix2 d e) + matmul (F := Ideal) dot_S2048x64_S2048x64_S64x64_0_0_1_1_n_n none _ _ _ (ix2 d e) = _
  rw [shapeCast_1ab_ab_apply, gram_apply]
  refine congrArg (old (ix3 (0 : Fin 1) d e) + ·) (Finset.sum_congr rfl fun n _ => ?_)
  show extractStridedSlice S2048x64 ![0, o] v21 hs (ix2 n d) * extractStridedSlice S2048x64 ![0, o] v22 hs (ix2 n e) = _
  rw [slice2_axis1_apply o v21 hs n d k1 hk1, slice2_axis1_apply o v22 hs n e k2 hk2]

/-- Key column r against value column 64·(r / 64) + e of the two halves, summed over the tile's tokens, is the
    tile's part of context entry (r, e). -/
theorem kv_sum (x0 : Vec Ideal S1x2048x256 .f32) (x1 : Vec Ideal S1x256 .f32) (x2 : Vec Ideal S256x1024 .bf16) (x3 : Vec Ideal S1x1024 .f32) (r : Fin 512) (e : Fin 64) (k1 k2 : Fin 512) (hk1 : k1.val = r.val)
    (hk2 : k2.val = (r.val / 64) * 64 + e.val) :
    ∑ n : Fin 2048, k0_pay4 (F := Ideal) x0 x1 x2 x3 (ix2 n k1) * k0_pay5 (F := Ideal) x0 x1 x2 x3 (ix2 n k2)
      = kv x0 x1 x2 x3 r e := by
  unfold kv Cert.Spec.kvPart
  refine Finset.sum_congr rfl fun n _ => ?_
  rw [pay4_apply x0 x1 x2 x3 n k1 (Cert.Spec.kcol r) hk1.symm,
    pay5_apply x0 x1 x2 x3 n k2 (Cert.Spec.vcol r e) (by
      show 512 + r.val / 64 * 64 + e.val = 512 + k2.val
      omega)]
  rfl

/-- The step of the head whose columns start at o, over the two halves of the projection, at the entry of row
    r = o + d: the old entry plus the tile's part of context entry (r, e). -/
theorem head_kv (o : ℕ) (x0 : Vec Ideal S1x2048x256 .f32) (x1 : Vec Ideal S1x256 .f32) (x2 : Vec Ideal S256x1024 .bf16) (x3 : Vec Ideal S1x1024 .f32) (hs : S2048x512.Slices ![0, o] S2048x64)
    (hb : (FTy.bf16).bits < (FTy.f32).bits) (h1 : S1x64x64.ShapeCasts S64x64) (h2 : S64x64.ShapeCasts S1x64x64)
    (old : Vec Ideal S1x64x64 .f32) (r : Fin 512) (d e : Fin 64) (ho : o % 64 = 0) (hr : o ≤ r.val) (hd : d.val = r.val - o) :
    shapeCast S1x64x64 (addf (shapeCast S64x64 old h1)
        (matmul dot_S2048x64_S2048x64_S64x64_0_0_1_1_n_n none
          (truncf .bf16 (extractStridedSlice S2048x64 ![0, o] (k0_pay4 (F := Ideal) x0 x1 x2 x3) hs) hb)
          (truncf .bf16 (extractStridedSlice S2048x64 ![0, o] (k0_pay5 (F := Ideal) x0 x1 x2 x3) hs) hb)
          (constant (F := Ideal) S64x64 .f32 0x00000000#32))) h2 (ix3 (0 : Fin 1) d e)
      = old (ix3 (0 : Fin 1) d e) + kv x0 x1 x2 x3 r e := by
  have hr' := r.isLt
  have hd' := d.isLt
  have he := e.isLt
  refine (head_apply o _ _ hs hb h1 h2 old d e r ⟨o + e.val, by omega⟩ (by omega) rfl).trans ?_
  refine congrArg (old (ix3 (0 : Fin 1) d e) + ·) (kv_sum x0 x1 x2 x3 r e r ⟨o + e.val, by omega⟩ rfl ?_)
  show o + e.val = r.val / 64 * 64 + e.val
  omega

/-! ## The eight heads' payloads, each over the two halves of the projection -/

theorem pay6_kv (x0 : Vec Ideal S1x2048x256 .f32) (x1 : Vec Ideal S1x256 .f32) (x2 : Vec Ideal S256x1024 .bf16) (x3 : Vec Ideal S1x1024 .f32) (old : Vec Ideal S1x64x64 .f32) (r : Fin 512) (d e : Fin 64) (hr : 0 ≤ r.val) (hd : d.val = r.val - 0) :
    k0_pay6 (F := Ideal) x0 x1 x2 x3 old (ix3 (0 : Fin 1) d e) = old (ix3 (0 : Fin 1) d e) + kv x0 x1 x2 x3 r e := by
  unfold k0_pay6
  exact head_kv 0 x0 x1 x2 x3 _ _ _ _ old r d e rfl hr hd

theorem pay8_kv (x0 : Vec Ideal S1x2048x256 .f32) (x1 : Vec Ideal S1x256 .f32) (x2 : Vec Ideal S256x1024 .bf16) (x3 : Vec Ideal S1x1024 .f32) (old : Vec Ideal S1x64x64 .f32) (r : Fin 512) (d e : Fin 64) (hr : 64 ≤ r.val) (hd : d.val = r.val - 64) :
    k0_pay8 (F := Ideal) (k0_pay5 x0 x1 x2 x3) (k0_pay7 x0 x1 x2 x3) old (ix3 (0 : Fin 1) d e)
      = old (ix3 (0 : Fin 1) d e) + kv x0 x1 x2 x3 r e := by
  unfold k0_pay8 k0_pay7
  exact head_kv 64 x0 x1 x2 x3 _ _ _ _ old r d e rfl hr hd

theorem pay9_kv (x0 : Vec Ideal S1x2048x256 .f32) (x1 : Vec Ideal S1x256 .f32) (x2 : Vec Ideal S256x1024 .bf16) (x3 : Vec Ideal S1x1024 .f32) (old : Vec Ideal S1x64x64 .f32) (r : Fin 512) (d e : Fin 64) (hr : 128 ≤ r.val) (hd : d.val = r.val - 128) :
    k0_pay9 (F := Ideal) (k0_pay4 x0 x1 x2 x3) (k0_pay5 x0 x1 x2 x3) old (ix3 (0 : Fin 1) d e)
      = old (ix3 (0 : Fin 1) d e) + kv x0 x1 x2 x3 r e := by
  unfold k0_pay9
  exact head_kv 128 x0 x1 x2 x3 _ _ _ _ old r d e rfl hr hd

theorem pay10_kv (x0 : Vec Ideal S1x2048x256 .f32) (x1 : Vec Ideal S1x256 .f32) (x2 : Vec Ideal S256x1024 .bf16) (x3 : Vec Ideal S1x1024 .f32) (old : Vec Ideal S1x64x64 .f32) (r : Fin 512) (d e : Fin 64) (hr : 192 ≤ r.val) (hd : d.val = r.val - 192) :
    k0_pay10 (F := Ideal) (k0_pay4 x0 x1 x2 x3) (k0_pay5 x0 x1 x2 x3) old (ix3 (0 : Fin 1) d e)
      = old (ix3 (0 : Fin 1) d e) + kv x0 x1 x2 x3 r e := by
  unfold k0_pay10
  exact head_kv 192 x0 x1 x2 x3 _ _ _ _ old r d e rfl hr hd

theorem pay13_kv (x0 : Vec Ideal S1x2048x256 .f32) (x1 : Vec Ideal S1x256 .f32) (x2 : Vec Ideal S256x1024 .bf16) (x3 : Vec Ideal S1x1024 .f32) (old : Vec Ideal S1x64x64 .f32) (r : Fin 512) (d e : Fin 64) (hr : 256 ≤ r.val) (hd : d.val = r.val - 256) :
    k0_pay13 (F := Ideal) (k0_pay11 (k0_pay4 x0 x1 x2 x3)) (k0_pay12 (k0_pay5 x0 x1 x2 x3)) old (ix3 (0 : Fin 1) d e)
      = old (ix3 (0 : Fin 1) d e) + kv x0 x1 x2 x3 r e := by
  unfold k0_pay13 k0_pay11 k0_pay12
  exact head_kv 256 x0 x1 x2 x3 _ _ _ _ old r d e rfl hr hd

theorem pay14_kv (x0 : Vec Ideal S1x2048x256 .f32) (x1 : Vec Ideal S1x256 .f32) (x2 : Vec Ideal S256x1024 .bf16) (x3 : Vec Ideal S1x1024 .f32) (old : Vec Ideal S1x64x64 .f32) (r : Fin 512) (d e : Fin 64) (hr : 320 ≤ r.val) (hd : d.val = r.val - 320) :
    k0_pay14 (F := Ideal) (k0_pay4 x0 x1 x2 x3) (k0_pay5 x0 x1 x2 x3) old (ix3 (0 : Fin 1) d e)
      = old (ix3 (0 : Fin 1) d e) + kv x0 x1 x2 x3 r e := by
  unfold k0_pay14
  exact head_kv 320 x0 x1 x2 x3 _ _ _ _ old r d e rfl hr hd

theorem pay15_kv (x0 : Vec Ideal S1x2048x256 .f32) (x1 : Vec Ideal S1x256 .f32) (x2 : Vec Ideal S256x1024 .bf16) (x3 : Vec Ideal S1x1024 .f32) (old : Vec Ideal S1x64x64 .f32) (r : Fin 512) (d e : Fin 64) (hr : 384 ≤ r.val) (hd : d.val = r.val - 384) :
    k0_pay15 (F := Ideal) (k0_pay4 x0 x1 x2 x3) (k0_pay5 x0 x1 x2 x3) old (ix3 (0 : Fin 1) d e)
      = old (ix3 (0 : Fin 1) d e) + kv x0 x1 x2 x3 r e := by
  unfold k0_pay15
  exact head_kv 384 x0 x1 x2 x3 _ _ _ _ old r d e rfl hr hd

theorem pay1_kv (x0 : Vec Ideal S1x2048x256 .f32) (x1 : Vec Ideal S1x256 .f32) (x2 : Vec Ideal S256x1024 .bf16) (x3 : Vec Ideal S1x1024 .f32) (old : Vec Ideal S1x64x64 .f32) (r : Fin 512) (d e : Fin 64) (hr : 448 ≤ r.val) (hd : d.val = r.val - 448) :
    k0_pay1 (F := Ideal) (k0_pay16 (k0_pay4 x0 x1 x2 x3) (k0_pay5 x0 x1 x2 x3)) old (ix3 (0 : Fin 1) d e)
      = old (ix3 (0 : Fin 1) d e) + kv x0 x1 x2 x3 r e := by
  unfold k0_pay1 k0_pay16
  exact head_kv 448 x0 x1 x2 x3 _ _ _ _ old r d e rfl hr hd

/-- The first tile's opening store: the memory context block, entry by entry. -/
theorem pay2_apply (x4 : Vec Ideal S512x64 .f32) (r : Fin 512) (e : Fin 64) :
    k0_pay2 (F := Ideal) x4 (ix3 (0 : Fin 1) r e) = x4 (ix2 r e) := by
  unfold k0_pay2
  refine (shapeCast_ab_1ab_apply _ _ 0 r e).trans ?_
  rw [shapeCast_self]

end Cert.KernelIdeal.Ctx0Pay

end
-- ==== Proof.LibCanonUnit.lean ====
/-
  What a list of stores leaves, read one store at a time, newest first.

  The contents a list of unmasked stores leaves in a buffer depend on the pieces alone: at each index the payload of
  the newest piece whose rectangle holds the index. For a unit-stride rectangle at offsets `off` with extents `size`
  an index `y` lies in the rectangle exactly when `off a ≤ y a < off a + size a` on every axis, and its position
  inside is `y - off`. So under the newest piece the contents are that piece's payload at `y - off`, and off it (on
  some axis the coordinate misses the span) they are what the older pieces left.
-/
import Idealize.ShloMosaic.Lib.Pipeline.FrameBody

noncomputable section

namespace Cert.LibCanonUnit

open Idealize.ShloMosaic

variable {s : Shape} {e : EltTy} {Val : EltTy → Type} [∀ e, Nonempty (Val e)]

/-- An index at position `x` of the newest piece's unit-stride rectangle holds that piece's payload at `x`. -/
theorem canon_cons_unit_of_mem {off size : Fin s.rank → ℕ} (inb : ∀ a, off a + size a ≤ s.size a)
    (w : (Rect.unit off size inb).shape.Idx → Val e) (L : List (View.Piece Val s e)) (y : s.Idx)
    (x : (Rect.unit off size inb).shape.Idx) (hx : ∀ a, (y a).val = off a + (x a).val) :
    View.canon ((⟨Rect.unit off size inb, w⟩ : View.Piece Val s e) :: L) y = w x := by
  have hy : (Rect.unit off size inb).emb x = y := funext fun a => Fin.ext (by
    show off a + 1 * (x a).val = (y a).val
    rw [hx a, Nat.one_mul])
  rw [← hy]
  exact View.canon_cons_emb (Rect.unit off size inb) w L x

/-- An index that misses the newest piece's unit-stride rectangle on axis `a` holds what the older pieces left. -/
theorem canon_cons_unit_of_not_mem {off size : Fin s.rank → ℕ} (inb : ∀ a, off a + size a ≤ s.size a)
    (w : (Rect.unit off size inb).shape.Idx → Val e) (L : List (View.Piece Val s e)) (y : s.Idx)
    (a : Fin s.rank) (ha : (y a).val < off a ∨ off a + size a ≤ (y a).val) :
    View.canon ((⟨Rect.unit off size inb, w⟩ : View.Piece Val s e) :: L) y = View.canon L y := by
  refine View.canon_cons_of_not_mem _ L ?_
  show y ∉ (Rect.unit off size inb).set
  rw [Rect.mem_set_unit]
  intro hall
  have := hall a
  omega

/-- Where a load through a unit-stride rectangle reads: position `x` inside the rectangle is index `off + x`. -/
theorem unit_idx_eq {off size : Fin s.rank → ℕ} (inb : ∀ a, off a + size a ≤ s.size a)
    (x : (Rect.unit off size inb).shape.Idx) (y : s.Idx) (hx : ∀ a, (y a).val = off a + (x a).val) :
    (Rect.unit off size inb).toLoadRect.idx x = y :=
  funext fun a => Fin.ext (by
    show off a + 1 * (x a).val = (y a).val
    rw [hx a, Nat.one_mul])

end Cert.LibCanonUnit

end
-- ==== Proof.Ctx0Body.lean ====
/-
  The context accumulation at one grid point, entry by entry.

  The output block [1, 512, 64] stacks the eight heads' 64 × 64 contexts along its middle axis: row r = 64·h + d
  is row d of head h. At a point the body runs eight read-add-store steps, one per head, each through the
  unit-stride rectangle of its head's rows: it reads the rectangle, adds the tile's key-against-value sums, and
  stores it back. The eight rectangles are disjoint, so the value at (0, r, e) after the point is what the step of
  head r / 64 stored there, and that step read what the block held before any head's step. On the second tile of a
  batch element that is the block's running contents; on the first tile the body first stores the memory context
  block through the whole block, under the eight steps, so it is the memory context at (r, e). In both cases the
  tile adds `Spec.kvPart` of its 2048 token rows at (r, e), the old value on the left of the sum.
-/
import proofs.«104020_j30150670417974_2_alg».proof.Proof.Gen.KernelIdeal.Frame
import proofs.«104020_j30150670417974_2_alg».proof.Proof.Spec
import proofs.«104020_j30150670417974_2_alg».proof.Proof.Ctx0Pay
import proofs.«104020_j30150670417974_2_alg».proof.Proof.LibCanonUnit
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Ctx0Body

open Cert.KernelIdeal Cert.KernelIdeal.Gen Cert.KernelIdeal.Ctx0Pay
open Idealize.ShloMosaic Idealize.ShloMosaic.TcCoe Idealize.ShloMosaic.Tactic Idealize.ShloMosaic.ValueIdx
open Idealize.SL Idealize.SL.Sem

/-! ## Stores through row bands of the block, read at an entry

A band is the unit-stride rectangle of rows o ≤ r < o + s, all 64 columns. -/

section Bands

variable {Val : EltTy → Type} [∀ e, Nonempty (Val e)] {φ : EltTy}

/-- An entry whose row lies outside the newest store's band holds what the older stores left. -/
theorem canon_skip {o s : ℕ} (inb : ∀ a, (![0, o, 0] : Fin 3 → ℕ) a + (![1, s, 64] : Fin 3 → ℕ) a ≤ S1x512x64.size a)
    (w : (Rect.unit (s := S1x512x64) ![0, o, 0] ![1, s, 64] inb).shape.Idx → Val φ) (L : List (View.Piece Val S1x512x64 φ))
    (r : Fin 512) (c : Fin 64) (h : r.val < o ∨ o + s ≤ r.val) :
    View.canon ((⟨Rect.unit ![0, o, 0] ![1, s, 64] inb, w⟩ : View.Piece Val S1x512x64 φ) :: L) (ix3 (0 : Fin 1) r c)
      = View.canon L (ix3 (0 : Fin 1) r c) :=
  Cert.LibCanonUnit.canon_cons_unit_of_not_mem inb w L (ix3 (0 : Fin 1) r c) 1 h

/-- An entry whose row lies inside the newest store's band holds that store's payload at row r − o. -/
theorem canon_hit {o s : ℕ} (inb : ∀ a, (![0, o, 0] : Fin 3 → ℕ) a + (![1, s, 64] : Fin 3 → ℕ) a ≤ S1x512x64.size a)
    (w : (Rect.unit (s := S1x512x64) ![0, o, 0] ![1, s, 64] inb).shape.Idx → Val φ) (L : List (View.Piece Val S1x512x64 φ))
    (r : Fin 512) (c : Fin 64) (h : o ≤ r.val ∧ r.val < o + s) :
    View.canon ((⟨Rect.unit ![0, o, 0] ![1, s, 64] inb, w⟩ : View.Piece Val S1x512x64 φ) :: L) (ix3 (0 : Fin 1) r c)
      = w (ix3 (0 : Fin 1) ⟨r.val - o, by omega⟩ c) :=
  Cert.LibCanonUnit.canon_cons_unit_of_mem inb w L (ix3 (0 : Fin 1) r c) (ix3 (0 : Fin 1) ⟨r.val - o, by omega⟩ c) (fun a => by
    match a with
    | ⟨0, _⟩ => rfl
    | ⟨1, _⟩ => show r.val = o + (r.val - o); omega
    | ⟨2, _⟩ => exact (Nat.zero_add _).symm)

/-- Row d of a band starting at row o is row o + d of the block. -/
theorem band_idx {o s : ℕ} (inb : ∀ a, (![0, o, 0] : Fin 3 → ℕ) a + (![1, s, 64] : Fin 3 → ℕ) a ≤ S1x512x64.size a)
    (r : Fin 512) (d : Fin s) (c : Fin 64) (ho : o ≤ r.val) (hd : d.val = r.val - o) :
    (Rect.unit (s := S1x512x64) ![0, o, 0] ![1, s, 64] inb).toLoadRect.idx (ix3 (0 : Fin 1) d c) = ix3 (0 : Fin 1) r c :=
  Cert.LibCanonUnit.unit_idx_eq inb (ix3 (0 : Fin 1) d c) (ix3 (0 : Fin 1) r c) (fun a => by
    match a with
    | ⟨0, _⟩ => rfl
    | ⟨1, _⟩ => show r.val = o + d.val; omega
    | ⟨2, _⟩ => exact (Nat.zero_add _).symm)

/-- A load of a band after the stores L reads, at its row d, what they left at row o + d. -/
theorem readCov_band {sig : RefSig} {κ : Kind} {sp : Space} (v : View sig κ sp S1x512x64 φ) (L : List (View.Piece Val S1x512x64 φ))
    {o s : ℕ} (inb : ∀ a, (![0, o, 0] : Fin 3 → ℕ) a + (![1, s, 64] : Fin 3 → ℕ) a ≤ S1x512x64.size a)
    (r : Fin 512) (d : Fin s) (c : Fin 64) (ho : o ≤ r.val) (hd : d.val = r.val - o) :
    v.readCov L (Rect.unit (s := S1x512x64) ![0, o, 0] ![1, s, 64] inb).toLoadRect (ix3 (0 : Fin 1) d c)
      = View.canon L (ix3 (0 : Fin 1) r c) := by
  rw [View.readCov_eq_canon']
  exact congrArg (View.canon L) (band_idx inb r d c ho hd)

end Bands

/-- A load of a band of the block holding X reads, at its row d, X at row o + d. -/
theorem readAt_band (m : Memref sig .tc .vmem S1x512x64 .f32) (hm : m.IsWhole) (X : Vec Ideal S1x512x64 .f32)
    {o s : ℕ} (inb : ∀ a, (![0, o, 0] : Fin 3 → ℕ) a + (![1, s, 64] : Fin 3 → ℕ) a ≤ S1x512x64.size a)
    (r : Fin 512) (d : Fin s) (c : Fin 64) (ho : o ≤ r.val) (hd : d.val = r.val - o) :
    View.readAt (Elt Ideal) m.view (Rect.unit (s := S1x512x64) ![0, o, 0] ![1, s, 64] inb).toLoadRect (hm.unread X) (ix3 (0 : Fin 1) d c)
      = X (ix3 (0 : Fin 1) r c) := by
  rw [View.readAt_eq_ld, hm.read_unread]
  exact congrArg X (band_idx inb r d c ho hd)

/-- A load of a whole buffer holding X reads X. -/
theorem readAt_whole {S : Shape} {φ : EltTy} (m : Memref sig .tc .vmem S φ) (hm : m.IsWhole) (X : Vec Ideal S φ)
    {off : Fin S.rank → ℕ} (hz : off = fun _ => 0) (inb : ∀ a, off a + S.size a ≤ S.size a) :
    View.readAt (Elt Ideal) m.view (Rect.unit off S.size inb).toLoadRect (hm.unread X) = X := by
  rw [View.readAt_eq_ld, hm.read_unread]
  exact View.ld_unit_zero hz inb X

theorem hz2 : (![0, 0] : Fin 2 → ℕ) = fun _ => 0 := funext fun a => by fin_cases a <;> rfl
theorem hz3 : (![0, 0, 0] : Fin 3 → ℕ) = fun _ => 0 := funext fun a => by fin_cases a <;> rfl

/-! ## The second tile of a batch element: the running contents plus the tile's part -/

theorem out0_B_5_apply (c : Dev nD) (i : grid0.Coords) (arg2 : Memref sig .tc .vmem S1x2048x256 .f32) (harg2 : arg2.IsWhole) (arg3 : Memref sig .tc .vmem S1x256 .f32) (harg3 : arg3.IsWhole) (arg4 : Memref sig .tc .vmem S256x1024 .bf16) (harg4 : arg4.IsWhole) (arg5 : Memref sig .tc .vmem S1x1024 .f32) (harg5 : arg5.IsWhole) (arg6 : Memref sig .tc .vmem S512x64 .f32) (harg6 : arg6.IsWhole) (arg7 : Memref sig .tc .vmem S1x512x64 .f32) (harg7 : arg7.IsWhole) (hc0 : ¬cond0_0 i)
    (x0 : Vec Ideal S1x2048x256 .f32) (x1 : Vec Ideal S1x256 .f32) (x2 : Vec Ideal S256x1024 .bf16) (x3 : Vec Ideal S1x1024 .f32) (x4 : Vec Ideal S512x64 .f32) (xo5 : Vec Ideal S1x512x64 .f32) (r : Fin 512) (e : Fin 64) :
    out0_B_5 (F := Ideal) c i arg2 harg2 arg3 harg3 arg4 harg4 arg5 harg5 arg6 harg6 arg7 harg7 hc0 x0 x1 x2 x3 x4 xo5 (ValueIdx.ix3 (0 : Fin 1) r e)
      = xo5 (ValueIdx.ix3 (0 : Fin 1) r e) + Cert.Spec.kvPart (fun (n : Fin 2048) c => x0 (ValueIdx.ix3 (0 : Fin 1) n c)) (fun c => x1 (ValueIdx.ix2 (0 : Fin 1) c)) (fun c j => x2 (ValueIdx.ix2 c j)) (fun j => x3 (ValueIdx.ix2 (0 : Fin 1) j)) r e := by
  have e0 := readAt_whole arg2 harg2 x0 hz3 inb_S1x2048x256_S1x2048x256_0_0_0
  have e1 := readAt_whole arg3 harg3 x1 hz2 inb_S1x256_S1x256_0_0
  have e2 := readAt_whole arg4 harg4 x2 hz2 inb_S256x1024_S256x1024_0_0
  have e3 := readAt_whole arg5 harg5 x3 hz2 inb_S1x1024_S1x1024_0_0
  have hr := r.isLt
  unfold out0_B_5
  rw [View.read_writes_eq_canon _ _ _ (cover0_B_5 c i arg2 harg2 arg3 harg3 arg4 harg4 arg5 harg5 arg6 harg6 arg7 harg7 hc0 x0 x1 x2 x3 x4 xo5)]
  unfold kernelRun0_B
  dsimp only
  sl_unfold_words
  have hcases : r.val < 64 ∨ (64 ≤ r.val ∧ r.val < 128) ∨ (128 ≤ r.val ∧ r.val < 192) ∨ (192 ≤ r.val ∧ r.val < 256)
      ∨ (256 ≤ r.val ∧ r.val < 320) ∨ (320 ≤ r.val ∧ r.val < 384) ∨ (384 ≤ r.val ∧ r.val < 448) ∨ 448 ≤ r.val := by omega
  rcases hcases with h | h | h | h | h | h | h | h
  · -- head 0: rows 0 ≤ r < 64
    refine (canon_skip _ _ _ r e (by omega)).trans ?_
    refine (canon_skip _ _ _ r e (by omega)).trans ?_
    refine (canon_skip _ _ _ r e (by omega)).trans ?_
    refine (canon_skip _ _ _ r e (by omega)).trans ?_
    refine (canon_skip _ _ _ r e (by omega)).trans ?_
    refine (canon_skip _ _ _ r e (by omega)).trans ?_
    refine (canon_skip _ _ _ r e (by omega)).trans ?_
    refine (canon_hit _ _ _ r e (by omega)).trans ?_
    refine (pay6_kv _ _ _ _ _ r _ e (by omega) rfl).trans ?_
    refine congrArg₂ (· + ·) (readAt_band arg7 harg7 xo5 _ r _ e (by omega) rfl) ?_
    show kv _ _ _ _ r e = kv x0 x1 x2 x3 r e
    rw [e0, e1, e2, e3]
  · -- head 1: rows 64 ≤ r < 128
    refine (canon_skip _ _ _ r e (by omega)).trans ?_
    refine (canon_skip _ _ _ r e (by omega)).trans ?_
    refine (canon_skip _ _ _ r e (by omega)).trans ?_
    refine (canon_skip _ _ _ r e (by omega)).trans ?_
    refine (canon_skip _ _ _ r e (by omega)).trans ?_
    refine (canon_skip _ _ _ r e (by omega)).trans ?_
    refine (canon_hit _ _ _ r e (by omega)).trans ?_
    refine (pay8_kv _ _ _ _ _ r _ e (by omega) rfl).trans ?_
    refine congrArg₂ (· + ·) (readAt_band arg7 harg7 xo5 _ r _ e (by omega) rfl) ?_
    show kv _ _ _ _ r e = kv x0 x1 x2 x3 r e
    rw [e0, e1, e2, e3]
  · -- head 2: rows 128 ≤ r < 192
    refine (canon_skip _ _ _ r e (by omega)).trans ?_
    refine (canon_skip _ _ _ r e (by omega)).trans ?_
    refine (canon_skip _ _ _ r e (by omega)).trans ?_
    refine (canon_skip _ _ _ r e (by omega)).trans ?_
    refine (canon_skip _ _ _ r e (by omega)).trans ?_
    refine (canon_hit _ _ _ r e (by omega)).trans ?_
    refine (pay9_kv _ _ _ _ _ r _ e (by omega) rfl).trans ?_
    refine congrArg₂ (· + ·) (readAt_band arg7 harg7 xo5 _ r _ e (by omega) rfl) ?_
    show kv _ _ _ _ r e = kv x0 x1 x2 x3 r e
    rw [e0, e1, e2, e3]
  · -- head 3: rows 192 ≤ r < 256
    refine (canon_skip _ _ _ r e (by omega)).trans ?_
    refine (canon_skip _ _ _ r e (by omega)).trans ?_
    refine (canon_skip _ _ _ r e (by omega)).trans ?_
    refine (canon_skip _ _ _ r e (by omega)).trans ?_
    refine (canon_hit _ _ _ r e (by omega)).trans ?_
    refine (pay10_kv _ _ _ _ _ r _ e (by omega) rfl).trans ?_
    refine congrArg₂ (· + ·) (readAt_band arg7 harg7 xo5 _ r _ e (by omega) rfl) ?_
    show kv _ _ _ _ r e = kv x0 x1 x2 x3 r e
    rw [e0, e1, e2, e3]
  · -- head 4: rows 256 ≤ r < 320
    refine (canon_skip _ _ _ r e (by omega)).trans ?_
    refine (canon_skip _ _ _ r e (by omega)).trans ?_
    refine (canon_skip _ _ _ r e (by omega)).trans ?_
    refine (canon_hit _ _ _ r e (by omega)).trans ?_
    refine (pay13_kv _ _ _ _ _ r _ e (by omega) rfl).trans ?_
    refine congrArg₂ (· + ·) (readAt_band arg7 harg7 xo5 _ r _ e (by omega) rfl) ?_
    show kv _ _ _ _ r e = kv x0 x1 x2 x3 r e
    rw [e0, e1, e2, e3]
  · -- head 5: rows 320 ≤ r < 384
    refine (canon_skip _ _ _ r e (by omega)).trans ?_
    refine (canon_skip _ _ _ r e (by omega)).trans ?_
    refine (canon_hit _ _ _ r e (by omega)).trans ?_
    refine (pay14_kv _ _ _ _ _ r _ e (by omega) rfl).trans ?_
    refine congrArg₂ (· + ·) (readAt_band arg7 harg7 xo5 _ r _ e (by omega) rfl) ?_
    show kv _ _ _ _ r e = kv x0 x1 x2 x3 r e
    rw [e0, e1, e2, e3]
  · -- head 6: rows 384 ≤ r < 448
    refine (canon_skip _ _ _ r e (by omega)).trans ?_
    refine (canon_hit _ _ _ r e (by omega)).trans ?_
    refine (pay15_kv _ _ _ _ _ r _ e (by omega) rfl).trans ?_
    refine congrArg₂ (· + ·) (readAt_band arg7 harg7 xo5 _ r _ e (by omega) rfl) ?_
    show kv _ _ _ _ r e = kv x0 x1 x2 x3 r e
    rw [e0, e1, e2, e3]
  · -- head 7: rows 448 ≤ r < 512
    refine (canon_hit _ _ _ r e (by omega)).trans ?_
    refine (pay1_kv _ _ _ _ _ r _ e (by omega) rfl).trans ?_
    refine congrArg₂ (· + ·) (readAt_band arg7 harg7 xo5 _ r _ e (by omega) rfl) ?_
    show kv _ _ _ _ r e = kv x0 x1 x2 x3 r e
    rw [e0, e1, e2, e3]

/-! ## The first tile of a batch element: the memory context plus the tile's part -/

theorem out0_A_5_apply (c : Dev nD) (i : grid0.Coords) (arg2 : Memref sig .tc .vmem S1x2048x256 .f32) (harg2 : arg2.IsWhole) (arg3 : Memref sig .tc .vmem S1x256 .f32) (harg3 : arg3.IsWhole) (arg4 : Memref sig .tc .vmem S256x1024 .bf16) (harg4 : arg4.IsWhole) (arg5 : Memref sig .tc .vmem S1x1024 .f32) (harg5 : arg5.IsWhole) (arg6 : Memref sig .tc .vmem S512x64 .f32) (harg6 : arg6.IsWhole) (arg7 : Memref sig .tc .vmem S1x512x64 .f32) (harg7 : arg7.IsWhole) (hc0 : cond0_0 i)
    (x0 : Vec Ideal S1x2048x256 .f32) (x1 : Vec Ideal S1x256 .f32) (x2 : Vec Ideal S256x1024 .bf16) (x3 : Vec Ideal S1x1024 .f32) (x4 : Vec Ideal S512x64 .f32) (r : Fin 512) (e : Fin 64) :
    out0_A_5 (F := Ideal) c i arg2 harg2 arg3 harg3 arg4 harg4 arg5 harg5 arg6 harg6 arg7 harg7 hc0 x0 x1 x2 x3 x4 (ValueIdx.ix3 (0 : Fin 1) r e)
      = x4 (ValueIdx.ix2 r e) + Cert.Spec.kvPart (fun (n : Fin 2048) c => x0 (ValueIdx.ix3 (0 : Fin 1) n c)) (fun c => x1 (ValueIdx.ix2 (0 : Fin 1) c)) (fun c j => x2 (ValueIdx.ix2 c j)) (fun j => x3 (ValueIdx.ix2 (0 : Fin 1) j)) r e := by
  have e0 := readAt_whole arg2 harg2 x0 hz3 inb_S1x2048x256_S1x2048x256_0_0_0
  have e1 := readAt_whole arg3 harg3 x1 hz2 inb_S1x256_S1x256_0_0
  have e2 := readAt_whole arg4 harg4 x2 hz2 inb_S256x1024_S256x1024_0_0
  have e3 := readAt_whole arg5 harg5 x3 hz2 inb_S1x1024_S1x1024_0_0
  have e4 := readAt_whole arg6 harg6 x4 hz2 inb_S512x64_S512x64_0_0
  have hr := r.isLt
  unfold out0_A_5
  rw [View.read_writes_eq_canon _ _ _ (cover0_A_5 c i arg2 harg2 arg3 harg3 arg4 harg4 arg5 harg5 arg6 harg6 arg7 harg7 hc0 x0 x1 x2 x3 x4)]
  unfold kernelRun0_A
  dsimp only
  sl_unfold_words
  have hcases : r.val < 64 ∨ (64 ≤ r.val ∧ r.val < 128) ∨ (128 ≤ r.val ∧ r.val < 192) ∨ (192 ≤ r.val ∧ r.val < 256)
      ∨ (256 ≤ r.val ∧ r.val < 320) ∨ (320 ≤ r.val ∧ r.val < 384) ∨ (384 ≤ r.val ∧ r.val < 448) ∨ 448 ≤ r.val := by omega
  rcases hcases with h | h | h | h | h | h | h | h
  · -- head 0: rows 0 ≤ r < 64
    refine (canon_skip _ _ _ r e (by omega)).trans ?_
    refine (canon_skip _ _ _ r e (by omega)).trans ?_
    refine (canon_skip _ _ _ r e (by omega)).trans ?_
    refine (canon_skip _ _ _ r e (by omega)).trans ?_
    refine (canon_skip _ _ _ r e (by omega)).trans ?_
    refine (canon_skip _ _ _ r e (by omega)).trans ?_
    refine (canon_skip _ _ _ r e (by omega)).trans ?_
    refine (canon_hit _ _ _ r e (by omega)).trans ?_
    refine (pay6_kv _ _ _ _ _ r _ e (by omega) rfl).trans ?_
    refine congrArg₂ (· + ·) ?_ ?_
    · refine (readCov_band _ _ _ r _ e (by omega) rfl).trans ?_
      refine (canon_hit _ _ _ r e (by omega)).trans ?_
      refine (pay2_apply _ _ _).trans ?_
      rw [e4]
      rfl
    · show kv _ _ _ _ r e = kv x0 x1 x2 x3 r e
      rw [e0, e1, e2, e3]
  · -- head 1: rows 64 ≤ r < 128
    refine (canon_skip _ _ _ r e (by omega)).trans ?_
    refine (canon_skip _ _ _ r e (by omega)).trans ?_
    refine (canon_skip _ _ _ r e (by omega)).trans ?_
    refine (canon_skip _ _ _ r e (by omega)).trans ?_
    refine (canon_skip _ _ _ r e (by omega)).trans ?_
    refine (canon_skip _ _ _ r e (by omega)).trans ?_
    refine (canon_hit _ _ _ r e (by omega)).trans ?_
    refine (pay8_kv _ _ _ _ _ r _ e (by omega) rfl).trans ?_
    refine congrArg₂ (· + ·) ?_ ?_
    · refine (readCov_band _ _ _ r _ e (by omega) rfl).trans ?_
      refine (canon_skip _ _ _ r e (by omega)).trans ?_
      refine (canon_hit _ _ _ r e (by omega)).trans ?_
      refine (pay2_apply _ _ _).trans ?_
      rw [e4]
      rfl
    · show kv _ _ _ _ r e = kv x0 x1 x2 x3 r e
      rw [e0, e1, e2, e3]
  · -- head 2: rows 128 ≤ r < 192
    refine (canon_skip _ _ _ r e (by omega)).trans ?_
    refine (canon_skip _ _ _ r e (by omega)).trans ?_
    refine (canon_skip _ _ _ r e (by omega)).trans ?_
    refine (canon_skip _ _ _ r e (by omega)).trans ?_
    refine (canon_skip _ _ _ r e (by omega)).trans ?_
    refine (canon_hit _ _ _ r e (by omega)).trans ?_
    refine (pay9_kv _ _ _ _ _ r _ e (by omega) rfl).trans ?_
    refine congrArg₂ (· + ·) ?_ ?_
    · refine (readCov_band _ _ _ r _ e (by omega) rfl).trans ?_
      refine (canon_skip _ _ _ r e (by omega)).trans ?_
      refine (canon_skip _ _ _ r e (by omega)).trans ?_
      refine (canon_hit _ _ _ r e (by omega)).trans ?_
      refine (pay2_apply _ _ _).trans ?_
      rw [e4]
      rfl
    · show kv _ _ _ _ r e = kv x0 x1 x2 x3 r e
      rw [e0, e1, e2, e3]
  · -- head 3: rows 192 ≤ r < 256
    refine (canon_skip _ _ _ r e (by omega)).trans ?_
    refine (canon_skip _ _ _ r e (by omega)).trans ?_
    refine (canon_skip _ _ _ r e (by omega)).trans ?_
    refine (canon_skip _ _ _ r e (by omega)).trans ?_
    refine (canon_hit _ _ _ r e (by omega)).trans ?_
    refine (pay10_kv _ _ _ _ _ r _ e (by omega) rfl).trans ?_
    refine congrArg₂ (· + ·) ?_ ?_
    · refine (readCov_band _ _ _ r _ e (by omega) rfl).trans ?_
      refine (canon_skip _ _ _ r e (by omega)).trans ?_
      refine (canon_skip _ _ _ r e (by omega)).trans ?_
      refine (canon_skip _ _ _ r e (by omega)).trans ?_
      refine (canon_hit _ _ _ r e (by omega)).trans ?_
      refine (pay2_apply _ _ _).trans ?_
      rw [e4]
      rfl
    · show kv _ _ _ _ r e = kv x0 x1 x2 x3 r e
      rw [e0, e1, e2, e3]
  · -- head 4: rows 256 ≤ r < 320
    refine (canon_skip _ _ _ r e (by omega)).trans ?_
    refine (canon_skip _ _ _ r e (by omega)).trans ?_
    refine (canon_skip _ _ _ r e (by omega)).trans ?_
    refine (canon_hit _ _ _ r e (by omega)).trans ?_
    refine (pay13_kv _ _ _ _ _ r _ e (by omega) rfl).trans ?_
    refine congrArg₂ (· + ·) ?_ ?_
    · refine (readCov_band _ _ _ r _ e (by omega) rfl).trans ?_
      refine (canon_skip _ _ _ r e (by omega)).trans ?_
      refine (canon_skip _ _ _ r e (by omega)).trans ?_
      refine (canon_skip _ _ _ r e (by omega)).trans ?_
      refine (canon_skip _ _ _ r e (by omega)).trans ?_
      refine (canon_hit _ _ _ r e (by omega)).trans ?_
      refine (pay2_apply _ _ _).trans ?_
      rw [e4]
      rfl
    · show kv _ _ _ _ r e = kv x0 x1 x2 x3 r e
      rw [e0, e1, e2, e3]
  · -- head 5: rows 320 ≤ r < 384
    refine (canon_skip _ _ _ r e (by omega)).trans ?_
    refine (canon_skip _ _ _ r e (by omega)).trans ?_
    refine (canon_hit _ _ _ r e (by omega)).trans ?_
    refine (pay14_kv _ _ _ _ _ r _ e (by omega) rfl).trans ?_
    refine congrArg₂ (· + ·) ?_ ?_
    · refine (readCov_band _ _ _ r _ e (by omega) rfl).trans ?_
      refine (canon_skip _ _ _ r e (by omega)).trans ?_
      refine (canon_skip _ _ _ r e (by omega)).trans ?_
      refine (canon_skip _ _ _ r e (by omega)).trans ?_
      refine (canon_skip _ _ _ r e (by omega)).trans ?_
      refine (canon_skip _ _ _ r e (by omega)).trans ?_
      refine (canon_hit _ _ _ r e (by omega)).trans ?_
      refine (pay2_apply _ _ _).trans ?_
      rw [e4]
      rfl
    · show kv _ _ _ _ r e = kv x0 x1 x2 x3 r e
      rw [e0, e1, e2, e3]
  · -- head 6: rows 384 ≤ r < 448
    refine (canon_skip _ _ _ r e (by omega)).trans ?_
    refine (canon_hit _ _ _ r e (by omega)).trans ?_
    refine (pay15_kv _ _ _ _ _ r _ e (by omega) rfl).trans ?_
    refine congrArg₂ (· + ·) ?_ ?_
    · refine (readCov_band _ _ _ r _ e (by omega) rfl).trans ?_
      refine (canon_skip _ _ _ r e (by omega)).trans ?_
      refine (canon_skip _ _ _ r e (by omega)).trans ?_
      refine (canon_skip _ _ _ r e (by omega)).trans ?_
      refine (canon_skip _ _ _ r e (by omega)).trans ?_
      refine (canon_skip _ _ _ r e (by omega)).trans ?_
      refine (canon_skip _ _ _ r e (by omega)).trans ?_
      refine (canon_hit _ _ _ r e (by omega)).trans ?_
      refine (pay2_apply _ _ _).trans ?_
      rw [e4]
      rfl
    · show kv _ _ _ _ r e = kv x0 x1 x2 x3 r e
      rw [e0, e1, e2, e3]
  · -- head 7: rows 448 ≤ r < 512
    refine (canon_hit _ _ _ r e (by omega)).trans ?_
    refine (pay1_kv _ _ _ _ _ r _ e (by omega) rfl).trans ?_
    refine congrArg₂ (· + ·) ?_ ?_
    · refine (readCov_band _ _ _ r _ e (by omega) rfl).trans ?_
      refine (canon_skip _ _ _ r e (by omega)).trans ?_
      refine (canon_skip _ _ _ r e (by omega)).trans ?_
      refine (canon_skip _ _ _ r e (by omega)).trans ?_
      refine (canon_skip _ _ _ r e (by omega)).trans ?_
      refine (canon_skip _ _ _ r e (by omega)).trans ?_
      refine (canon_skip _ _ _ r e (by omega)).trans ?_
      refine (canon_skip _ _ _ r e (by omega)).trans ?_
      refine (canon_hit _ _ _ r e (by omega)).trans ?_
      refine (pay2_apply _ _ _).trans ?_
      rw [e4]
      rfl
    · show kv _ _ _ _ r e = kv x0 x1 x2 x3 r e
      rw [e0, e1, e2, e3]

end Cert.KernelIdeal.Ctx0Body

end
-- ==== Proof.Ctx0Array.lean ====
/-
  The context array after the first kernel's run, as one function of the arrays the call finds.

  The grid is (batch element, token tile), the tile axis last: point t = 2·b + k works on tokens 2048·k … 2048·k + 2047
  of batch element b, and the [512, 64] context block of batch element b stays in its staging buffer over the two
  tiles and is written back after the second.  At the first tile the body seeds the block with the memory term and
  adds the tile's sum of key · value products; at the second it adds that tile's sum to what the first left.  So
  what the flushing point 2·b + 1 writes back is, entry by entry, (memory + tile 0) + tile 1 of batch element b: the
  restriction of ONE whole-array function `G0`, and the 8 flushed blocks tile the [8, 512, 64] array.
-/
import proofs.«104020_j30150670417974_2_alg».proof.Proof.Gen.KernelIdeal.Frame
import proofs.«104020_j30150670417974_2_alg».proof.Proof.Spec
import proofs.«104020_j30150670417974_2_alg».proof.Proof.Ctx0Body
import Idealize.ShloMosaic.Lib.ValueIdx
import Idealize.ShloMosaic.Lib.Pipeline.Value

set_option maxRecDepth 16384

noncomputable section

namespace Cert.KernelIdeal.Ctx0Array

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem tlt (t : Fin cfg0.N) : t.val < 16 := lt_of_lt_of_eq t.isLt (show cfg0.N = 16 from N_0)
/-- The batch element and the token tile that grid point `t` works on: points run batch-major, two tiles of 2048
    tokens per batch element. -/
def bOf (t : Fin cfg0.N) : Fin 8 := ⟨t.val / 2, by have h := tlt t; omega⟩
def kOf (t : Fin cfg0.N) : Fin 2 := ⟨t.val % 2, Nat.mod_lt _ (by decide)⟩
def rowAt (k : Fin 2) (n : Fin 2048) : Fin 4096 := ⟨k.val * 2048 + n.val, by have := n.isLt; have := k.isLt; omega⟩

/-- The block index of every window at every grid point, decided over the 16 points. -/
theorem idx_facts : ∀ t : Fin cfg0.N,
    win0_0.index t (0 : Fin 3) = t.val / 2 ∧ win0_0.index t (1 : Fin 3) = t.val % 2 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = t.val / 2 ∧ win0_5.index t (1 : Fin 3) = 0 ∧ win0_5.index t (2 : Fin 3) = 0 :=
  (by decide +kernel : ∀ t : Fin grid0.N, _)

/-- What token tile `k` of batch element `b` adds to context entry (r, e), from the arrays the call finds. -/
def tile (c : Dev nD) (b : Fin 8) (k : Fin 2) (r : Fin 512) (e : Fin 64) : EReal :=
  Cert.Spec.kvPart (fun (n : Fin 2048) ch => V c main_v0 (ix3 b (rowAt k n) ch)) (fun ch => V c main_v1 (ix2 (0 : Fin 1) ch))
    (fun ch j => V c main_v5 (ix2 ch j)) (fun j => V c main_v10 (ix2 (0 : Fin 1) j)) r e

/-- Entry (r, e) of the memory term, as the call finds it. -/
def memAt (c : Dev nD) (r : Fin 512) (e : Fin 64) : EReal := V c main_v17 (ix2 r e)

/-- One entry of the context array as the first kernel leaves it: the memory term, then the two tiles in turn. -/
def g0 (c : Dev nD) (b : Fin 8) (r : Fin 512) (e : Fin 64) : EReal :=
  (memAt V c r e + tile V c b 0 r e) + tile V c b 1 r e

def G0 (c : Dev nD) : S8x512x64.Idx → EReal := fun i => g0 V c (i 0) (i 1) (i 2)

section reads
variable (c : Dev nD) (t : Fin cfg0.N)

theorem rd0 (n : Fin 2048) (ch : Fin 256) :
    iblk0 V c 0 t (ix3 (0 : Fin 1) n ch) = V c main_v0 (ix3 (bOf t) (rowAt (kOf t) n) ch) := by
  obtain ⟨e0, e1, e2, -⟩ := idx_facts t
  unfold iblk0
  rw [View.read_apply]
  show V c main_v0 (((cfg0.win 0).blk t).view.emb (ix3 (0 : Fin 1) n ch)) = _
  refine congrArg _ ?_
  funext a; apply Fin.ext
  match a with
  | ⟨0, _⟩ => show win0_0.index t (0 : Fin 3) * 1 + 1 * 0 = t.val / 2; omega
  | ⟨1, _⟩ => show win0_0.index t (1 : Fin 3) * 2048 + 1 * n.val = (t.val % 2) * 2048 + n.val; rw [e1]; omega
  | ⟨2, _⟩ => show win0_0.index t (2 : Fin 3) * 256 + 1 * ch.val = ch.val; omega

theorem rd1 (ch : Fin 256) : iblk0 V c 1 t (ix2 (0 : Fin 1) ch) = V c main_v1 (ix2 (0 : Fin 1) ch) := by
  obtain ⟨-, -, -, e0, e1, -⟩ := idx_facts t
  unfold iblk0
  rw [View.read_apply]
  show V c main_v1 (((cfg0.win 1).blk t).view.emb (ix2 (0 : Fin 1) ch)) = _
  refine congrArg _ ?_
  funext a; apply Fin.ext
  match a with
  | ⟨0, _⟩ => show win0_1.index t (0 : Fin 2) * 1 + 1 * 0 = 0; omega
  | ⟨1, _⟩ => show win0_1.index t (1 : Fin 2) * 256 + 1 * ch.val = ch.val; omega

theorem rd2 (ch : Fin 256) (j : Fin 1024) : iblk0 V c 2 t (ix2 ch j) = V c main_v5 (ix2 ch j) := by
  obtain ⟨-, -, -, -, -, e0, e1, -⟩ := idx_facts t
  unfold iblk0
  rw [View.read_apply]
  show V c main_v5 (((cfg0.win 2).blk t).view.emb (ix2 ch j)) = _
  refine congrArg _ ?_
  funext a; apply Fin.ext
  match a with
  | ⟨0, _⟩ => show win0_2.index t (0 : Fin 2) * 256 + 1 * ch.val = ch.val; omega
  | ⟨1, _⟩ => show win0_2.index t (1 : Fin 2) * 1024 + 1 * j.val = j.val; omega

theorem rd3 (j : Fin 1024) : iblk0 V c 3 t (ix2 (0 : Fin 1) j) = V c main_v10 (ix2 (0 : Fin 1) j) := by
  obtain ⟨-, -, -, -, -, -, -, e0, e1, -⟩ := idx_facts t
  unfold iblk0
  rw [View.read_apply]
  show V c main_v10 (((cfg0.win 3).blk t).view.emb (ix2 (0 : Fin 1) j)) = _
  refine congrArg _ ?_
  funext a; apply Fin.ext
  match a with
  | ⟨0, _⟩ => show win0_3.index t (0 : Fin 2) * 1 + 1 * 0 = 0; omega
  | ⟨1, _⟩ => show win0_3.index t (1 : Fin 2) * 1024 + 1 * j.val = j.val; omega

theorem rd4 (r : Fin 512) (e : Fin 64) : iblk0 V c 4 t (ix2 r e) = V c main_v17 (ix2 r e) := by
  obtain ⟨-, -, -, -, -, -, -, -, -, e0, e1, -⟩ := idx_facts t
  unfold iblk0
  rw [View.read_apply]
  show V c main_v17 (((cfg0.win 4).blk t).view.emb (ix2 r e)) = _
  refine congrArg _ ?_
  funext a; apply Fin.ext
  match a with
  | ⟨0, _⟩ => show win0_4.index t (0 : Fin 2) * 512 + 1 * r.val = r.val; omega
  | ⟨1, _⟩ => show win0_4.index t (1 : Fin 2) * 64 + 1 * e.val = e.val; omega

/-- Where entry (0, r, e) of the context block of point `t` sits in the context array. -/
theorem emb5 (r : Fin 512) (e : Fin 64) :
    ((cfg0.win 5).blk t).view.emb (ix3 (0 : Fin 1) r e) = ix3 (bOf t) r e := by
  obtain ⟨-, -, -, -, -, -, -, -, -, -, -, e0, e1, e2⟩ := idx_facts t
  funext a; apply Fin.ext
  match a with
  | ⟨0, _⟩ => show win0_5.index t (0 : Fin 3) * 1 + 1 * 0 = t.val / 2; omega
  | ⟨1, _⟩ => show win0_5.index t (1 : Fin 3) * 512 + 1 * r.val = r.val; omega
  | ⟨2, _⟩ => show win0_5.index t (2 : Fin 3) * 64 + 1 * e.val = e.val; omega

/-- The four input blocks of point `t`, read as the rows and parameters its tile's sum is taken over. -/
theorem part_eq (r : Fin 512) (e : Fin 64) :
    Cert.Spec.kvPart (fun (n : Fin 2048) ch => iblk0 V c 0 t (ix3 (0 : Fin 1) n ch)) (fun ch => iblk0 V c 1 t (ix2 (0 : Fin 1) ch))
      (fun ch j => iblk0 V c 2 t (ix2 ch j)) (fun j => iblk0 V c 3 t (ix2 (0 : Fin 1) j)) r e
      = tile V c (bOf t) (kOf t) r e := by
  unfold tile
  have h0 : (fun (n : Fin 2048) ch => iblk0 V c 0 t (ix3 (0 : Fin 1) n ch)) = fun (n : Fin 2048) ch => V c main_v0 (ix3 (bOf t) (rowAt (kOf t) n) ch) := funext fun n => funext fun ch => rd0 V c t n ch
  have h1 : (fun ch => iblk0 V c 1 t (ix2 (0 : Fin 1) ch)) = fun ch => V c main_v1 (ix2 (0 : Fin 1) ch) := funext fun ch => rd1 V c t ch
  have h2 : (fun ch j => iblk0 V c 2 t (ix2 ch j)) = fun ch j => V c main_v5 (ix2 ch j) := funext fun ch => funext fun j => rd2 V c t ch j
  have h3 : (fun j => iblk0 V c 3 t (ix2 (0 : Fin 1) j)) = fun j => V c main_v10 (ix2 (0 : Fin 1) j) := funext fun j => rd3 V c t j
  rw [h0, h1, h2, h3]

end reads

/-- After the first tile of a batch element the context block holds the memory term plus that tile's sum. -/
theorem outs_even (c : Dev nD) (t : Fin cfg0.N) (h0 : t.val % 2 = 0) (r : Fin 512) (e : Fin 64) :
    outsAt0 V c t.val t.isLt (ix3 (0 : Fin 1) r e) = memAt V c r e + tile V c (bOf t) (kOf t) r e := by
  rw [outsAt0_A V c t h0]
  refine (Cert.KernelIdeal.Ctx0Body.out0_A_5_apply c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0)
    (iblk0 V c 0 t) (iblk0 V c 1 t) (iblk0 V c 2 t) (iblk0 V c 3 t) (iblk0 V c 4 t) r e).trans ?_
  rw [rd4 V c t r e, part_eq V c t r e]
  rfl

/-- After the second tile it holds that, plus the second tile's sum. -/
theorem outs_odd (c : Dev nD) (t : Fin cfg0.N) (h1 : ¬t.val % 2 = 0) (r : Fin 512) (e : Fin 64) :
    outsAt0 V c t.val t.isLt (ix3 (0 : Fin 1) r e)
      = (memAt V c r e + tile V c (bOf t) 0 r e) + tile V c (bOf t) 1 r e := by
  have hlt : t.val - 1 < cfg0.N := Nat.lt_of_le_of_lt (Nat.sub_le _ _) t.isLt
  rw [outsAt0_B V c t h1]
  refine (Cert.KernelIdeal.Ctx0Body.out0_B_5_apply c (grid0.coords t) (ms0_0 t) (hs0_0 t) (ms0_1 t) (hs0_1 t) (ms0_2 t) (hs0_2 t) (ms0_3 t) (hs0_3 t) (ms0_4 t) (hs0_4 t) (ms0_5 t) (hs0_5 t) (fun h => h1 ((hcond0_0 t).mp h))
    (iblk0 V c 0 t) (iblk0 V c 1 t) (iblk0 V c 2 t) (iblk0 V c 3 t) (iblk0 V c 4 t) (outsAt0 V c (t.val - 1) hlt) r e).trans ?_
  have hprev := outs_even V c ⟨t.val - 1, hlt⟩ (by show (t.val - 1) % 2 = 0; omega) r e
  have hb : bOf (⟨t.val - 1, hlt⟩ : Fin cfg0.N) = bOf t := Fin.ext (by show (t.val - 1) / 2 = t.val / 2; omega)
  have hk0 : kOf (⟨t.val - 1, hlt⟩ : Fin cfg0.N) = 0 := Fin.ext (by show (t.val - 1) % 2 = 0; omega)
  have hk1 : kOf t = 1 := Fin.ext (by show t.val % 2 = 1; omega)
  rw [hb, hk0] at hprev
  rw [part_eq V c t r e, hk1]
  exact congrArg (· + tile V c (bOf t) 1 r e) hprev

/-- What a flushing point (the second tile of a batch element) writes back is its block of `G0`. -/
theorem flushed0_eq (c : Dev nD) (t : Fin cfg0.N) (hf : (cfg0.win 5).flush t = true) :
    (dat0 V c).flushed 5 t = ((cfg0.win 5).blk t).view.read (Elt Ideal) (G0 V c) := by
  have hodd : t.val % 2 = 1 := (flush0_5 t).mp hf
  show (cfg0.win 5).cut (grid0.coords t) ((dat0 V c).after 5 t) = _
  rw [after0_5]
  funext j
  obtain ⟨z, r, e, rfl⟩ : ∃ (z : Fin 1) (r : Fin 512) (e : Fin 64), j = ix3 z r e := ⟨j 0, j 1, j 2, eq_ix3 j⟩
  obtain rfl : z = 0 := Subsingleton.elim _ _
  rw [View.read_apply]
  show outsAt0 V c t.val t.isLt (ix3 (0 : Fin 1) r e) = G0 V c (((cfg0.win 5).blk t).view.emb (ix3 (0 : Fin 1) r e))
  rw [emb5 t r e]
  exact outs_odd V c t (by omega) r e

theorem mem_blk (t : Fin cfg0.N) (i : S8x512x64.Idx) :
    i ∈ ((cfg0.win 5).blk t).view.set ↔ ∀ a : Fin 3, win0_5.index t a * S1x512x64.size a ≤ (i a).val ∧ (i a).val < win0_5.index t a * S1x512x64.size a + S1x512x64.size a := by
  show i ∈ ((View.whole main_v18).slice (win0_5.rect t)).set ↔ _
  rw [View.set_slice_whole, Rect.mem_set_unit]
  exact Iff.rfl

/-- Every index is in the block written back at the second tile of its batch element. -/
theorem cover (i : S8x512x64.Idx) :
    ∃ t : Fin cfg0.N, (cfg0.win 5).flush t = true ∧ i ∈ ((cfg0.win 5).blk t).view.set := by
  have h0 : (i 0).val < 8 := (i 0).isLt
  have h1 : (i 1).val < 512 := (i 1).isLt
  have h2 : (i 2).val < 64 := (i 2).isLt
  let t : Fin cfg0.N := ⟨2 * (i 0).val + 1, by rw [show cfg0.N = 16 from N_0]; omega⟩
  have htv : t.val = 2 * (i 0).val + 1 := rfl
  obtain ⟨-, -, -, -, -, -, -, -, -, -, -, e0, e1, e2⟩ := idx_facts t
  refine ⟨t, (flush0_5 t).mpr (by omega), ?_⟩
  rw [mem_blk]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 512 ≤ (i 1).val ∧ (i 1).val < win0_5.index t (1 : Fin 3) * 512 + 512; omega
  | ⟨2, _⟩ => show win0_5.index t (2 : Fin 3) * 64 ≤ (i 2).val ∧ (i 2).val < win0_5.index t (2 : Fin 3) * 64 + 64; omega

/-- The context array after the first kernel's run, from the arrays the call finds. -/
theorem final0 (c : Dev nD) : (dat0 V c).arrAt 5 cfg0.N = G0 V c :=
  (dat0 V c).arrAt_eq_of_cover 5 (G0 V c) (fun t hf => flushed0_eq V c t hf) (cover)

end Cert.KernelIdeal.Ctx0Array

end
-- ==== Proof.Compose.lean ====
/-
  The kernel's result buffer as the specification's function of the argument arrays.

  The final reshape reads the second call's result array; that array is `G1` of the arrays the second call finds;
  of those, the activations and the parameters are what the host operations before the first call made of the
  arguments (neither call writes them), and the context is `G0` of the arrays the first call finds.  Substituting,
  every entry is `Cert.Spec.outRow` of the token's row over the context  (memory + first 2048 tokens) + last 2048
  tokens, which is the specification's memory + all 4096 tokens: a finite sum cut in the middle, and associativity.
-/
import proofs.«104020_j30150670417974_2_alg».proof.Proof.Gen.KernelIdeal.Frame
import proofs.«104020_j30150670417974_2_alg».proof.Proof.Spec
import proofs.«104020_j30150670417974_2_alg».proof.Proof.HostGlue
import proofs.«104020_j30150670417974_2_alg».proof.Proof.Out1Array
import proofs.«104020_j30150670417974_2_alg».proof.Proof.Ctx0Array
import Idealize.ShloMosaic.Lib.ValueIdx
import Idealize.ShloMosaic.Lib.Pipeline.Value

set_option maxRecDepth 16384

noncomputable section

namespace Cert.KernelIdeal.Compose

open Cert.KernelIdeal Cert.KernelIdeal.Gen
open Idealize.ShloMosaic Idealize.ShloMosaic.TcCoe Idealize.SL.Sem Idealize.ShloMosaic.ValueIdx
open Idealize.ShloMosaic.Pipeline (Dat)
open Cert.KernelIdeal.Ctx0Array (rowAt tile g0 G0 memAt)
open Cert.KernelIdeal.Out1Array (g1 G1)

/-- The sum over all 4096 tokens is the sum over the first 2048 plus the sum over the last 2048: a finite sum in a
    commutative monoid cut at the middle. -/
theorem kvPart_split (x : Fin 4096 → Fin 256 → EReal) (γ : Fin 256 → EReal) (W : Fin 256 → Fin 1024 → EReal)
    (bias : Fin 1024 → EReal) (r : Fin 512) (e : Fin 64) :
    Cert.Spec.kvPart x γ W bias r e
      = Cert.Spec.kvPart (fun n : Fin 2048 => x (rowAt 0 n)) γ W bias r e
        + Cert.Spec.kvPart (fun n : Fin 2048 => x (rowAt 1 n)) γ W bias r e := by
  unfold Cert.Spec.kvPart
  have h := Fin.sum_univ_add (a := 2048) (b := 2048)
    (fun n : Fin (2048 + 2048) => Cert.Spec.projRow (x n) γ W bias (Cert.Spec.kcol r) * Cert.Spec.projRow (x n) γ W bias (Cert.Spec.vcol r e))
  have e0 : ∀ n : Fin 2048, (Fin.castAdd 2048 n : Fin (2048 + 2048)) = rowAt 0 n := fun n => Fin.ext (by show n.val = 0 * 2048 + n.val; omega)
  have e1 : ∀ n : Fin 2048, (Fin.natAdd 2048 n : Fin (2048 + 2048)) = rowAt 1 n := fun n => Fin.ext (by show 2048 + n.val = 1 * 2048 + n.val; omega)
  simp only [e0, e1] at h
  exact h

variable (m : (ℓ : Loc nD τ sig) → Buf (Elt Ideal) ℓ) (ρ : Dev nD → PrngReg) (c : Dev nD)

/-- The arrays the first call only reads, and the buffers it does not touch, are after it what they were before. -/
theorem V2_v0 : V2 m ρ c main_v0 = V1 m ρ c main_v0 :=
  (W2_arr m ρ c 0).trans ((dat0 (V1 m ρ) c).arrAt_in 0 rfl _)
theorem V2_v1 : V2 m ρ c main_v1 = V1 m ρ c main_v1 :=
  (W2_arr m ρ c 1).trans ((dat0 (V1 m ρ) c).arrAt_in 1 rfl _)
theorem V2_v4 : V2 m ρ c main_v4 = V1 m ρ c main_v4 := W2_of_ne m ρ c main_v4 (by decide)
theorem V2_v8 : V2 m ρ c main_v8 = V1 m ρ c main_v8 := W2_of_ne m ρ c main_v8 (by decide)
theorem V2_v6 : V2 m ρ c main_v6 = V1 m ρ c main_v6 := W2_of_ne m ρ c main_v6 (by decide)
theorem V2_v11 : V2 m ρ c main_v11 = V1 m ρ c main_v11 := W2_of_ne m ρ c main_v11 (by decide)
theorem V2_v2 : V2 m ρ c main_v2 = V1 m ρ c main_v2 := W2_of_ne m ρ c main_v2 (by decide)
/-- The context array after the first call. -/
theorem V2_v18 : V2 m ρ c main_v18 = G0 (V1 m ρ) c :=
  (W2_arr m ρ c 5).trans (Cert.KernelIdeal.Ctx0Array.final0 (V1 m ρ) c)
/-- The result array after the second call. -/
theorem W3_v19 : W3 m ρ c (Proc.devRef .tc main_v19) = G1 (V2 m ρ) c :=
  (W3_arr m ρ c 8).trans (Cert.KernelIdeal.Out1Array.final1 (V2 m ρ) c)

/-- One token tile's contribution, over the argument arrays. -/
theorem tile_eq (b : Fin 8) (k : Fin 2) (r : Fin 512) (e : Fin 64) :
    tile (V1 m ρ) c b k r e
      = Cert.Spec.kvPart (fun n : Fin 2048 => Cert.Spec.tok (m ((c : Thread nD τ).loc main_arg0)) b (rowAt k n)) (Cert.Spec.vec (m ((c : Thread nD τ).loc main_arg1)))
          (Cert.Spec.wkv (m ((c : Thread nD τ).loc main_arg3))) (Cert.Spec.bkv (m ((c : Thread nD τ).loc main_arg4))) r e := by
  unfold tile
  have h0 : (fun (n : Fin 2048) ch => V1 m ρ c main_v0 (ix3 b (rowAt k n) ch)) = fun (n : Fin 2048) => Cert.Spec.tok (m ((c : Thread nD τ).loc main_arg0)) b (rowAt k n) :=
    funext fun n => funext fun ch => Cert.KernelIdeal.HostGlue.v0_read m ρ c b (rowAt k n) ch
  have h1 : (fun ch => V1 m ρ c main_v1 (ix2 (0 : Fin 1) ch)) = Cert.Spec.vec (m ((c : Thread nD τ).loc main_arg1)) := funext fun ch => Cert.KernelIdeal.HostGlue.v1_read m ρ c ch
  have h2 : (fun ch j => V1 m ρ c main_v5 (ix2 ch j)) = Cert.Spec.wkv (m ((c : Thread nD τ).loc main_arg3)) := funext fun ch => funext fun j => Cert.KernelIdeal.HostGlue.v5_read m ρ c ch j
  have h3 : (fun j => V1 m ρ c main_v10 (ix2 (0 : Fin 1) j)) = Cert.Spec.bkv (m ((c : Thread nD τ).loc main_arg4)) := funext fun j => Cert.KernelIdeal.HostGlue.v10_read m ρ c j
  rw [h0, h1, h2, h3]

/-- The context the first call leaves is the specification's: memory term, then all 4096 tokens. -/
theorem ctx_eq (b : Fin 8) (r : Fin 512) (e : Fin 64) :
    g0 (V1 m ρ) c b r e = Cert.Spec.ctx (m ((c : Thread nD τ).loc main_arg0)) (m ((c : Thread nD τ).loc main_arg1)) (m ((c : Thread nD τ).loc main_arg2)) (m ((c : Thread nD τ).loc main_arg3)) (m ((c : Thread nD τ).loc main_arg4)) b r e := by
  unfold g0 memAt Cert.Spec.ctx
  rw [tile_eq, tile_eq, Cert.KernelIdeal.HostGlue.v17_read, kvPart_split (Cert.Spec.tok (m ((c : Thread nD τ).loc main_arg0)) b), add_assoc]

/-- The kernel's result buffer ends at the specification's result of the argument arrays. -/
theorem result_eq : W4 m ρ c (Proc.devRef .tc main_v20)
    = Cert.Spec.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  funext i
  obtain ⟨b, h, w, o, rfl⟩ : ∃ (b : Fin 8) (h w : Fin 64) (o : Fin 256), i = ix4 b h w o := ⟨i 0, i 1, i 2, i 3, eq_ix4 i⟩
  rw [Cert.KernelIdeal.HostGlue.v20_read m ρ c b h w o, W3_v19]
  show g1 (V2 m ρ) c b ⟨h.val * 64 + w.val, _⟩ o = Cert.Spec.res _ _ _ _ _ _ _ _ b ⟨h.val * 64 + w.val, _⟩ o
  unfold g1 Cert.Spec.res
  rw [V2_v0, V2_v1, V2_v4, V2_v8, V2_v6, V2_v11, V2_v2, V2_v18]
  have h0 : (fun ch => V1 m ρ c main_v0 (ix3 b (⟨h.val * 64 + w.val, by have := h.isLt; have := w.isLt; omega⟩ : Fin 4096) ch)) = Cert.Spec.tok (m ((c : Thread nD τ).loc main_arg0)) b ⟨h.val * 64 + w.val, by have := h.isLt; have := w.isLt; omega⟩ :=
    funext fun ch => Cert.KernelIdeal.HostGlue.v0_read m ρ c b _ ch
  have h1 : (fun ch => V1 m ρ c main_v1 (ix2 (0 : Fin 1) ch)) = Cert.Spec.vec (m ((c : Thread nD τ).loc main_arg1)) := funext fun ch => Cert.KernelIdeal.HostGlue.v1_read m ρ c ch
  have h2 : (fun ch j => V1 m ρ c main_v4 (ix2 ch j)) = Cert.Spec.wq (m ((c : Thread nD τ).loc main_arg3)) := funext fun ch => funext fun j => Cert.KernelIdeal.HostGlue.v4_read m ρ c ch j
  have h3 : (fun j => V1 m ρ c main_v8 (ix2 (0 : Fin 1) j)) = Cert.Spec.bq (m ((c : Thread nD τ).loc main_arg4)) := funext fun j => Cert.KernelIdeal.HostGlue.v8_read m ρ c j
  have h4 : (fun r e => G0 (V1 m ρ) c (ix3 b r e)) = Cert.Spec.ctx (m ((c : Thread nD τ).loc main_arg0)) (m ((c : Thread nD τ).loc main_arg1)) (m ((c : Thread nD τ).loc main_arg2)) (m ((c : Thread nD τ).loc main_arg3)) (m ((c : Thread nD τ).loc main_arg4)) b :=
    funext fun r => funext fun e => ctx_eq m ρ c b r e
  have h5 : (fun j o => V1 m ρ c main_v6 (ix2 j o)) = Cert.Spec.wo (m ((c : Thread nD τ).loc main_arg5)) := funext fun j => funext fun o => Cert.KernelIdeal.HostGlue.v6_read m ρ c j o
  have h6 : (fun o => V1 m ρ c main_v11 (ix2 (0 : Fin 1) o)) = Cert.Spec.vec (m ((c : Thread nD τ).loc main_arg6)) := funext fun o => Cert.KernelIdeal.HostGlue.v11_read m ρ c o
  have h7 : (fun o => V1 m ρ c main_v2 (ix2 (0 : Fin 1) o)) = Cert.Spec.vec (m ((c : Thread nD τ).loc main_arg7)) := funext fun o => Cert.KernelIdeal.HostGlue.v2_read m ρ c o
  rw [h0, h1, h2, h3, h4, h5, h6, h7]

end Cert.KernelIdeal.Compose

end
-- ==== Proof.RefValue.lean ====
/-
  The reference program computes the specification.

  Read one operation at a time, the reference is: the input normalised entry by entry, `x · (γ + 1) · 16`; ONE fused
  [256, 1536] projection plus bias, whose last axis is cut in three 512-wide blocks (queries, keys, values); each
  block reshaped row-major [8,64,64,512] → [8,4096,8,64] — entry (b, n, head, d) comes from (b, n / 64, n % 64,
  64·head + d) — and transposed to (b, head, n, d); the 4 memory key / value slots of each head put IN FRONT of the
  4096 token rows along the row axis (4100 rows); queries scaled by 1/8; the context of (b, head) the sum over the
  4100 rows of key · value; the attention output the query row against the context; heads merged back by the
  inverse transpose and reshape; the output projection plus bias; and `· (γ' + 1) · 16`.

  Each lemma below reads one of these arrays at explicit coordinates and names its entry in the words of the
  specification. The only law of arithmetic used is that a sum over 4 + 4096 rows is the sum over the first 4
  plus the sum over the last 4096; everything else is index arithmetic (n = 64·h + w ↔ (h, w) = (n / 64, n % 64);
  column 64·head + d of a 512-wide block) and the identification of the two programs' float literals, which are
  the same words and are never evaluated.
-/
import proofs.«104020_j30150670417974_2_alg».proof.Proof.Gen.ReferenceIdeal.Read
import proofs.«104020_j30150670417974_2_alg».proof.Proof.Spec
import Idealize.ShloMosaic.Lib.ValueIdx
import Idealize.ShloMosaic.Lib.Pipeline.Value
import Idealize.ShloMosaic.PureOps.Ideal.Laws

noncomputable section
namespace Cert.ReferenceIdeal.RefValue
open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx

section Pieces
variable (x0 : S8x64x64x256.Idx → EReal) (x1 : S256.Idx → EReal) (x2 : S2x8x4x64.Idx → EReal)
  (x3 : S256x1536.Idx → EReal) (x4 : S1536.Idx → EReal)

/-- Column `64·head + d` of a 512-wide block. -/
def qc (hd : Fin 8) (d : Fin 64) : Fin 512 := ⟨hd.val * 64 + d.val, by have := hd.isLt; have := d.isLt; omega⟩

/-- The fused [256, 1536] projection matrix and its bias, as plain functions of their coordinates. -/
def wAll (c : Fin 256) (j : Fin 1536) : EReal := x3 (ix2 c j)
def bAll (j : Fin 1536) : EReal := x4 (ix1 j)

/-- The normalised input at (b, h, w, c): `x · (γ + 1) · 16`. -/
theorem v6_at (b : Fin 8) (h w : Fin 64) (c : Fin 256) :
    val_main_v6 (F := Ideal) x0 x1 (ix4 b h w c)
      = Spec.normRow (fun c => x0 (ix4 b h w c)) (Spec.vec x1) c := by
  have e : idx_main_v2 (idx_main_v3 (ix4 b h w c)) = ix1 c :=
    funext fun a => match a with | ⟨0, _⟩ => rfl
  rw [val_main_v6_apply, val_main_v4_apply, val_main_v3_apply, val_main_v2_apply, val_main_v1_apply,
    val_main_v0_apply, val_main_cst_apply, val_main_v5_apply, val_main_cst_0_apply, e]
  rfl

/-- The fused projection at (b, h, w, j): the normalised row of that token against column j, plus the bias. -/
theorem v10_at (b : Fin 8) (h w : Fin 64) (j : Fin 1536) :
    val_main_v10 (F := Ideal) x0 x1 x3 x4 (ix4 b h w j)
      = Spec.projRow (fun c => x0 (ix4 b h w c)) (Spec.vec x1) (wAll x3) (bAll x4) j := by
  have el : ∀ k : Fin 256, lidx_main_v7 (ix4 b h w j) k = ix4 b h w k := fun k =>
    funext fun a => match a with | ⟨0, _⟩ => rfl | ⟨1, _⟩ => rfl | ⟨2, _⟩ => rfl | ⟨3, _⟩ => rfl
  have er : ∀ k : Fin 256, ridx_main_v7 (ix4 b h w j) k = ix2 k j := fun k =>
    funext fun a => match a with | ⟨0, _⟩ => rfl | ⟨1, _⟩ => rfl
  have eb : idx_main_v8 (idx_main_v9 (ix4 b h w j)) = ix1 j :=
    funext fun a => match a with | ⟨0, _⟩ => rfl
  rw [val_main_v10_apply, val_main_v7_apply, val_main_v9_apply, val_main_v8_apply, eb]
  simp only [el, er, v6_at]
  rfl

/-- The row-major reshape [8,64,64,512] → [8,4096,8,64] read backwards: (b, n, head, d) comes from
    (b, n / 64, n % 64, 64·head + d). -/
theorem reshape_heads (b : Fin 8) (n : Fin 4096) (hd : Fin 8) (d : Fin 64) :
    idx_main_v14 (ix4 b n hd d)
      = ix4 b ⟨n.val / 64, by have := n.isLt; omega⟩ ⟨n.val % 64, Nat.mod_lt _ (by decide)⟩ (qc hd d) := by
  have hb := b.isLt; have hn := n.isLt; have hh := hd.isLt; have hd' := d.isLt
  funext a
  match a with
  | ⟨0, _⟩ => exact Fin.ext (by show (((b.val * 4096 + n.val) * 8 + hd.val) * 64 + d.val) / 2097152 = b.val; omega)
  | ⟨1, _⟩ => exact Fin.ext (by show (((b.val * 4096 + n.val) * 8 + hd.val) * 64 + d.val) / 32768 % 64 = n.val / 64; omega)
  | ⟨2, _⟩ => exact Fin.ext (by show (((b.val * 4096 + n.val) * 8 + hd.val) * 64 + d.val) / 512 % 64 = n.val % 64; omega)
  | ⟨3, _⟩ => exact Fin.ext (by show (((b.val * 4096 + n.val) * 8 + hd.val) * 64 + d.val) % 512 = hd.val * 64 + d.val; omega)

/-- The scaled query at (b, head, n, d): token n's query entry of column 64·head + d, times 1/8. -/
theorem q_at (b : Fin 8) (hd : Fin 8) (n : Fin 4096) (d : Fin 64) :
    val_main_v29 (F := Ideal) x0 x1 x3 x4 (ix4 b hd n d)
      = Spec.qRow (Spec.tok x0 b n) (Spec.vec x1) (Spec.wq x3) (Spec.bq x4) (qc hd d) := by
  have e15 : idx_main_v15 (ix4 b hd n d) = ix4 b n hd d :=
    funext fun a => match a with | ⟨0, _⟩ => rfl | ⟨1, _⟩ => rfl | ⟨2, _⟩ => rfl | ⟨3, _⟩ => rfl
  rw [val_main_v29_apply, val_main_v15_apply, e15, val_main_v14_apply, reshape_heads, val_main_v11_apply,
    val_main_v28_apply, val_main_cst_1_apply]
  have e11 : idx_main_v11 (ix4 b ⟨n.val / 64, by have := n.isLt; omega⟩ ⟨n.val % 64, Nat.mod_lt _ (by decide)⟩ (qc hd d))
      = ix4 b ⟨n.val / 64, by have := n.isLt; omega⟩ ⟨n.val % 64, Nat.mod_lt _ (by decide)⟩
          (⟨(qc hd d).val, by have := (qc hd d).isLt; omega⟩ : Fin 1536) :=
    funext fun a => match a with | ⟨0, _⟩ => rfl | ⟨1, _⟩ => rfl | ⟨2, _⟩ => rfl | ⟨3, _⟩ => rfl
  rw [e11, v10_at]
  rfl

/-- The key at (b, head, n, d): token n's key/value projection at the key column of context row 64·head + d. -/
theorem k_at (b : Fin 8) (hd : Fin 8) (n : Fin 4096) (d : Fin 64) :
    val_main_v17 (F := Ideal) x0 x1 x3 x4 (ix4 b hd n d)
      = Spec.projRow (Spec.tok x0 b n) (Spec.vec x1) (Spec.wkv x3) (Spec.bkv x4) (Spec.kcol (qc hd d)) := by
  have e17 : idx_main_v17 (ix4 b hd n d) = ix4 b n hd d :=
    funext fun a => match a with | ⟨0, _⟩ => rfl | ⟨1, _⟩ => rfl | ⟨2, _⟩ => rfl | ⟨3, _⟩ => rfl
  have e16 : idx_main_v16 (ix4 b n hd d) = idx_main_v14 (ix4 b n hd d) := rfl
  rw [val_main_v17_apply, e17, val_main_v16_apply, e16, reshape_heads, val_main_v12_apply]
  have e12 : idx_main_v12 (ix4 b ⟨n.val / 64, by have := n.isLt; omega⟩ ⟨n.val % 64, Nat.mod_lt _ (by decide)⟩ (qc hd d))
      = ix4 b ⟨n.val / 64, by have := n.isLt; omega⟩ ⟨n.val % 64, Nat.mod_lt _ (by decide)⟩
          (⟨512 + (qc hd d).val, by have := (qc hd d).isLt; omega⟩ : Fin 1536) :=
    funext fun a => match a with | ⟨0, _⟩ => rfl | ⟨1, _⟩ => rfl | ⟨2, _⟩ => rfl | ⟨3, _⟩ => rfl
  rw [e12, v10_at]
  rfl

/-- The value at (b, head, n, e): token n's key/value projection at the value column paired with context
    entry (64·head + d, e) — the same column for every d. -/
theorem v_at (b : Fin 8) (hd : Fin 8) (n : Fin 4096) (d e : Fin 64) :
    val_main_v19 (F := Ideal) x0 x1 x3 x4 (ix4 b hd n e)
      = Spec.projRow (Spec.tok x0 b n) (Spec.vec x1) (Spec.wkv x3) (Spec.bkv x4) (Spec.vcol (qc hd d) e) := by
  have e19 : idx_main_v19 (ix4 b hd n e) = ix4 b n hd e :=
    funext fun a => match a with | ⟨0, _⟩ => rfl | ⟨1, _⟩ => rfl | ⟨2, _⟩ => rfl | ⟨3, _⟩ => rfl
  have e18 : idx_main_v18 (ix4 b n hd e) = idx_main_v14 (ix4 b n hd e) := rfl
  rw [val_main_v19_apply, e19, val_main_v18_apply, e18, reshape_heads, val_main_v13_apply]
  have e13 : idx_main_v13 (ix4 b ⟨n.val / 64, by have := n.isLt; omega⟩ ⟨n.val % 64, Nat.mod_lt _ (by decide)⟩ (qc hd e))
      = ix4 b ⟨n.val / 64, by have := n.isLt; omega⟩ ⟨n.val % 64, Nat.mod_lt _ (by decide)⟩
          (⟨512 + (Spec.vcol (qc hd d) e).val, by have := (Spec.vcol (qc hd d) e).isLt; omega⟩ : Fin 1536) := by
    have hh := hd.isLt; have hd' := d.isLt; have he := e.isLt
    funext a
    match a with
    | ⟨0, _⟩ => rfl
    | ⟨1, _⟩ => rfl
    | ⟨2, _⟩ => rfl
    | ⟨3, _⟩ => exact Fin.ext (by
        show 1024 + (hd.val * 64 + e.val) = 512 + (512 + (hd.val * 64 + d.val) / 64 * 64 + e.val); omega)
  rw [e13, v10_at]
  rfl

/-- Memory key slot s of a head, broadcast over the batch: `x2[0, head, s, d]`. -/
theorem mk_at (b : Fin 8) (hd : Fin 8) (s : Fin 4) (d : Fin 64) :
    val_main_v22 (F := Ideal) x2 (ix4 b hd s d) = x2 (ix4 (0 : Fin 2) hd s d) := by
  have hh := hd.isLt; have hs := s.isLt; have hd' := d.isLt
  have e22 : idx_main_v22 (ix4 b hd s d) = ix3 hd s d :=
    funext fun a => match a with | ⟨0, _⟩ => rfl | ⟨1, _⟩ => rfl | ⟨2, _⟩ => rfl
  have e21 : idx_main_v20 (idx_main_v21 (ix3 hd s d)) = ix4 (0 : Fin 2) hd s d := by
    funext a
    match a with
    | ⟨0, _⟩ => rfl
    | ⟨1, _⟩ => exact Fin.ext (by show ((hd.val * 4 + s.val) * 64 + d.val) / 256 % 8 = hd.val; omega)
    | ⟨2, _⟩ => exact Fin.ext (by show ((hd.val * 4 + s.val) * 64 + d.val) / 64 % 4 = s.val; omega)
    | ⟨3, _⟩ => exact Fin.ext (by show ((hd.val * 4 + s.val) * 64 + d.val) % 64 = d.val; omega)
  rw [val_main_v22_apply, e22, val_main_v21_apply, val_main_v20_apply, e21]

/-- Memory value slot s of a head, broadcast over the batch: `x2[1, head, s, e]`. -/
theorem mv_at (b : Fin 8) (hd : Fin 8) (s : Fin 4) (e : Fin 64) :
    val_main_v25 (F := Ideal) x2 (ix4 b hd s e) = x2 (ix4 (1 : Fin 2) hd s e) := by
  have hh := hd.isLt; have hs := s.isLt; have he := e.isLt
  have e25 : idx_main_v25 (ix4 b hd s e) = ix3 hd s e :=
    funext fun a => match a with | ⟨0, _⟩ => rfl | ⟨1, _⟩ => rfl | ⟨2, _⟩ => rfl
  have e24 : idx_main_v23 (idx_main_v24 (ix3 hd s e)) = ix4 (1 : Fin 2) hd s e := by
    funext a
    match a with
    | ⟨0, _⟩ => rfl
    | ⟨1, _⟩ => exact Fin.ext (by show ((hd.val * 4 + s.val) * 64 + e.val) / 256 % 8 = hd.val; omega)
    | ⟨2, _⟩ => exact Fin.ext (by show ((hd.val * 4 + s.val) * 64 + e.val) / 64 % 4 = s.val; omega)
    | ⟨3, _⟩ => exact Fin.ext (by show ((hd.val * 4 + s.val) * 64 + e.val) % 64 = e.val; omega)
  rw [val_main_v25_apply, e25, val_main_v24_apply, val_main_v23_apply, e24]

/-! The two concatenations put the 4 memory slots in front of the 4096 tokens along axis 2: row k < 4 is
    memory slot k, row 4 + n is token n. -/

theorem keys_mem (b : Fin 8) (hd : Fin 8) (s : Fin 4) (d : Fin 64) :
    val_main_v26 (F := Ideal) x0 x1 x2 x3 x4 (ix4 b hd (Fin.castAdd 4096 s) d) = x2 (ix4 (0 : Fin 2) hd s d) := by
  unfold val_main_v26
  exact (concatenate_pair_apply_left (t := S8x8x4100x64) (s₁ := S8x8x4x64) (s₂ := S8x8x4096x64) (2 : Fin 4) _ _ _ (ix4 b hd (Fin.castAdd 4096 s) d) rfl (ix4 b hd s d)
    (fun a => match a with | ⟨0, _⟩ => rfl | ⟨1, _⟩ => rfl | ⟨2, _⟩ => rfl | ⟨3, _⟩ => rfl)).trans (mk_at x2 b hd s d)

theorem vals_mem (b : Fin 8) (hd : Fin 8) (s : Fin 4) (e : Fin 64) :
    val_main_v27 (F := Ideal) x0 x1 x2 x3 x4 (ix4 b hd (Fin.castAdd 4096 s) e) = x2 (ix4 (1 : Fin 2) hd s e) := by
  unfold val_main_v27
  exact (concatenate_pair_apply_left (t := S8x8x4100x64) (s₁ := S8x8x4x64) (s₂ := S8x8x4096x64) (2 : Fin 4) _ _ _ (ix4 b hd (Fin.castAdd 4096 s) e) rfl (ix4 b hd s e)
    (fun a => match a with | ⟨0, _⟩ => rfl | ⟨1, _⟩ => rfl | ⟨2, _⟩ => rfl | ⟨3, _⟩ => rfl)).trans (mv_at x2 b hd s e)

theorem keys_tok (b : Fin 8) (hd : Fin 8) (n : Fin 4096) (d : Fin 64) :
    val_main_v26 (F := Ideal) x0 x1 x2 x3 x4 (ix4 b hd (Fin.natAdd 4 n) d)
      = Spec.projRow (Spec.tok x0 b n) (Spec.vec x1) (Spec.wkv x3) (Spec.bkv x4) (Spec.kcol (qc hd d)) := by
  unfold val_main_v26
  refine (concatenate_pair_apply_right (t := S8x8x4100x64) (s₁ := S8x8x4x64) (s₂ := S8x8x4096x64) (2 : Fin 4) _ _ _ (ix4 b hd (Fin.natAdd 4 n) d) rfl rfl (ix4 b hd n d)
    (fun a => match a with
      | ⟨0, _⟩ => fun _ => rfl | ⟨1, _⟩ => fun _ => rfl | ⟨2, _⟩ => fun h => absurd rfl h | ⟨3, _⟩ => fun _ => rfl)
    ?_).trans (k_at x0 x1 x3 x4 b hd n d)
  show n.val + 4 = 4 + n.val
  omega

theorem vals_tok (b : Fin 8) (hd : Fin 8) (n : Fin 4096) (d e : Fin 64) :
    val_main_v27 (F := Ideal) x0 x1 x2 x3 x4 (ix4 b hd (Fin.natAdd 4 n) e)
      = Spec.projRow (Spec.tok x0 b n) (Spec.vec x1) (Spec.wkv x3) (Spec.bkv x4) (Spec.vcol (qc hd d) e) := by
  unfold val_main_v27
  refine (concatenate_pair_apply_right (t := S8x8x4100x64) (s₁ := S8x8x4x64) (s₂ := S8x8x4096x64) (2 : Fin 4) _ _ _ (ix4 b hd (Fin.natAdd 4 n) e) rfl rfl (ix4 b hd n e)
    (fun a => match a with
      | ⟨0, _⟩ => fun _ => rfl | ⟨1, _⟩ => fun _ => rfl | ⟨2, _⟩ => fun h => absurd rfl h | ⟨3, _⟩ => fun _ => rfl)
    ?_).trans (v_at x0 x1 x3 x4 b hd n d e)
  show n.val + 4 = 4 + n.val
  omega

/-- The context at (b, head, d, e) is entry (64·head + d, e) of batch element b's stacked context: the sum over
    the 4100 concatenated rows splits into the 4 memory slots and the 4096 tokens. -/
theorem ctx_at (b : Fin 8) (hd : Fin 8) (d e : Fin 64) :
    val_main_v30 (F := Ideal) x0 x1 x2 x3 x4 (ix4 b hd d e) = Spec.ctx x0 x1 x2 x3 x4 b (qc hd d) e := by
  have el : ∀ k : Fin 4100, lidx_main_v30 (ix4 b hd d e) k = ix4 b hd k d := fun k =>
    funext fun a => match a with | ⟨0, _⟩ => rfl | ⟨1, _⟩ => rfl | ⟨2, _⟩ => rfl | ⟨3, _⟩ => rfl
  have er : ∀ k : Fin 4100, ridx_main_v30 (ix4 b hd d e) k = ix4 b hd k e := fun k =>
    funext fun a => match a with | ⟨0, _⟩ => rfl | ⟨1, _⟩ => rfl | ⟨2, _⟩ => rfl | ⟨3, _⟩ => rfl
  rw [val_main_v30_apply]
  simp only [el, er]
  refine (Fin.sum_univ_add (a := 4) (b := 4096) (fun k : Fin (4 + 4096) =>
    val_main_v26 (F := Ideal) x0 x1 x2 x3 x4 (ix4 b hd k d) * val_main_v27 (F := Ideal) x0 x1 x2 x3 x4 (ix4 b hd k e))).trans ?_
  unfold Spec.ctx
  refine congrArg₂ (· + ·) ?_ ?_
  · unfold Spec.memCtx
    refine Finset.sum_congr rfl fun s _ => ?_
    rw [keys_mem, vals_mem]
    have hh := hd.isLt; have hd' := d.isLt
    have h1 : (⟨(qc hd d).val / 64, by have := (qc hd d).isLt; omega⟩ : Fin 8) = hd :=
      Fin.ext (by show (hd.val * 64 + d.val) / 64 = hd.val; omega)
    have h2 : (⟨(qc hd d).val % 64, Nat.mod_lt _ (by decide)⟩ : Fin 64) = d :=
      Fin.ext (by show (hd.val * 64 + d.val) % 64 = d.val; omega)
    rw [h1, h2]
  · unfold Spec.kvPart
    refine Finset.sum_congr rfl fun n _ => ?_
    rw [keys_tok, vals_tok x0 x1 x2 x3 x4 b hd n d e]

/-- The attention output at (b, head, n, e): token n's scaled query row of that head against column e of the head's context. -/
theorem att_at (b : Fin 8) (hd : Fin 8) (n : Fin 4096) (e : Fin 64) :
    val_main_v31 (F := Ideal) x0 x1 x2 x3 x4 (ix4 b hd n e)
      = ∑ d : Fin 64, Spec.qRow (Spec.tok x0 b n) (Spec.vec x1) (Spec.wq x3) (Spec.bq x4) (qc hd d)
          * Spec.ctx x0 x1 x2 x3 x4 b (qc hd d) e := by
  have el : ∀ k : Fin 64, lidx_main_v31 (ix4 b hd n e) k = ix4 b hd n k := fun k =>
    funext fun a => match a with | ⟨0, _⟩ => rfl | ⟨1, _⟩ => rfl | ⟨2, _⟩ => rfl | ⟨3, _⟩ => rfl
  have er : ∀ k : Fin 64, ridx_main_v31 (ix4 b hd n e) k = ix4 b hd k e := fun k =>
    funext fun a => match a with | ⟨0, _⟩ => rfl | ⟨1, _⟩ => rfl | ⟨2, _⟩ => rfl | ⟨3, _⟩ => rfl
  rw [val_main_v31_apply]
  simp only [el, er, q_at, ctx_at]

/-- Heads merged back, at (b, h, w, j): the attention row of token 64·h + w at column j = 64·head + e
    (the reshape [8,4096,8,64] → [8,64,64,512] read backwards, then the transpose). -/
theorem merged_at (b : Fin 8) (h w : Fin 64) (j : Fin 512) :
    val_main_v33 (F := Ideal) x0 x1 x2 x3 x4 (ix4 b h w j)
      = Spec.attRow (Spec.tok x0 b ⟨h.val * 64 + w.val, by have := h.isLt; have := w.isLt; omega⟩) (Spec.vec x1)
          (Spec.wq x3) (Spec.bq x4) (Spec.ctx x0 x1 x2 x3 x4 b) j := by
  have hb := b.isLt; have hh := h.isLt; have hw := w.isLt; have hj := j.isLt
  have e33 : idx_main_v33 (ix4 b h w j)
      = ix4 b (⟨h.val * 64 + w.val, by omega⟩ : Fin 4096) (⟨j.val / 64, by omega⟩ : Fin 8)
          (⟨j.val % 64, Nat.mod_lt _ (by decide)⟩ : Fin 64) := by
    funext a
    match a with
    | ⟨0, _⟩ => exact Fin.ext (by show (((b.val * 64 + h.val) * 64 + w.val) * 512 + j.val) / 2097152 = b.val; omega)
    | ⟨1, _⟩ => exact Fin.ext (by show (((b.val * 64 + h.val) * 64 + w.val) * 512 + j.val) / 512 % 4096 = h.val * 64 + w.val; omega)
    | ⟨2, _⟩ => exact Fin.ext (by show (((b.val * 64 + h.val) * 64 + w.val) * 512 + j.val) / 64 % 8 = j.val / 64; omega)
    | ⟨3, _⟩ => exact Fin.ext (by show (((b.val * 64 + h.val) * 64 + w.val) * 512 + j.val) % 64 = j.val % 64; omega)
  have e32 : ∀ (n : Fin 4096) (hd : Fin 8) (e : Fin 64), idx_main_v32 (ix4 b n hd e) = ix4 b hd n e := fun n hd e =>
    funext fun a => match a with | ⟨0, _⟩ => rfl | ⟨1, _⟩ => rfl | ⟨2, _⟩ => rfl | ⟨3, _⟩ => rfl
  rw [val_main_v33_apply, e33, val_main_v32_apply, e32, att_at]
  rfl

end Pieces

/-- The reference computes the specification: output projection of the merged attention rows, plus the bias,
    times `(γ' + 1)`, times 16, at every (b, h, w, o). -/
theorem result_eq (x0 : S8x64x64x256.Idx → EReal) (x1 : S256.Idx → EReal) (x2 : S2x8x4x64.Idx → EReal)
    (x3 : S256x1536.Idx → EReal) (x4 : S1536.Idx → EReal) (x5 : S512x256.Idx → EReal) (x6 x7 : S256.Idx → EReal) :
    Cert.ReferenceIdeal.Read.val_main_v44 (F := Ideal) x0 x1 x2 x3 x4 x5 x6 x7
      = Cert.Spec.result x0 x1 x2 x3 x4 x5 x6 x7 := by
  funext i
  obtain ⟨b, h, w, o, rfl⟩ : ∃ (b : Fin 8) (h w : Fin 64) (o : Fin 256), i = ix4 b h w o :=
    ⟨i 0, i 1, i 2, i 3, eq_ix4 i⟩
  have el : ∀ k : Fin 512, lidx_main_v34 (ix4 b h w o) k = ix4 b h w k := fun k =>
    funext fun a => match a with | ⟨0, _⟩ => rfl | ⟨1, _⟩ => rfl | ⟨2, _⟩ => rfl | ⟨3, _⟩ => rfl
  have er : ∀ k : Fin 512, ridx_main_v34 (ix4 b h w o) k = ix2 k o := fun k =>
    funext fun a => match a with | ⟨0, _⟩ => rfl | ⟨1, _⟩ => rfl
  have e36 : idx_main_v35 (idx_main_v36 (ix4 b h w o)) = ix1 o :=
    funext fun a => match a with | ⟨0, _⟩ => rfl
  have e41 : idx_main_v40 (idx_main_v41 (ix4 b h w o)) = ix1 o :=
    funext fun a => match a with | ⟨0, _⟩ => rfl
  rw [val_main_v44_apply, val_main_v42_apply, val_main_v37_apply, val_main_v34_apply, val_main_v36_apply,
    val_main_v35_apply, e36, val_main_v41_apply, val_main_v40_apply, val_main_v39_apply, val_main_v38_apply,
    val_main_cst_2_apply, e41, val_main_v43_apply, val_main_cst_3_apply]
  simp only [el, er, merged_at]
  rfl

end Cert.ReferenceIdeal.RefValue
end
-- ==== Proof.lean ====
/-
  The certificate of a linear-attention layer: a two-pass tiled kernel against its plain reference.

  Both programs normalise every token row (x · (γ + 1) · 16), project it to queries, keys and values, form per batch
  element and head the 64 × 64 context  (memory keys)ᵀ·(memory values) + ∑ over the 4096 tokens of kᵀ·v,  multiply
  each token's query (scaled by 1/8) by its head's context, project the result and normalise it again.  The kernel
  computes the context in a first pass — the memory term seeded at the first token tile of a batch element, each of
  the two tiles of 2048 tokens added in turn — and the outputs in a second pass, tile by tile; the reference stacks
  the 4 memory slots in front of the 4096 tokens and takes one sum over 4100 rows.  Over the extended reals the two
  are the same function of the arguments (`Cert.Spec.result`): only commutativity and associativity of the sum are
  used — a sum over 4100 rows split after the first 4, a sum over 4096 rows split in the middle — so the
  precondition is never opened.  The frames of the two printed kernels are the generated ones; the reference's frame
  is its generated run with the result dropped; the idealized kernel is the kernel's own text read over the extended reals
  (no operation was rewritten), so `preserves` is `True`.
-/
import proofs.«104020_j30150670417974_2_alg».proof.Defs
import proofs.«104020_j30150670417974_2_alg».proof.Proof.Gen.Kernel
import proofs.«104020_j30150670417974_2_alg».proof.Proof.Gen.Kernel.Frame
import proofs.«104020_j30150670417974_2_alg».proof.Proof.Gen.KernelIdeal
import proofs.«104020_j30150670417974_2_alg».proof.Proof.Gen.KernelIdeal.Frame
import proofs.«104020_j30150670417974_2_alg».proof.Proof.Gen.ReferenceIdeal
import proofs.«104020_j30150670417974_2_alg».proof.Proof.Gen.ReferenceIdeal.Run
import proofs.«104020_j30150670417974_2_alg».proof.Proof.Gen.ReferenceIdeal.Read
import proofs.«104020_j30150670417974_2_alg».proof.Proof.Gen.Pre_finite_inputs
import proofs.«104020_j30150670417974_2_alg».proof.Proof.RunValue
import proofs.«104020_j30150670417974_2_alg».proof.Proof.Compose
import proofs.«104020_j30150670417974_2_alg».proof.Proof.RefValue
import Idealize.ShloMosaic.Adequacy
import Idealize.ShloMosaic.Init

noncomputable section

namespace Cert.Proof

open Idealize.ShloMosaic Idealize.SL.Sem

/-- At the ideal instance both programs end with the specification's result of arguments that agree: the kernel by
    its run, the contents of the buffers at the segment boundaries and the two calls' arrays; the reference by its
    generated run read one operation at a time. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.Spec.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Compose.result_eq m ρ c), (h c).2⟩)
      (Cert.KernelIdeal.RunValue.run (F := Ideal) m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v44_eq, Cert.ReferenceIdeal.RefValue.result_eq,
      (hagree c).1, (hagree c).2.1, (hagree c).2.2.1, (hagree c).2.2.2.1, (hagree c).2.2.2.2.1, (hagree c).2.2.2.2.2.1,
      (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
